-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) (main_arg1 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  main_v8
-- ==== Kernel.lean ====
abbrev S4096x1024 : Shape := ⟨2, ![4096, 1024]⟩
abbrev S512x1024 : Shape := ⟨2, ![512, 1024]⟩
abbrev S512 : Shape := ⟨1, ![512]⟩
abbrev S512x1 : Shape := ⟨2, ![512, 1]⟩
abbrev S8192x1024 : Shape := ⟨2, ![8192, 1024]⟩
abbrev S8192x1 : Shape := ⟨2, ![8192, 1]⟩
abbrev S1024x1024 : Shape := ⟨2, ![1024, 1024]⟩
abbrev S1024x1 : Shape := ⟨2, ![1024, 1]⟩
abbrev S1024 : Shape := ⟨1, ![1024]⟩
abbrev S_ : Shape := ⟨0, ![]⟩

abbrev nBuf : Space → Nat
  | .hbm => 10
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S8192x1024, .bf16⟩
  | .hbm, ⟨5, _⟩ => ⟨S8192x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | .local _ .vmem, ⟨16, _⟩ => ⟨S1024x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc2_scratch0 : Ref sig .tc := ⟨.vmem, 14, rfl⟩
abbrev cc2_scratch1 : Ref sig .tc := ⟨.vmem, 15, rfl⟩
abbrev cc2_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![8, 8], ![false, false]⟩

def k2_cond4 (i : grid2.Coords) : BitVec 1 :=
  let arg1 : BitVec 32 := BitVec.ofNat 32 (i 1).val
  let c7_i32 : BitVec 32 := 7#32
  let v29 : BitVec 1 := Scalar.cmpi .eq arg1 c7_i32
  let v30 : BitVec 32 := Scalar.extui v29
  let c0_i32_14 : BitVec 32 := 0#32
  let v31 : BitVec 1 := Scalar.cmpi .ne v30 c0_i32_14
  v31

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  inb_S512x1024_S512x1024_0_0 : ∀ a, (![0, 0] : Fin 2 → Nat) a + S512x1024.size a ≤ S512x1024.size a
  h_S512x1024 : 0 < S512x1024.numel
  reduces_S512x1024_S512 : S512x1024.Reduces [1] S512
  shapeCasts_S512_S512x1 : S512.ShapeCasts S512x1
  broadcasts_S512x1_S512x1024 : S512x1.Broadcasts S512x1024
  bitsLt_bf16_f32 : FTy.bits .bf16 < FTy.bits .f32
  packedbf16_S512x1024_S512x1024_0_0 : (Rect.unit (s := S512x1024) ![0, 0] S512x1024.size inb_S512x1024_S512x1024_0_0).PackedRows (EltTy.packing .bf16)
  concatenates_S4096x1024_S4096x1024_S8192x1024_d0 : Shape.Concatenates [S4096x1024, S4096x1024] S8192x1024 0
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  transposes_S1024x1024_p1_0_S1024x1024 : S1024x1024.Transposes [1, 0] S1024x1024
  reduces_S1024x1024_S1024 : S1024x1024.Reduces [1] S1024
  shapeCasts_S1024_S1024x1 : S1024.ShapeCasts S1024x1
  iota_S1024x1024_d0_w32 : S1024x1024.Iotas .tc 32 [0]
  iota_S1024x1024_d1_w32 : S1024x1024.Iotas .tc 32 [1]
  reducesTo_S8192x1_S_d0_1 : S8192x1.ReducesTo [0, 1] S_
  h_S_ : 0 < S_.numel
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .bf16 = 32 ∨ (Rect.block (s := S4096x1024) S512x1024.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x1024.size a
  hwx1_0 : ∀ i : grid1.Coords, EltTy.bits .f32 = 32 ∨ (Rect.block (s := S4096x1024) S512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S4096x1024.size a
  hwx1_1 : ∀ i : grid1.Coords, EltTy.bits .bf16 = 32 ∨ (Rect.block (s := S4096x1024) S512x1024.size (cc1_transform_1 i) (hinb1_1 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x1024.size a
  hwx2_0 : ∀ i : grid2.Coords, EltTy.bits .bf16 = 32 ∨ (Rect.block (s := S8192x1024) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S8192x1024.size a
  hwx2_1 : ∀ i : grid2.Coords, EltTy.bits .bf16 = 32 ∨ (Rect.block (s := S8192x1024) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1.size a ≤ S8192x1.size a
  hwx2_2 : ∀ i : grid2.Coords, EltTy.bits .f32 = 32 ∨ (Rect.block (s := S8192x1) S1024x1.size (cc2_transform_2 i) (hinb2_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x1024.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v2) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1024x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond4 i == 1#1) | ⟨_ + 3, h⟩ => absurd h (Nat.not_lt.2 (Nat.le_add_left _ _))

class Facts : Prop extends Facts₀ where

variable [Facts]
-- ==== ReferenceIdeal.lean ====
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S8192x1024 : Shape := ⟨2, ![8192, 1024]⟩
abbrev S8192x8192 : Shape := ⟨2, ![8192, 8192]⟩
abbrev S4096x2 : Shape := ⟨2, ![4096, 2]⟩
abbrev S8192 : Shape := ⟨1, ![8192]⟩

abbrev nBuf : Space → Nat
  | .hbm => 99
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S8192x1024, .f32⟩
  | .hbm, ⟨23, _⟩ => ⟨S8192x8192, .f32⟩
  | .hbm, ⟨24, _⟩ => ⟨S4096, .i32⟩
  | .hbm, ⟨25, _⟩ => ⟨S4096, .i32⟩
  | .hbm, ⟨26, _⟩ => ⟨S_, .i32⟩
  | .hbm, ⟨27, _⟩ => ⟨S4096, .i32⟩
  | .hbm, ⟨28, _⟩ => ⟨S4096, .i32⟩
  | .hbm, ⟨29, _⟩ => ⟨S_, .i32⟩
  | .hbm, ⟨30, _⟩ => ⟨S4096, .i32⟩
  | .hbm, ⟨31, _⟩ => ⟨S4096, .i1⟩
  | .hbm, ⟨32, _⟩ => ⟨S_, .i32⟩
  | .hbm, ⟨33, _⟩ => ⟨S4096, .i32⟩
  | .hbm, ⟨34, _⟩ => ⟨S4096, .i32⟩
  | .hbm, ⟨35, _⟩ => ⟨S4096, .i32⟩
  | .hbm, ⟨36, _⟩ => ⟨S_, .i32⟩
  | .hbm, ⟨37, _⟩ => ⟨S4096, .i32⟩
  | .hbm, ⟨38, _⟩ => ⟨S4096, .i1⟩
  | .hbm, ⟨39, _⟩ => ⟨S_, .i32⟩
  | .hbm, ⟨40, _⟩ => ⟨S4096, .i32⟩
  | .hbm, ⟨41, _⟩ => ⟨S4096, .i32⟩
  | .hbm, ⟨42, _⟩ => ⟨S4096, .i32⟩
  | .hbm, ⟨43, _⟩ => ⟨S4096x1, .i32⟩
  | .hbm, ⟨44, _⟩ => ⟨S4096x1, .i32⟩
  | .hbm, ⟨45, _⟩ => ⟨S4096x2, .i32⟩
  | .hbm, ⟨46, _⟩ => ⟨S4096, .f32⟩
  | .hbm, ⟨47, _⟩ => ⟨S4096, .i32⟩
  | .hbm, ⟨48, _⟩ => ⟨S4096, .i32⟩
  | .hbm, ⟨49, _⟩ => ⟨S_, .i32⟩
  | .hbm, ⟨50, _⟩ => ⟨S4096, .i32⟩
  | .hbm, ⟨51, _⟩ => ⟨S4096, .i32⟩
  | .hbm, ⟨52, _⟩ => ⟨S_, .i32⟩
  | .hbm, ⟨53, _⟩ => ⟨S4096, .i32⟩
  | .hbm, ⟨54, _⟩ => ⟨S4096, .i1⟩
  | .hbm, ⟨55, _⟩ => ⟨S_, .i32⟩
  | .hbm, ⟨56, _⟩ => ⟨S4096, .i32⟩
  | .hbm, ⟨57, _⟩ => ⟨S4096, .i32⟩
  | .hbm, ⟨58, _⟩ => ⟨S4096, .i32⟩
  | .hbm, ⟨59, _⟩ => ⟨S_, .i32⟩
  | .hbm, ⟨60, _⟩ => ⟨S4096, .i32⟩
  | .hbm, ⟨61, _⟩ => ⟨S4096, .i1⟩
  | .hbm, ⟨62, _⟩ => ⟨S_, .i32⟩
  | .hbm, ⟨63, _⟩ => ⟨S4096, .i32⟩
  | .hbm, ⟨64, _⟩ => ⟨S4096, .i32⟩
  | .hbm, ⟨65, _⟩ => ⟨S4096, .i32⟩
  | .hbm, ⟨66, _⟩ => ⟨S4096x1, .i32⟩
  | .hbm, ⟨67, _⟩ => ⟨S4096x1, .i32⟩
  | .hbm, ⟨68, _⟩ => ⟨S4096x2, .i32⟩
  | .hbm, ⟨69, _⟩ => ⟨S4096, .f32⟩
  | .hbm, ⟨70, _⟩ => ⟨S8192, .f32⟩
  | .hbm, ⟨71, _⟩ => ⟨S_, .f32⟩
  | .hbm, ⟨72, _⟩ => ⟨S8192, .f32⟩
  | .hbm, ⟨73, _⟩ => ⟨S8192, .f32⟩
  | .hbm, ⟨74, _⟩ => ⟨S8192, .f32⟩
  | .hbm, ⟨75, _⟩ => ⟨S8192x8192, .i32⟩
  | .hbm, ⟨76, _⟩ => ⟨S8192x8192, .i32⟩
  | .hbm, ⟨77, _⟩ => ⟨S_, .i32⟩
  | .hbm, ⟨78, _⟩ => ⟨S8192x8192, .i32⟩
  | .hbm, ⟨79, _⟩ => ⟨S8192x8192, .i32⟩
  | .hbm, ⟨80, _⟩ => ⟨S8192x8192, .i1⟩
  | .hbm, ⟨81, _⟩ => ⟨S8192x8192, .f32⟩
  | .hbm, ⟨82, _⟩ => ⟨S_, .f32⟩
  | .hbm, ⟨83, _⟩ => ⟨S8192x8192, .f32⟩
  | .hbm, ⟨84, _⟩ => ⟨S8192x8192, .f32⟩
  | .hbm, ⟨85, _⟩ => ⟨S_, .f32⟩
  | .hbm, ⟨86, _⟩ => ⟨S8192x8192, .f32⟩
  | .hbm, ⟨87, _⟩ => ⟨S8192x8192, .f32⟩
  | .hbm, ⟨88, _⟩ => ⟨S8192x8192, .f32⟩
  | .hbm, ⟨89, _⟩ => ⟨S8192x8192, .f32⟩
  | .hbm, ⟨90, _⟩ => ⟨S_, .f32⟩
  | .hbm, ⟨91, _⟩ => ⟨S8192, .f32⟩
  | .hbm, ⟨92, _⟩ => ⟨S8192, .f32⟩
  | .hbm, ⟨93, _⟩ => ⟨S8192, .f32⟩
  | .hbm, ⟨94, _⟩ => ⟨S8192, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_v0 : Ref sig .tc := ⟨.hbm, 24, rfl⟩
abbrev main_call0_v1 : Ref sig .tc := ⟨.hbm, 25, rfl⟩
abbrev main_call0_c : Ref sig .tc := ⟨.hbm, 26, rfl⟩
abbrev main_call0_v2 : Ref sig .tc := ⟨.hbm, 27, rfl⟩
abbrev main_call0_v3 : Ref sig .tc := ⟨.hbm, 28, rfl⟩
abbrev main_call0_c_0 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_c_2 : Ref sig .tc := ⟨.hbm, 36, rfl⟩
abbrev main_call0_v9 : Ref sig .tc := ⟨.hbm, 37, rfl⟩
abbrev main_call0_v10 : Ref sig .tc := ⟨.hbm, 38, rfl⟩
abbrev main_call0_c_3 : Ref sig .tc := ⟨.hbm, 39, rfl⟩
abbrev main_call0_v11 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_v15 : Ref sig .tc := ⟨.hbm, 44, rfl⟩
abbrev main_call0_v16 : Ref sig .tc := ⟨.hbm, 45, rfl⟩
abbrev main_v18 : Ref sig .tc := ⟨.hbm, 46, rfl⟩
abbrev main_call1_v0 : Ref sig .tc := ⟨.hbm, 47, rfl⟩
abbrev main_call1_v1 : Ref sig .tc := ⟨.hbm, 48, rfl⟩
abbrev main_call1_c : Ref sig .tc := ⟨.hbm, 49, rfl⟩
abbrev main_call1_v2 : Ref sig .tc := ⟨.hbm, 50, rfl⟩
abbrev main_call1_v3 : Ref sig .tc := ⟨.hbm, 51, rfl⟩
abbrev main_call1_c_0 : Ref sig .tc := ⟨.hbm, 52, rfl⟩
abbrev main_call1_v4 : Ref sig .tc := ⟨.hbm, 53, rfl⟩
abbrev main_call1_v5 : Ref sig .tc := ⟨.hbm, 54, rfl⟩
abbrev main_call1_c_1 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_c_2 : Ref sig .tc := ⟨.hbm, 59, rfl⟩
abbrev main_call1_v9 : Ref sig .tc := ⟨.hbm, 60, rfl⟩
abbrev main_call1_v10 : Ref sig .tc := ⟨.hbm, 61, rfl⟩
abbrev main_call1_c_3 : Ref sig .tc := ⟨.hbm, 62, rfl⟩
abbrev main_call1_v11 : Ref sig .tc := ⟨.hbm, 63, rfl⟩
abbrev main_call1_v12 : Ref sig .tc := ⟨.hbm, 64, rfl⟩
abbrev main_call1_v13 : Ref sig .tc := ⟨.hbm, 65, rfl⟩
abbrev main_call1_v14 : Ref sig .tc := ⟨.hbm, 66, rfl⟩
abbrev main_call1_v15 : Ref sig .tc := ⟨.hbm, 67, rfl⟩
abbrev main_call1_v16 : Ref sig .tc := ⟨.hbm, 68, rfl⟩
abbrev main_v19 : Ref sig .tc := ⟨.hbm, 69, rfl⟩
abbrev main_v20 : Ref sig .tc := ⟨.hbm, 70, rfl⟩
abbrev main_cst_3 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_c : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_cst_4 : Ref sig .tc := ⟨.hbm, 82, rfl⟩
abbrev main_v30 : Ref sig .tc := ⟨.hbm, 83, rfl⟩
abbrev main_v31 : Ref sig .tc := ⟨.hbm, 84, rfl⟩
abbrev main_cst_5 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_cst_6 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_cst_7 : Ref sig .tc := ⟨.hbm, 95, rfl⟩
abbrev main_v40 : Ref sig .tc := ⟨.hbm, 96, rfl⟩
abbrev main_cst_8 : Ref sig .tc := ⟨.hbm, 97, rfl⟩
abbrev main_v41 : Ref sig .tc := ⟨.hbm, 98, rfl⟩

abbrev nD : Nat := 1
abbrev τ : Topo := Topo.v7x

variable {F : FTy → Type} [FloatOps F]

class Facts₀ : Prop where
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  concatenates_S4096x1024_S4096x1024_S8192x1024_d0 : Shape.Concatenates [S4096x1024, S4096x1024] S8192x1024 0
  bcast_S_S4096 : S_.BroadcastsInDim S4096 (![] : Fin 0 → Fin S4096.rank)
  concatenates_S4096x1_S4096x1_S4096x2_d1 : Shape.Concatenates [S4096x1, S4096x1] S4096x2 1
  concatenates_S4096_S4096_S8192_d0 : Shape.Concatenates [S4096, S4096] S8192 0
  bcast_S_S8192 : S_.BroadcastsInDim S8192 (![] : Fin 0 → Fin S8192.rank)
  bcast_S_S8192x8192 : S_.BroadcastsInDim S8192x8192 (![] : Fin 0 → Fin S8192x8192.rank)
  reducesTo_S8192x8192_S8192_d1 : S8192x8192.ReducesTo [1] S8192
  reducesTo_S8192_S_d0 : S8192.ReducesTo [0] S_
  dot_S8192x1024_S8192x1024_S8192x8192_1_1_0_0_n_n_wf : DotDims.WF S8192x1024 S8192x1024 S8192x8192 [1] [1] [0] [0] [] []
  gather_S8192x8192_S4096x2_S4096_n_01_n_n_01_1_11_wf : GatherDims.WF S8192x8192 S4096x2 S4096 [] [0, 1] [] [0, 1] [] 1 ![1, 1]

variable [Facts₀]

def dot_S8192x1024_S8192x1024_S8192x8192_1_1_0_0_n_n : DotDims S8192x1024 S8192x1024 S8192x8192 where
  lhsContracting := [1]
  rhsContracting := [1]
  lhsNonContracting := [0]
  rhsNonContracting := [0]
  lhsBatch := []
  rhsBatch := []
  wf := dot_S8192x1024_S8192x1024_S8192x8192_1_1_0_0_n_n_wf
def gather_S8192x8192_S4096x2_S4096_n_01_n_n_01_1_11 : GatherDims S8192x8192 S4096x2 S4096 where
  offsetDims := []
  collapsedSliceDims := [0, 1]
  operandBatchingDims := []
  startIndicesBatchingDims := []
  startIndexMap := [0, 1]
  indexVectorDim := 1
  sliceSizes := ![1, 1]
  wf := gather_S8192x8192_S4096x2_S4096_n_01_n_n_01_1_11_wf

class Facts : Prop extends Facts₀ where

variable [Facts]
-- ==== Proof.FrameNorm0.lean ====
/-
  Region 0 of the program: one row-normalising kernel over 8 blocks of 512 rows.

  At a grid point the body reads its input block whole, computes the normalised rows (the generated payload
  `k0_pay1`) and stores them whole into the output block.  So after the body the output staging buffer holds the
  payload of the input block, whatever it held before; the input buffer is as it was.  Everything is stated at an
  arbitrary valuation `V` of the core's buffers at the region's entry, and for every float instance.
-/
import proofs.«115958_j13091060319093_1_alg».proof.Proof.Gen.KernelIdeal.Launch
import proofs.«115958_j13091060319093_1_alg».proof.Proof.Gen.KernelIdeal.Skeleton
import proofs.«115958_j13091060319093_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body reads and writes through: the whole block. -/
abbrev r0_0 : Rect S512x1024 := Rect.unit (s := S512x1024) ![0, 0] S512x1024.size inb_S512x1024_S512x1024_0_0

/-- The output buffer after the body, from the input block: its one store as a piece. -/
def out0_1 (x0 : Vec F S512x1024 .f32) : Vec F S512x1024 .bf16 :=
  View.canon [⟨r0_0, k0_pay1 (View.ld x0 r0_0)⟩]

/-- The store covers the buffer. -/
theorem cover0_1 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

set_option maxHeartbeats 1000000 in
/-- The body on whole staging memrefs, the input's at contents `x0` and the output's at anything, runs to the
    continuation holding the input's as it was and the output's at `out0_1 x0`. -/
theorem sound_kernel0 (c : Dev nD) (E : Set ℕ) (i : grid0.Coords) (arg1 : Memref sig .tc .vmem S512x1024 .f32) (harg1 : arg1.IsWhole) (arg2 : Memref sig .tc .vmem S512x1024 .bf16) (harg2 : arg2.IsWhole)
    (x0 : Vec F S512x1024 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__normalize_kernel i arg1 harg1 arg2 harg2) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of pipeline 0 on core `c`: the arrays as the region finds them; after the body at point `t` the
    input's buffer at its block and the output's at the payload of that block; nothing else carried, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.FrameNorm1.lean ====
/-
  Region 1 of the program: one row-normalising kernel over 8 blocks of 512 rows.

  At a grid point the body reads its input block whole, computes the normalised rows (the generated payload
  `k1_pay1`) and stores them whole into the output block.  So after the body the output staging buffer holds the
  payload of the input block, whatever it held before; the input buffer is as it was.  Everything is stated at an
  arbitrary valuation `V` of the core's buffers at the region's entry, and for every float instance.
-/
import proofs.«115958_j13091060319093_1_alg».proof.Proof.Gen.KernelIdeal.Launch
import proofs.«115958_j13091060319093_1_alg».proof.Proof.Gen.KernelIdeal.Skeleton
import proofs.«115958_j13091060319093_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, for any proof data whose array is
    `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The one rectangle the body reads and writes through: the whole block. -/
abbrev r1_0 : Rect S512x1024 := Rect.unit (s := S512x1024) ![0, 0] S512x1024.size inb_S512x1024_S512x1024_0_0

/-- The output buffer after the body, from the input block: its one store as a piece. -/
def out1_1 (x0 : Vec F S512x1024 .f32) : Vec F S512x1024 .bf16 :=
  View.canon [⟨r1_0, k1_pay1 (View.ld x0 r1_0)⟩]

/-- The store covers the buffer. -/
theorem cover1_1 (p0 : Vec F S512x1024 .bf16) (y : S512x1024.Idx) :
    ∃ pc ∈ ([⟨r1_0, p0⟩] : List (View.Piece (Elt F) S512x1024 .bf16)), y ∈ pc.1.set :=
  View.cover_of_tiled [⟨r1_0, p0⟩] S512x1024.size (by rfl) y

set_option maxHeartbeats 1000000 in
/-- The body on whole staging memrefs, the input's at contents `x0` and the output's at anything, runs to the
    continuation holding the input's as it was and the output's at `out1_1 x0`. -/
theorem sound_kernel1 (c : Dev nD) (E : Set ℕ) (i : grid1.Coords) (arg1 : Memref sig .tc .vmem S512x1024 .f32) (harg1 : arg1.IsWhole) (arg2 : Memref sig .tc .vmem S512x1024 .bf16) (harg2 : arg2.IsWhole)
    (x0 : Vec F S512x1024 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1__normalize_kernel i arg1 harg1 arg2 harg2) K := by
  simp only [cc1__normalize_kernel_eq_skeleton]; unfold cc1__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-- The proof data of pipeline 1 on core `c`: the arrays as the region finds them; after the body at point `t` the
    input's buffer at its block and the output's at the payload of that block; nothing else carried, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.FrameSimBody.lean ====
import proofs.«115958_j13091060319093_1_alg».proof.Proof.Gen.KernelIdeal.Launch
import proofs.«115958_j13091060319093_1_alg».proof.Proof.Gen.KernelIdeal.Skeleton
import proofs.«115958_j13091060319093_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: the similarity-and-loss kernel over an 8 × 8 grid of 1024-row blocks

At grid point (i, j) the body holds row block i and column block j of the stacked unit rows, three column accumulators
(scratch) and the output block i.  It clears the accumulators when j = 0, adds the row sums of exp(2·sim) to the
first, overwrites the second with the diagonal of exp(2·sim) when j = i and the third with the diagonal of sim when
j = i ± 4, and when j = 7 writes the output from the three.  Below: the four conditions, the state after the body as
a function of the state before and of the two blocks (for every float instance), and the body's triple. -/

/-- j = 0: the accumulators are cleared. -/
abbrev cond2_1 (i : grid2.Coords) : Prop := (Scalar.cmpi .ne (Scalar.extui (Scalar.cmpi .eq (BitVec.ofNat 32 (i 1).val) 0#32)) 0#32) = 1#1
/-- j = i: the block holds the diagonal of the whole matrix. -/
abbrev cond2_2 (i : grid2.Coords) : Prop := (Scalar.cmpi .ne (Scalar.extui (Scalar.cmpi .eq (BitVec.ofNat 32 (i 1).val) (BitVec.ofNat 32 (i 0).val))) 0#32) = 1#1
/-- j = i ± 4: the block holds the positives. -/
abbrev cond2_3 (i : grid2.Coords) : Prop := (Scalar.cmpi .ne (Scalar.extui (Scalar.cmpi .eq (BitVec.ofNat 32 (i 1).val) (Scalar.select (Scalar.cmpi .sge (BitVec.ofNat 32 (i 0).val) 4#32) (Scalar.subi (BitVec.ofNat 32 (i 0).val) 4#32) (Scalar.addi (BitVec.ofNat 32 (i 0).val) 4#32)))) 0#32) = 1#1
/-- j = 7: the output block is written. -/
abbrev cond2_4 (i : grid2.Coords) : Prop := k2_cond4 i = 1#1

/-- The first accumulator after the body: the row sums added to it, or to zero when it was just cleared. -/
def nxt0 (b1 : Bool) (xa xb : Vec F S1024x1024 .bf16) (s0 : Vec F S1024x1 .f32) : Vec F S1024x1 .f32 :=
  k2_pay6 xa xb (bif b1 then k2_pay1 else s0)
/-- The second: the diagonal of exp(2·sim) when j = i, else what it was (zero when just cleared). -/
def nxt1 (b1 b2 : Bool) (xa xb : Vec F S1024x1024 .bf16) (s1 : Vec F S1024x1 .f32) : Vec F S1024x1 .f32 :=
  bif b2 then k2_pay7 xa xb else (bif b1 then k2_pay2 else s1)
/-- The third: the diagonal of sim when j = i ± 4, else what it was (zero when just cleared). -/
def nxt2 (b1 b3 : Bool) (xa xb : Vec F S1024x1024 .bf16) (s2 : Vec F S1024x1 .f32) : Vec F S1024x1 .f32 :=
  bif b3 then k2_pay8 xa xb else (bif b1 then k2_pay3 else s2)
/-- The output block: written from the three accumulators when j = 7, else untouched. -/
def nxtO (b4 : Bool) (o s0' s1' s2' : Vec F S1024x1 .f32) : Vec F S1024x1 .f32 :=
  bif b4 then k2_pay9 s0' s1' s2' else o

theorem hz2 : (![0, 0] : Fin 2 → Nat) = fun _ => 0 := by funext a; fin_cases a <;> rfl

/-- A load through the whole rectangle after stores the last of which went through the whole rectangle reads that
    store's payload. -/
theorem readCov_cons_whole {Val : EltTy → Type} [∀ e, Nonempty (Val e)] {S : Shape} {e : EltTy} {sig' : RefSig} {κ : Kind} {sp : Space}
    (v : View sig' κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

/-- What a buffer reads after stores the last of which went through the whole rectangle: that store's payload. -/
theorem read_writes_cons_whole {Val : EltTy → Type} [∀ e, Nonempty (Val e)] {S : Shape} {e : EltTy} {sig' : RefSig} {κ : Kind} {sp : Space}
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩), View.canon_cons_unit_zero h]

set_option maxHeartbeats 8000000 in
/-- The body on whole memrefs — the two input blocks at `xa`, `xb`, the output block at `o`, the accumulators at
    `s0`, `s1`, `s2` — in the case `b1 … b4` of its four conditions, runs to the continuation holding the inputs as
    they were and the other four at the next state. -/
theorem sound_kernel2 (c : Dev nD) (E : Set ℕ) (i : grid2.Coords)
    (arg2 : Memref sig .tc .vmem S1024x1024 .bf16) (harg2 : arg2.IsWhole) (arg3 : Memref sig .tc .vmem S1024x1024 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (b1 b2 b3 b4 : Bool) (h1 : bif b1 then cond2_1 i else ¬ cond2_1 i) (h2 : bif b2 then cond2_2 i else ¬ cond2_2 i)
    (h3 : bif b3 then cond2_3 i else ¬ cond2_3 i) (h4 : bif b4 then cond2_4 i else ¬ cond2_4 i)
    (xa xb : Vec F S1024x1024 .bf16) (o s0 s1 s2 : Vec F S1024x1 .f32) (K : PUnit → sProp 𝕄) :
    iprop(owns (c : Thread nD τ) arg2 fullShare xa ∗ owns (c : Thread nD τ) arg3 fullShare xb
        ∗ owns (c : Thread nD τ) arg4 fullShare o ∗ owns (c : Thread nD τ) arg5 fullShare s0
        ∗ owns (c : Thread nD τ) arg6 fullShare s1 ∗ owns (c : Thread nD τ) arg7 fullShare s2
        ∗ (iprop(owns (c : Thread nD τ) arg2 fullShare xa ∗ owns (c : Thread nD τ) arg3 fullShare xb
            ∗ owns (c : Thread nD τ) arg4 fullShare (nxtO b4 o (nxt0 b1 xa xb s0) (nxt1 b1 b2 xa xb s1) (nxt2 b1 b3 xa xb s2))
            ∗ owns (c : Thread nD τ) arg5 fullShare (nxt0 b1 xa xb s0)
            ∗ owns (c : Thread nD τ) arg6 fullShare (nxt1 b1 b2 xa xb s1)
            ∗ owns (c : Thread nD τ) arg7 fullShare (nxt2 b1 b3 xa xb s2)) -∗ K ⟨⟩))
      ⊢ wp frame (wpE (defs₀ (F := F)) Variants.none c none) E (cc2__sim_loss_kernel i arg2 harg2 arg3 harg3 arg4 harg4 arg5 harg5 arg6 harg6 arg7 harg7) K := by
  simp only [cc2__sim_loss_kernel_eq_skeleton]; unfold cc2__sim_loss_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf2; subst hf3; subst hf4; subst hf5; subst hf6; subst hf7
  cases b1 <;> cases b2 <;> cases b3 <;> cases b4 <;>
  · simp only [cond_true, cond_false] at h1 h2 h3 h4
    sl_exec (disch := first | sl_exact h1 | sl_exact h2 | sl_exact h3 | sl_exact h4)
    sl_step
    iapply Hk
    isplitl [H2]
    · iexists f2; isplitr; · ipureintro; rfl
      iexact H2
    isplitl [H3]
    · iexists f3; isplitr; · ipureintro; rfl
      iexact H3
    isplitl [H4]
    · iexists _; isplitr
      swap; · iexact H4
      ipureintro
      sl_unfold_run_names
      simp only [nxtO, nxt0, nxt1, nxt2, cond_true, cond_false, read_writes_cons_whole (S := S1024x1) _ _ hz2, readCov_cons_whole (S := S1024x1) _ hz2,
        View.readAt_eq_ld, View.ld_unit_zero (S := S1024x1) hz2, View.ld_unit_zero (S := S1024x1024) hz2, View.writes_nil]
    isplitl [H5]
    · iexists _; isplitr
      swap; · iexact H5
      ipureintro
      sl_unfold_run_names
      simp only [nxtO, nxt0, nxt1, nxt2, cond_true, cond_false, read_writes_cons_whole (S := S1024x1) _ _ hz2, readCov_cons_whole (S := S1024x1) _ hz2,
        View.readAt_eq_ld, View.ld_unit_zero (S := S1024x1) hz2, View.ld_unit_zero (S := S1024x1024) hz2, View.writes_nil]
    isplitl [H6]
    · iexists _; isplitr
      swap; · iexact H6
      ipureintro
      sl_unfold_run_names
      simp only [nxtO, nxt0, nxt1, nxt2, cond_true, cond_false, read_writes_cons_whole (S := S1024x1) _ _ hz2, readCov_cons_whole (S := S1024x1) _ hz2,
        View.readAt_eq_ld, View.ld_unit_zero (S := S1024x1) hz2, View.ld_unit_zero (S := S1024x1024) hz2, View.writes_nil]
    · iexists _; isplitr
      swap; · iexact H7
      ipureintro
      sl_unfold_run_names
      simp only [nxtO, nxt0, nxt1, nxt2, cond_true, cond_false, read_writes_cons_whole (S := S1024x1) _ _ hz2, readCov_cons_whole (S := S1024x1) _ hz2,
        View.readAt_eq_ld, View.ld_unit_zero (S := S1024x1) hz2, View.ld_unit_zero (S := S1024x1024) hz2, View.writes_nil]

end Cert.KernelIdeal.Fr
end
-- ==== Proof.FrameSim.lean ====
import proofs.«115958_j13091060319093_1_alg».proof.Proof.Gen.KernelIdeal.Launch
import proofs.«115958_j13091060319093_1_alg».proof.Proof.Gen.KernelIdeal.Skeleton
import proofs.«115958_j13091060319093_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«115958_j13091060319093_1_alg».proof.Proof.FrameSimBody

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2, point by point: the accumulators' contents and the proof data

Point `t` of the 64 is (i, j) = (t / 8, t % 8).  The accumulators after point `t` are a recursion on `t` (cleared at
every j = 0, so the recursion's start value is never read); the output block written at j = 7 is a function of them.
The two input windows read ONE array (the stacked unit rows), each at half the share. -/

variable (V : (c : Dev nD) → (b : Ref sig .tc) → Buf (Elt F) ((c : Thread nD τ).loc b))

theorem hcond2_1 : ∀ t : Fin cfg2.N, cond2_1 (grid2.coords t) ↔ t.val % 8 = 0 :=
  (by decide +kernel : ∀ t : Fin grid2.N, cond2_1 (grid2.coords t) ↔ t.val % 8 = 0)
theorem hcond2_2 : ∀ t : Fin cfg2.N, cond2_2 (grid2.coords t) ↔ t.val % 8 = t.val / 8 :=
  (by decide +kernel : ∀ t : Fin grid2.N, cond2_2 (grid2.coords t) ↔ t.val % 8 = t.val / 8)
theorem hcond2_3 : ∀ t : Fin cfg2.N, cond2_3 (grid2.coords t) ↔ t.val % 8 = (t.val / 8 + 4) % 8 :=
  (by decide +kernel : ∀ t : Fin grid2.N, cond2_3 (grid2.coords t) ↔ t.val % 8 = (t.val / 8 + 4) % 8)
theorem hcond2_4 : ∀ t : Fin cfg2.N, cond2_4 (grid2.coords t) ↔ t.val % 8 = 7 :=
  (by decide +kernel : ∀ t : Fin grid2.N, cond2_4 (grid2.coords t) ↔ t.val % 8 = 7)

/-- The four conditions at point `n`, as Booleans of `n`. -/
def bc1 (n : ℕ) : Bool := decide (n % 8 = 0)
def bc2 (n : ℕ) : Bool := decide (n % 8 = n / 8)
def bc3 (n : ℕ) : Bool := decide (n % 8 = (n / 8 + 4) % 8)
def bc4 (n : ℕ) : Bool := decide (n % 8 = 7)

theorem hb1 (t : Fin cfg2.N) : bif bc1 t.val then cond2_1 (grid2.coords t) else ¬ cond2_1 (grid2.coords t) := by
  unfold bc1; by_cases h : t.val % 8 = 0
  · rw [decide_eq_true h]; exact (hcond2_1 t).mpr h
  · rw [decide_eq_false h]; exact fun hc => h ((hcond2_1 t).mp hc)
theorem hb2 (t : Fin cfg2.N) : bif bc2 t.val then cond2_2 (grid2.coords t) else ¬ cond2_2 (grid2.coords t) := by
  unfold bc2; by_cases h : t.val % 8 = t.val / 8
  · rw [decide_eq_true h]; exact (hcond2_2 t).mpr h
  · rw [decide_eq_false h]; exact fun hc => h ((hcond2_2 t).mp hc)
theorem hb3 (t : Fin cfg2.N) : bif bc3 t.val then cond2_3 (grid2.coords t) else ¬ cond2_3 (grid2.coords t) := by
  unfold bc3; by_cases h : t.val % 8 = (t.val / 8 + 4) % 8
  · rw [decide_eq_true h]; exact (hcond2_3 t).mpr h
  · rw [decide_eq_false h]; exact fun hc => h ((hcond2_3 t).mp hc)
theorem hb4 (t : Fin cfg2.N) : bif bc4 t.val then cond2_4 (grid2.coords t) else ¬ cond2_4 (grid2.coords t) := by
  unfold bc4; by_cases h : t.val % 8 = 7
  · rw [decide_eq_true h]; exact (hcond2_4 t).mpr h
  · rw [decide_eq_false h]; exact fun hc => h ((hcond2_4 t).mp hc)

/-- The input windows are never idle; the output window is idle exactly off j = 7, and written back exactly at j = 7. -/
theorem idleAt2_2 : ∀ t : Fin cfg2.N, ¬ cond2_4 (grid2.coords t) → cfg2.idle 2 (grid2.coords t) = true := by decide +kernel
theorem noFlush2_2 : ∀ t : Fin cfg2.N, ¬ cond2_4 (grid2.coords t) → (cfg2.win 2).flush t = false := by decide +kernel
theorem liveAt2_2 : ∀ t : Fin cfg2.N, cond2_4 (grid2.coords t) → cfg2.idle 2 (grid2.coords t) = false := by decide +kernel

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The three accumulators after point `n` (a triple), by recursion on `n`; before point 0 a placeholder that is never
    read, point 0 being a j = 0 point. -/
def accAt (c : Dev nD) : (n : ℕ) → n < cfg2.N → Vec F S1024x1 .f32 × Vec F S1024x1 .f32 × Vec F S1024x1 .f32
  | 0, hn => (nxt0 (bc1 0) (iblk2 V c 0 ⟨0, hn⟩) (iblk2 V c 1 ⟨0, hn⟩) k2_pay1,
      nxt1 (bc1 0) (bc2 0) (iblk2 V c 0 ⟨0, hn⟩) (iblk2 V c 1 ⟨0, hn⟩) k2_pay2,
      nxt2 (bc1 0) (bc3 0) (iblk2 V c 0 ⟨0, hn⟩) (iblk2 V c 1 ⟨0, hn⟩) k2_pay3)
  | n + 1, hn => (nxt0 (bc1 (n + 1)) (iblk2 V c 0 ⟨n + 1, hn⟩) (iblk2 V c 1 ⟨n + 1, hn⟩) (accAt c n (Nat.lt_of_succ_lt hn)).1,
      nxt1 (bc1 (n + 1)) (bc2 (n + 1)) (iblk2 V c 0 ⟨n + 1, hn⟩) (iblk2 V c 1 ⟨n + 1, hn⟩) (accAt c n (Nat.lt_of_succ_lt hn)).2.1,
      nxt2 (bc1 (n + 1)) (bc3 (n + 1)) (iblk2 V c 0 ⟨n + 1, hn⟩) (iblk2 V c 1 ⟨n + 1, hn⟩) (accAt c n (Nat.lt_of_succ_lt hn)).2.2)

/-- The output block as written at a j = 7 point (stated at every point; consulted only there). -/
def outAt2 (c : Dev nD) (t : Fin cfg2.N) : Vec F S1024x1 .f32 :=
  k2_pay9 (accAt V c t.val t.isLt).1 (accAt V c t.val t.isLt).2.1 (accAt V c t.val t.isLt).2.2

/-- The scratch operands as memrefs. -/
abbrev scM0 : Memref sig .tc .vmem S1024x1 .f32 := Memref.whole cc2_scratch0
abbrev scM1 : Memref sig .tc .vmem S1024x1 .f32 := Memref.whole cc2_scratch1
abbrev scM2 : Memref sig .tc .vmem S1024x1 .f32 := Memref.whole cc2_scratch2

/-- The other regions' staging buffers, at anything: scoped buffers this region never touches. -/
def others2 (c : Dev nD) (R : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ R)

/-- The class invariant with the scratch operands as memrefs owned at some contents. -/
theorem PhiA2_eq (c : Dev nD) :
    (Pipeline.ΦA spec2 c : sProp 𝕄)
      = iprop(others2 c iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA others2; rw [scopedRest2_eq]; simp only [scM0, scM1, scM2, owns_whole]; try rfl

/-- The region invariant before position `n`: at first the class's; afterwards the accumulators at what the point
    before left, the untouched scoped buffers at anything, the generator register at some state. -/
def PhiS2 (c : Dev nD) : (n : ℕ) → n ≤ cfg2.N → sProp 𝕄
  | 0, _ => Pipeline.ΦA spec2 c
  | n + 1, hn => iprop(others2 c iprop(owns (c : Thread nD τ) scM0 fullShare (accAt V c n hn).1 ∗ owns (c : Thread nD τ) scM1 fullShare (accAt V c n hn).2.1 ∗ owns (c : Thread nD τ) scM2 fullShare (accAt V c n hn).2.2) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(others2 c iprop(owns (c : Thread nD τ) scM0 fullShare (accAt V c n hn).1 ∗ owns (c : Thread nD τ) scM1 fullShare (accAt V c n hn).2.1 ∗ owns (c : Thread nD τ) scM2 fullShare (accAt V c n hn).2.2) ∗ (∃ r, prngReg c r)) := rfl
theorem PhiS2_pos (c : Dev nD) (n : ℕ) (h : n ≤ cfg2.N) (hz : n ≠ 0) :
    PhiS2 V c n h = iprop(others2 c iprop(owns (c : Thread nD τ) scM0 fullShare (accAt V c (n - 1) (by omega)).1 ∗ owns (c : Thread nD τ) scM1 fullShare (accAt V c (n - 1) (by omega)).2.1 ∗ owns (c : Thread nD τ) scM2 fullShare (accAt V c (n - 1) (by omega)).2.2) ∗ (∃ r, prngReg c r)) := by
  cases n with
  | zero => exact absurd rfl hz
  | succ n => rfl

/-- The accumulators after point `t`, from those after the point before, when `t` is not the first point. -/
theorem accAt_pos (c : Dev nD) (t : Fin cfg2.N) (hz : t.val ≠ 0) :
    accAt V c t.val t.isLt = (nxt0 (bc1 t.val) (iblk2 V c 0 t) (iblk2 V c 1 t) (accAt V c (t.val - 1) (by omega)).1,
      nxt1 (bc1 t.val) (bc2 t.val) (iblk2 V c 0 t) (iblk2 V c 1 t) (accAt V c (t.val - 1) (by omega)).2.1,
      nxt2 (bc1 t.val) (bc3 t.val) (iblk2 V c 0 t) (iblk2 V c 1 t) (accAt V c (t.val - 1) (by omega)).2.2) := by
  obtain ⟨n, hn⟩ := t
  cases n with
  | zero => exact absurd rfl hz
  | succ n => rfl

/-- At the first point the accumulators were just cleared, whatever they held. -/
theorem accAt_zero (c : Dev nD) (t : Fin cfg2.N) (hz : t.val = 0) (d0 d1 d2 : Vec F S1024x1 .f32) :
    accAt V c t.val t.isLt = (nxt0 (bc1 t.val) (iblk2 V c 0 t) (iblk2 V c 1 t) d0,
      nxt1 (bc1 t.val) (bc2 t.val) (iblk2 V c 0 t) (iblk2 V c 1 t) d1,
      nxt2 (bc1 t.val) (bc3 t.val) (iblk2 V c 0 t) (iblk2 V c 1 t) d2) := by
  obtain ⟨n, hn⟩ := t
  obtain rfl : n = 0 := hz
  rfl

/-- The proof data of pipeline 2 on core `c`: the arrays as the region finds them, the stacked rows' array held in two
    halves by the two windows that read it; after the body at point `t` each input's buffer at its block and the
    output's at `outAt2`; the invariant `PhiS2`; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => outAt2 V c t
  Φ t := PhiS2 V c t.val (Nat.le_of_lt_succ t.isLt)
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = outAt2 V c t := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

theorem nxt0_true (xa xb : Vec F S1024x1024 .bf16) (d : Vec F S1024x1 .f32) : nxt0 true xa xb d = nxt0 true xa xb k2_pay1 := rfl
theorem nxt1_true (b2 : Bool) (xa xb : Vec F S1024x1024 .bf16) (d : Vec F S1024x1 .f32) : nxt1 true b2 xa xb d = nxt1 true b2 xa xb k2_pay2 := by
  cases b2 <;> rfl
theorem nxt2_true (b3 : Bool) (xa xb : Vec F S1024x1024 .bf16) (d : Vec F S1024x1 .f32) : nxt2 true b3 xa xb d = nxt2 true b3 xa xb k2_pay3 := by
  cases b3 <;> rfl

/-- At the first point: the accumulators as a j = 0 point leaves them. -/
theorem accAt_first (c : Dev nD) (t : Fin cfg2.N) (hz : t.val = 0) :
    accAt V c t.val t.isLt = (nxt0 true (iblk2 V c 0 t) (iblk2 V c 1 t) k2_pay1,
      nxt1 true (bc2 t.val) (iblk2 V c 0 t) (iblk2 V c 1 t) k2_pay2,
      nxt2 true (bc3 t.val) (iblk2 V c 0 t) (iblk2 V c 1 t) k2_pay3) := by
  obtain ⟨n, hn⟩ := t
  obtain rfl : n = 0 := hz
  rfl

theorem leaves2_0 (c : Dev nD) (t : Fin cfg2.N) : (dat2 V c).leavesExact 0 t = owns (c : Thread nD τ) (st2_0 t) fullShare (iblk2 V c 0 t) := by
  rw [← after2_0 V c t]
theorem leaves2_1 (c : Dev nD) (t : Fin cfg2.N) : (dat2 V c).leavesExact 1 t = owns (c : Thread nD τ) (st2_1 t) fullShare (iblk2 V c 1 t) := by
  rw [← after2_1 V c t]
theorem leaves2_2_live (c : Dev nD) (t : Fin cfg2.N) (h4 : cond2_4 (grid2.coords t)) :
    (dat2 V c).leavesExact 2 t = owns (c : Thread nD τ) (st2_2 t) fullShare (outAt2 V c t) := by
  rw [← after2_2 V c t]; unfold Dat.leavesExact; rw [liveAt2_2 t h4]
theorem leaves2_2_idle (c : Dev nD) (t : Fin cfg2.N) (h4 : ¬ cond2_4 (grid2.coords t)) :
    (dat2 V c).leavesExact 2 t = iprop(∃ d, owns (c : Thread nD τ) (st2_2 t) fullShare ((dat2 V c).before 2 t d)) :=
  Dat.leavesExact_idle (dat2 V c) 2 t (idleAt2_2 t h4) (noFlush2_2 t h4)

set_option maxHeartbeats 4000000 in
/-- The body at any point: the inputs' memrefs hold their blocks; the accumulators are handed over at what the point
    before left (at anything at the first point, which clears them) and taken back at this point's contents; the output
    block is written at a j = 7 point and handed back untouched elsewhere; nothing is owed. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ, leaves2_0, leaves2_1, PhiS2_castSucc V c t]
  by_cases hz : t.val = 0
  · have h1 : cond2_1 (grid2.coords t) := (hcond2_1 t).mpr (by rw [hz])
    rw [PhiS2_zero V c _ _ hz, PhiA2_eq, accAt_first V c t hz]
    unfold others2
    by_cases h4 : cond2_4 (grid2.coords t)
    · rw [leaves2_2_live V c t h4]; unfold outAt2; rw [accAt_first V c t hz]
      iintro ⟨⟨⟨A1, A2, A3, A4, A5, A6, A7, A8, ⟨%d0, HS0⟩, ⟨%d1, HS1⟩, ⟨%d2, HS2⟩⟩, Hg⟩, Ho, ⟨%e0, H0⟩, ⟨%e1, H1⟩, ⟨%e2, H2⟩⟩
      iapply (sound_kernel2 c Set.univ _ _ _ _ _ _ _ _ _ _ _ _ _ true (bc2 t.val) (bc3 t.val) true h1 (hb2 t) (hb3 t) h4 (iblk2 V c 0 t) (iblk2 V c 1 t) _ d0 d1 d2 _)
      isplitl [H0]; · iexact H0
      isplitl [H1]; · iexact H1
      isplitl [H2]; · iexact H2
      isplitl [HS0]; · iexact HS0
      isplitl [HS1]; · iexact HS1
      isplitl [HS2]; · iexact HS2
      rw [nxt0_true, nxt1_true, nxt2_true]
      iintro ⟨H0, H1, H2, HS0, HS1, HS2⟩
      isplitl [A1 A2 A3 A4 A5 A6 A7 A8 HS0 HS1 HS2 Hg]
      · isplitl [A1 A2 A3 A4 A5 A6 A7 A8 HS0 HS1 HS2]
        · isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [HS0]; · iexact HS0
          isplitl [HS1]; · iexact HS1
          iexact HS2
        iexact Hg
      isplitl [Ho]; · iexact Ho
      isplitl [H0]; · iexact H0
      isplitl [H1]; · iexact H1
      iexact H2
    · rw [leaves2_2_idle V c t h4]
      iintro ⟨⟨⟨A1, A2, A3, A4, A5, A6, A7, A8, ⟨%d0, HS0⟩, ⟨%d1, HS1⟩, ⟨%d2, HS2⟩⟩, Hg⟩, Ho, ⟨%e0, H0⟩, ⟨%e1, H1⟩, ⟨%e2, H2⟩⟩
      iapply (sound_kernel2 c Set.univ _ _ _ _ _ _ _ _ _ _ _ _ _ true (bc2 t.val) (bc3 t.val) false h1 (hb2 t) (hb3 t) h4 (iblk2 V c 0 t) (iblk2 V c 1 t) _ d0 d1 d2 _)
      isplitl [H0]; · iexact H0
      isplitl [H1]; · iexact H1
      isplitl [H2]; · iexact H2
      isplitl [HS0]; · iexact HS0
      isplitl [HS1]; · iexact HS1
      isplitl [HS2]; · iexact HS2
      rw [nxt0_true, nxt1_true, nxt2_true]
      iintro ⟨H0, H1, H2, HS0, HS1, HS2⟩
      isplitl [A1 A2 A3 A4 A5 A6 A7 A8 HS0 HS1 HS2 Hg]
      · isplitl [A1 A2 A3 A4 A5 A6 A7 A8 HS0 HS1 HS2]
        · isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [HS0]; · iexact HS0
          isplitl [HS1]; · iexact HS1
          iexact HS2
        iexact Hg
      isplitl [Ho]; · iexact Ho
      isplitl [H0]; · iexact H0
      isplitl [H1]; · iexact H1
      iexists e2; iexact H2
  · rw [PhiS2_pos V c _ _ hz, accAt_pos V c t hz]
    unfold others2
    by_cases h4 : cond2_4 (grid2.coords t)
    · rw [leaves2_2_live V c t h4]; unfold outAt2; rw [accAt_pos V c t hz]
      iintro ⟨⟨⟨A1, A2, A3, A4, A5, A6, A7, A8, HS0, HS1, HS2⟩, Hg⟩, Ho, ⟨%e0, H0⟩, ⟨%e1, H1⟩, ⟨%e2, H2⟩⟩
      iapply (sound_kernel2 c Set.univ _ _ _ _ _ _ _ _ _ _ _ _ _ (bc1 t.val) (bc2 t.val) (bc3 t.val) true (hb1 t) (hb2 t) (hb3 t) h4 (iblk2 V c 0 t) (iblk2 V c 1 t) _ _ _ _ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [A1 A2 A3 A4 A5 A6 A7 A8 HS0 HS1 HS2 Hg]
      · isplitl [A1 A2 A3 A4 A5 A6 A7 A8 HS0 HS1 HS2]
        · isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [HS0]; · iexact HS0
          isplitl [HS1]; · iexact HS1
          iexact HS2
        iexact Hg
      isplitl [Ho]; · iexact Ho
      isplitl [H0]; · iexact H0
      isplitl [H1]; · iexact H1
      iexact H2
    · rw [leaves2_2_idle V c t h4]
      iintro ⟨⟨⟨A1, A2, A3, A4, A5, A6, A7, A8, HS0, HS1, HS2⟩, Hg⟩, Ho, ⟨%e0, H0⟩, ⟨%e1, H1⟩, ⟨%e2, H2⟩⟩
      iapply (sound_kernel2 c Set.univ _ _ _ _ _ _ _ _ _ _ _ _ _ (bc1 t.val) (bc2 t.val) (bc3 t.val) false (hb1 t) (hb2 t) (hb3 t) h4 (iblk2 V c 0 t) (iblk2 V c 1 t) _ _ _ _ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [A1 A2 A3 A4 A5 A6 A7 A8 HS0 HS1 HS2 Hg]
      · isplitl [A1 A2 A3 A4 A5 A6 A7 A8 HS0 HS1 HS2]
        · isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [HS0]; · iexact HS0
          isplitl [HS1]; · iexact HS1
          iexact HS2
        iexact Hg
      isplitl [Ho]; · iexact Ho
      isplitl [H0]; · iexact H0
      isplitl [H1]; · iexact H1
      iexists e2; iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the accumulators' named contents are forgotten. -/
theorem hout2 (c : Dev nD) : (dat2 V c).Φ (Fin.last cfg2.N) ⊢ Pipeline.ΦA spec2 c := by
  have hN : (Fin.last cfg2.N).val ≠ 0 := by rw [Fin.val_last]; have : cfg2.N = 64 := N_2; omega
  rw [show (dat2 V c).Φ (Fin.last cfg2.N) = PhiS2 V c (Fin.last cfg2.N).val (Nat.le_of_lt_succ (Fin.last cfg2.N).isLt) from rfl, PhiS2_pos V c _ _ hN, PhiA2_eq]
  unfold others2
  iintro ⟨⟨A1, A2, A3, A4, A5, A6, A7, A8, HS0, HS1, HS2⟩, Hg⟩
  isplitl [A1 A2 A3 A4 A5 A6 A7 A8 HS0 HS1 HS2]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [HS0]; · iexists _; iexact HS0
    isplitl [HS1]; · iexists _; iexact HS1
    iexists _; iexact HS2
  iexact Hg

end Cert.KernelIdeal.Fr
end
-- ==== Proof.FrameRun01.lean ====
import proofs.«115958_j13091060319093_1_alg».proof.Proof.Gen.KernelIdeal.Launch
import proofs.«115958_j13091060319093_1_alg».proof.Proof.Gen.KernelIdeal.Skeleton
import proofs.«115958_j13091060319093_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«115958_j13091060319093_1_alg».proof.Proof.FrameNorm0
import proofs.«115958_j13091060319093_1_alg».proof.Proof.FrameNorm1
import proofs.«115958_j13091060319093_1_alg».proof.Proof.FrameSim

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run: @main's five items from the launch to the return

Two normalising regions, the host concatenation, the loss region, the host mean.  The contents of the core's unscoped
buffers at each boundary are a fold from the launch memory: a region leaves its arrays at what its write-backs fold
to and every other buffer as entered; a host stretch leaves what its operations compute.  Every weakly fair
execution terminates with every unscoped buffer at the last boundary's contents. -/

variable (m : (ℓ : Loc nD τ sig) → Buf (Elt F) ℓ) (ρ : Dev nD → PrngReg)

/-- Core `c`'s buffers at launch. -/
abbrev W0 : Dev nD → Valuation τ sig (Elt F) := fun c b => m (c, b)
abbrev U0 : (c : Dev nD) → (b : Ref sig .tc) → Buf (Elt F) ((c : Thread nD τ).loc b) := fun c b => W0 m c b
/-- After region 0: its arrays at what the pipeline leaves. -/
def W1 (c : Dev nD) : Valuation τ sig (Elt F) :=
  Pipeline.withArrays spec0 c (W0 m c) fun w => (dat0 (U0 m) c).arrAt w cfg0.N
theorem W1_arr (c : Dev nD) (w : Fin cfg0.W) :
    W1 m c (Proc.devRef .tc (Pipeline.arrRef spec0 w)) = (dat0 (U0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev U1 : (c : Dev nD) → (b : Ref sig .tc) → Buf (Elt F) ((c : Thread nD τ).loc b) := fun c b => W1 m c b
theorem hF0 (c : Dev nD) (w : Fin cfg0.W) : (dat0 (U0 m) c).arrAt w cfg0.N = U1 m c (Pipeline.arrRef spec0 w) :=
  (W1_arr m c w).symm
theorem hrest0 (c : Dev nD) : ∀ b, b ∉ Finset.univ.image (Pipeline.arrRef spec0) → U1 m c b = U0 m c b :=
  fun b hb => W1_of_ne m c b fun w e => hb (Finset.mem_image.mpr ⟨w, Finset.mem_univ _, e⟩)

/-- After region 1. -/
def W2 (c : Dev nD) : Valuation τ sig (Elt F) :=
  Pipeline.withArrays spec1 c (W1 m c) fun w => (dat1 (U1 m) c).arrAt w cfg1.N
theorem W2_arr (c : Dev nD) (w : Fin cfg1.W) :
    W2 m c (Proc.devRef .tc (Pipeline.arrRef spec1 w)) = (dat1 (U1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev U2 : (c : Dev nD) → (b : Ref sig .tc) → Buf (Elt F) ((c : Thread nD τ).loc b) := fun c b => W2 m c b
theorem hF1 (c : Dev nD) (w : Fin cfg1.W) : (dat1 (U1 m) c).arrAt w cfg1.N = U2 m c (Pipeline.arrRef spec1 w) :=
  (W2_arr m c w).symm
theorem hrest1 (c : Dev nD) : ∀ b, b ∉ Finset.univ.image (Pipeline.arrRef spec1) → U2 m c b = U1 m c b :=
  fun b hb => W2_of_ne m c b fun w e => hb (Finset.mem_image.mpr ⟨w, Finset.mem_univ _, e⟩)

/-- After the concatenation. -/
abbrev W3 : Dev nD → Valuation τ sig (Elt F) := fun c => StableHlo.after hostOps2 (W2 m c)
abbrev U3 : (c : Dev nD) → (b : Ref sig .tc) → Buf (Elt F) ((c : Thread nD τ).loc b) := fun c b => W3 m c b
/-- After region 2: the loss column at what the write-backs fold to, every other buffer as entered. -/
def W4 (c : Dev nD) : Valuation τ sig (Elt F) :=
  Function.update (W3 m c) (Proc.devRef .tc main_v3) ((dat2 (U3 m) c).arrAt 2 cfg2.N)
abbrev U4 : (c : Dev nD) → (b : Ref sig .tc) → Buf (Elt F) ((c : Thread nD τ).loc b) := fun c b => W4 m c b
theorem W4_v3 (c : Dev nD) : W4 m c (Proc.devRef .tc main_v3) = (dat2 (U3 m) c).arrAt 2 cfg2.N := by
  unfold W4; exact Function.update_self ..
theorem W4_of_ne (c : Dev nD) (b : Ref sig .tc) (hb : b ≠ main_v3) : W4 m c (Proc.devRef .tc b) = W3 m c (Proc.devRef .tc b) := by
  unfold W4; exact Function.update_of_ne (StableHlo.devRef_ne_of_ne hb) ..
/-- After the mean. -/
abbrev W5 : Dev nD → Valuation τ sig (Elt F) := fun c => StableHlo.after hostOps3 (W4 m c)

/-- No pipeline has a prefetched table. -/
abbrev adm' : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm' p) c
  | ⟨0, _⟩ => fun c => dat0 (U0 m) c
  | ⟨1, _⟩ => fun c => dat1 (U1 m) c
  | ⟨2, _⟩ => fun c => dat2 (U3 m) c
abbrev 𝒱₀ : Variants := Variants.none
abbrev L : GSem nD τ sig → Finset Unit := fun _ => ∅
abbrev lv : GSem nD τ sig → Unit → ℕ := fun _ _ => 0
/-- What rides beside the buffers through every item: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

set_option backward.isDefEq.respectTransparency.types false in
/-- Region 0 over the thread state: entered from every unscoped buffer at `W0`, left at `W1`. -/
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (U0 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (U0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (U0 m c) (U1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from `W1`, left at `W2`. -/
def reg1 : Pipeline.RegionSeg (pcfgs (F := F)) adm' (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (U1 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (U1 m c) (U2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr
end
-- ==== Proof.FrameRun.lean ====
import proofs.«115958_j13091060319093_1_alg».proof.Proof.Gen.KernelIdeal.Launch
import proofs.«115958_j13091060319093_1_alg».proof.Proof.Gen.KernelIdeal.Skeleton
import proofs.«115958_j13091060319093_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«115958_j13091060319093_1_alg».proof.Proof.FrameRun01

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The loss region as an item of the run, and the run -/

variable (m : (ℓ : Loc nD τ sig) → Buf (Elt F) ℓ) (ρ : Dev nD → PrngReg)

/-- The loss region's windows read two buffers: the stacked rows (twice) and the loss column. -/
theorem img2 : Finset.univ.image (Pipeline.arrRef spec2) = ({main_v2, main_v3} : Finset (Ref sig .tc)) := by decide

/-- The pipeline's arrays, window by window: the stacked rows' buffer in two halves, the loss column whole. -/
theorem arrays2_eq (c : Dev nD) (G : (w : Fin cfg2.W) → Buf (Elt F) ((cfg2.win w).arr.view.loc (c : Thread nD τ))) :
    ((dat2 (U3 m) c).arrays G : sProp 𝕄)
      = iprop((((c : Thread nD τ).loc (Pipeline.arrRef spec2 0)) ↦{fullShare.left} G 0)
        ∗ (((c : Thread nD τ).loc (Pipeline.arrRef spec2 1)) ↦{fullShare.right} G 1)
        ∗ (((c : Thread nD τ).loc (Pipeline.arrRef spec2 2)) ↦{fullShare} G 2)) := by
  unfold Dat.arrays
  rw [bigSep_W2, (arr_whole2 0).set_eq_univ, (arr_whole2 2).set_eq_univ]
  rfl

/-- The two buffers behind the loss region's arrays, one by one. -/
theorem arrBufs2_eq (c : Dev nD) (V : (b : Ref sig .tc) → Buf (Elt F) ((c : Thread nD τ).loc b)) :
    (Pipeline.arrBufs (Ix := Unit) (Name := ℕ) (U := UR sig nD τ) (Lvl := ℕ) spec2 c V : sProp 𝕄)
      = iprop((((c : Thread nD τ).loc main_v2) ↦{fullShare} V main_v2) ∗ (((c : Thread nD τ).loc main_v3) ↦{fullShare} V main_v3)) := by
  unfold Pipeline.arrBufs
  rw [img2, bigSep_insert (by decide), bigSep_singleton]
  rfl

/-- ENTRY: the two buffers behind the arrays, whole, are the pipeline's arrays at their entry contents. -/
theorem arrays2_of_bufs (c : Dev nD) :
    (Pipeline.arrBufs (Ix := Unit) (Name := ℕ) (U := UR sig nD τ) (Lvl := ℕ) spec2 c (U3 m c) : sProp 𝕄)
      ⊢ (dat2 (U3 m) c).arrays ((dat2 (U3 m) c).arrAt · 0) := by
  rw [arrays2_eq, arrBufs2_eq]
  iintro ⟨H2, H3⟩
  ihave H2' := (pointsTo_share (PosShare.mem_left_op_right fullShare)).1 $$ H2
  icases H2' with ⟨Hl, Hr⟩
  isplitl [Hl]; · iexact Hl
  isplitl [Hr]; · iexact Hr
  iexact H3

/-- EXIT: the arrays at their final contents are the two buffers whole, at the exit valuation. -/
theorem bufs_of_arrays2 (c : Dev nD) :
    ((dat2 (U3 m) c).arrays ((dat2 (U3 m) c).arrAt · cfg2.N) : sProp 𝕄)
      ⊢ Pipeline.arrBufs (Ix := Unit) (Name := ℕ) (U := UR sig nD τ) (Lvl := ℕ) spec2 c (U4 m c) := by
  rw [arrays2_eq, arrBufs2_eq]
  rw [(dat2 (U3 m) c).arrAt_in 0 rfl, (dat2 (U3 m) c).arrAt_in 1 rfl,
    show U4 m c main_v2 = U3 m c main_v2 from W4_of_ne m c main_v2 (by decide),
    show U4 m c main_v3 = (dat2 (U3 m) c).arrAt 2 cfg2.N from W4_v3 m c]
  iintro ⟨Hl, Hr, H3⟩
  isplitl [Hl Hr]
  · iapply (pointsTo_share (PosShare.mem_left_op_right fullShare)).2
    isplitl [Hl]; · iexact Hl
    iexact Hr
  iexact H3

/-- The buffers no window of the loss region reads are as entered. -/
theorem rest2_eq (c : Dev nD) :
    (Pipeline.unscopedRest (Ix := Unit) (Name := ℕ) (U := UR sig nD τ) (Lvl := ℕ) spec2 c (U4 m c) : sProp 𝕄)
      = Pipeline.unscopedRest spec2 c (U3 m c) := by
  unfold Pipeline.unscopedRest
  exact bigSep_congr fun b hb => by
    rw [show U4 m c b = U3 m c b from W4_of_ne m c b (fun e => (Finset.mem_sdiff.mp hb).2 (by rw [e, img2]; decide))]

set_option backward.isDefEq.respectTransparency.types false in
/-- The loss region over the thread state: entered from `W3`, left at `W4`. -/
def reg2 : Pipeline.RegionSeg (pcfgs (F := F)) adm' (pdats m) () defs₀ 𝒱₀ L lv 2 where
  win := winFacts₀2
  block_pos := block_pos2
  stage_whole := stage_whole2
  K := PEmpty
  osem k := k.elim
  ho := Pipeline.OwnSemFacts.none _
  hbody c := (body_obligation2 (U3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (U3 m c)
  hentry c := by
    rw [Pipeline.ownSems0_none]
    have hsp := Pipeline.unscopedBufs_split₀ (Ix := Unit) (Name := ℕ) (U := UR sig nD τ) (Lvl := ℕ) (Pipeline.pin (pcfgs (F := F)) adm') 2 winFacts₀2.arr_unscoped c (U3 m c)
    rw [Pipeline.unscopedBufs_held] at hsp
    iintro ⟨⟨Hub, Hp, HO⟩, -, -⟩
    ihave H := (Entails.of_eq hsp) $$ Hub
    icases H with ⟨Ha, Hrest⟩
    imodintro
    isplitl [Ha]; · iapply (arrays2_of_bufs m c); iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (hout2 (U3 m) c).trans ?_
    unfold Pipeline.ΦA
    iintro ⟨Hr, Hp⟩
    isplitl [Hp]; · iexact Hp
    isplitr; · iempintro
    iexact Hr
  hexit c := by
    have hsp := Pipeline.unscopedBufs_split₀ (Ix := Unit) (Name := ℕ) (U := UR sig nD τ) (Lvl := ℕ) (Pipeline.pin (pcfgs (F := F)) adm') 2 winFacts₀2.arr_unscoped c (U4 m c)
    rw [Pipeline.unscopedBufs_held] at hsp
    have hj : iprop((Pipeline.arrBufs (Ix := Unit) (Name := ℕ) (U := UR sig nD τ) (Lvl := ℕ) spec2 c (U4 m c) : sProp 𝕄) ∗ Pipeline.unscopedRest spec2 c (U3 m c))
        ⊢ StableHlo.held (c : Thread nD τ) (Pipeline.ucRefs τ sig) (W4 m c) := by
      rw [← rest2_eq m c]; exact Entails.of_eq hsp.symm
    iintro ⟨Ha, HO, HY, Hrest⟩
    imodintro
    isplitl [Ha Hrest]
    · iapply hj
      isplitl [Ha]; · iapply (bufs_of_arrays2 m c); iexact Ha
      iexact Hrest
    isplitl [HY]; · iexact HY
    unfold Pipeline.Dat.owesAt Pipeline.owesWithin
    icases HO with ⟨%W, -, HO⟩; iexists W; iexact HO

theorem hostOps2_fresh' : (hostOps2 : List (HloOp τ sig (Elt F))).Forall fun op => op.fresh = ∅ := by
  simp only [List.Forall]; repeat' constructor
theorem hostOps3_fresh' : (hostOps3 : List (HloOp τ sig (Elt F))).Forall fun op => op.fresh = ∅ := by
  simp only [List.Forall]; repeat' constructor

/-- @main's five items in order. -/
abbrev segs : List (Pipeline.Seg (pcfgs (F := F)) adm' (pdats m) () defs₀ 𝒱₀ L lv) :=
  [ .region (reg0 m),
    .region (reg1 m),
    .host (hseg hostOps2 hostOps2_sub hostOps2_fresh' (W2 m)),
    .region (reg2 m),
    .host (hseg hostOps3 hostOps3_sub hostOps3_fresh' (W4 m)) ]

theorem main_run (c : Dev nD) : main (F := F) c = Pipeline.Seg.run (segs m) := (main_chain c).trans (by chain_rfl)

set_option backward.isDefEq.respectTransparency.types false in
/-- THE RUN, at any float instance: from any memory with zero counters, every weakly fair execution of @main on the
    TensorCores terminates, nothing faulting, with every unscoped buffer at the last boundary's contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm' (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ (∃ r, prngReg c r) ∗ ∃ W, owes (c : Thread nD τ) (0 : CellTallies nD τ sig Unit) W) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

end Cert.KernelIdeal.Fr
end
-- ==== Proof.FrameClaims.lean ====
import proofs.«115958_j13091060319093_1_alg».proof.Proof.Gen.KernelIdeal.Launch
import proofs.«115958_j13091060319093_1_alg».proof.Proof.Gen.KernelIdeal.Skeleton
import proofs.«115958_j13091060319093_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«115958_j13091060319093_1_alg».proof.Proof.FrameRun
import proofs.«115958_j13091060319093_1_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What the run says of the arguments and of the result

No item writes an argument array: a region reads it through an input window, the host stretches write only their own
results.  So the last boundary's contents at an argument walk back to the launch memory. -/

variable (m : (ℓ : Loc nD τ sig) → Buf (Elt F) ℓ) (ρ : Dev nD → PrngReg)

theorem W5_of (c : Dev nD) (r : Ref sig .tc) (h : r ∉ hostOps3_W) : W5 m c r = W4 m c r :=
  StableHlo.after_of_writes_sub hostOps3 _ hostOps3_writes h
theorem W3_of (c : Dev nD) (r : Ref sig .tc) (h : r ∉ hostOps2_W) : W3 m c r = W2 m c r :=
  StableHlo.after_of_writes_sub hostOps2 _ hostOps2_writes h

theorem W5_main_arg0 (c : Dev nD) : W5 m c main_arg0 = m ((c : Thread nD τ).loc main_arg0) :=
  (W5_of m c main_arg0 (by decide)).trans <| (W4_of_ne m c main_arg0 (by decide)).trans <| (W3_of m c main_arg0 (by decide)).trans <|
    (W2_of_ne m c main_arg0 (by decide)).trans <| (W1_arr m c 0).trans <| ((dat0 (U0 m) c).arrAt_in 0 rfl _).trans (A_eq0 (U0 m) c 0)

theorem W5_main_arg1 (c : Dev nD) : W5 m c main_arg1 = m ((c : Thread nD τ).loc main_arg1) :=
  (W5_of m c main_arg1 (by decide)).trans <| (W4_of_ne m c main_arg1 (by decide)).trans <| (W3_of m c main_arg1 (by decide)).trans <|
    (W2_arr m c 0).trans <| ((dat1 (U1 m) c).arrAt_in 0 rfl _).trans <| (A_eq1 (U1 m) c 0).trans (W1_of_ne m c main_arg1 (by decide))

/-- THE FRAME at any float instance: the program runs to the end, faults nowhere, and leaves its arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W5_main_arg0 m c),
     (h c _ (mem_uc main_arg1 (by decide))).trans (W5_main_arg1 m c)⟩) (run_all m ρ)

/-- The run with the result named: the result buffer ends at the last boundary's contents. -/
theorem run_value : θ_run defs (onTc (τ := τ) (main (F := F))) ⟨m, fun _ => 0, ρ⟩ (fun r => ∀ c : Dev nD,
      r.2.mem ((c.tc : Thread nD τ).loc main_v5) = W5 m c main_v5
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨h c _ (mem_uc main_v5 (by decide)),
     (h c _ (mem_uc main_arg0 (by decide))).trans (W5_main_arg0 m c),
     (h c _ (mem_uc main_arg1 (by decide))).trans (W5_main_arg1 m c)⟩) (run_all m ρ)

end Cert.KernelIdeal.Fr
end
-- ==== Proof.KFrameNorm0.lean ====
/-
  Region 0 of the program: one row-normalising kernel over 8 blocks of 512 rows.

  At a grid point the body reads its input block whole, computes the normalised rows (the generated payload
  `k0_pay1`) and stores them whole into the output block.  So after the body the output staging buffer holds the
  payload of the input block, whatever it held before; the input buffer is as it was.  Everything is stated at an
  arbitrary valuation `V` of the core's buffers at the region's entry, and for every float instance.
-/
import proofs.«115958_j13091060319093_1_alg».proof.Proof.Gen.Kernel.Launch
import proofs.«115958_j13091060319093_1_alg».proof.Proof.Gen.Kernel.Skeleton
import proofs.«115958_j13091060319093_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body reads and writes through: the whole block. -/
abbrev r0_0 : Rect S512x1024 := Rect.unit (s := S512x1024) ![0, 0] S512x1024.size inb_S512x1024_S512x1024_0_0

/-- The output buffer after the body, from the input block: its one store as a piece. -/
def out0_1 (x0 : Vec F S512x1024 .f32) : Vec F S512x1024 .bf16 :=
  View.canon [⟨r0_0, k0_pay1 (View.ld x0 r0_0)⟩]

/-- The store covers the buffer. -/
theorem cover0_1 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

set_option maxHeartbeats 1000000 in
/-- The body on whole staging memrefs, the input's at contents `x0` and the output's at anything, runs to the
    continuation holding the input's as it was and the output's at `out0_1 x0`. -/
theorem sound_kernel0 (c : Dev nD) (E : Set ℕ) (i : grid0.Coords) (arg1 : Memref sig .tc .vmem S512x1024 .f32) (harg1 : arg1.IsWhole) (arg2 : Memref sig .tc .vmem S512x1024 .bf16) (harg2 : arg2.IsWhole)
    (x0 : Vec F S512x1024 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__normalize_kernel i arg1 harg1 arg2 harg2) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of pipeline 0 on core `c`: the arrays as the region finds them; after the body at point `t` the
    input's buffer at its block and the output's at the payload of that block; nothing else carried, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KFrameNorm1.lean ====
/-
  Region 1 of the program: one row-normalising kernel over 8 blocks of 512 rows.

  At a grid point the body reads its input block whole, computes the normalised rows (the generated payload
  `k1_pay1`) and stores them whole into the output block.  So after the body the output staging buffer holds the
  payload of the input block, whatever it held before; the input buffer is as it was.  Everything is stated at an
  arbitrary valuation `V` of the core's buffers at the region's entry, and for every float instance.
-/
import proofs.«115958_j13091060319093_1_alg».proof.Proof.Gen.Kernel.Launch
import proofs.«115958_j13091060319093_1_alg».proof.Proof.Gen.Kernel.Skeleton
import proofs.«115958_j13091060319093_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, for any proof data whose array is
    `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The one rectangle the body reads and writes through: the whole block. -/
abbrev r1_0 : Rect S512x1024 := Rect.unit (s := S512x1024) ![0, 0] S512x1024.size inb_S512x1024_S512x1024_0_0

/-- The output buffer after the body, from the input block: its one store as a piece. -/
def out1_1 (x0 : Vec F S512x1024 .f32) : Vec F S512x1024 .bf16 :=
  View.canon [⟨r1_0, k1_pay1 (View.ld x0 r1_0)⟩]

/-- The store covers the buffer. -/
theorem cover1_1 (p0 : Vec F S512x1024 .bf16) (y : S512x1024.Idx) :
    ∃ pc ∈ ([⟨r1_0, p0⟩] : List (View.Piece (Elt F) S512x1024 .bf16)), y ∈ pc.1.set :=
  View.cover_of_tiled [⟨r1_0, p0⟩] S512x1024.size (by rfl) y

set_option maxHeartbeats 1000000 in
/-- The body on whole staging memrefs, the input's at contents `x0` and the output's at anything, runs to the
    continuation holding the input's as it was and the output's at `out1_1 x0`. -/
theorem sound_kernel1 (c : Dev nD) (E : Set ℕ) (i : grid1.Coords) (arg1 : Memref sig .tc .vmem S512x1024 .f32) (harg1 : arg1.IsWhole) (arg2 : Memref sig .tc .vmem S512x1024 .bf16) (harg2 : arg2.IsWhole)
    (x0 : Vec F S512x1024 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1__normalize_kernel i arg1 harg1 arg2 harg2) K := by
  simp only [cc1__normalize_kernel_eq_skeleton]; unfold cc1__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-- The proof data of pipeline 1 on core `c`: the arrays as the region finds them; after the body at point `t` the
    input's buffer at its block and the output's at the payload of that block; nothing else carried, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KFrameSimBody.lean ====
import proofs.«115958_j13091060319093_1_alg».proof.Proof.Gen.Kernel.Launch
import proofs.«115958_j13091060319093_1_alg».proof.Proof.Gen.Kernel.Skeleton
import proofs.«115958_j13091060319093_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: the similarity-and-loss kernel over an 8 × 8 grid of 1024-row blocks

At grid point (i, j) the body holds row block i and column block j of the stacked unit rows, three column accumulators
(scratch) and the output block i.  It clears the accumulators when j = 0, adds the row sums of exp(2·sim) to the
first, overwrites the second with the diagonal of exp(2·sim) when j = i and the third with the diagonal of sim when
j = i ± 4, and when j = 7 writes the output from the three.  Below: the four conditions, the state after the body as
a function of the state before and of the two blocks (for every float instance), and the body's triple. -/

/-- j = 0: the accumulators are cleared. -/
abbrev cond2_1 (i : grid2.Coords) : Prop := (Scalar.cmpi .ne (Scalar.extui (Scalar.cmpi .eq (BitVec.ofNat 32 (i 1).val) 0#32)) 0#32) = 1#1
/-- j = i: the block holds the diagonal of the whole matrix. -/
abbrev cond2_2 (i : grid2.Coords) : Prop := (Scalar.cmpi .ne (Scalar.extui (Scalar.cmpi .eq (BitVec.ofNat 32 (i 1).val) (BitVec.ofNat 32 (i 0).val))) 0#32) = 1#1
/-- j = i ± 4: the block holds the positives. -/
abbrev cond2_3 (i : grid2.Coords) : Prop := (Scalar.cmpi .ne (Scalar.extui (Scalar.cmpi .eq (BitVec.ofNat 32 (i 1).val) (Scalar.select (Scalar.cmpi .sge (BitVec.ofNat 32 (i 0).val) 4#32) (Scalar.subi (BitVec.ofNat 32 (i 0).val) 4#32) (Scalar.addi (BitVec.ofNat 32 (i 0).val) 4#32)))) 0#32) = 1#1
/-- j = 7: the output block is written. -/
abbrev cond2_4 (i : grid2.Coords) : Prop := k2_cond4 i = 1#1

/-- The first accumulator after the body: the row sums added to it, or to zero when it was just cleared. -/
def nxt0 (b1 : Bool) (xa xb : Vec F S1024x1024 .bf16) (s0 : Vec F S1024x1 .f32) : Vec F S1024x1 .f32 :=
  k2_pay6 xa xb (bif b1 then k2_pay1 else s0)
/-- The second: the diagonal of exp(2·sim) when j = i, else what it was (zero when just cleared). -/
def nxt1 (b1 b2 : Bool) (xa xb : Vec F S1024x1024 .bf16) (s1 : Vec F S1024x1 .f32) : Vec F S1024x1 .f32 :=
  bif b2 then k2_pay7 xa xb else (bif b1 then k2_pay2 else s1)
/-- The third: the diagonal of sim when j = i ± 4, else what it was (zero when just cleared). -/
def nxt2 (b1 b3 : Bool) (xa xb : Vec F S1024x1024 .bf16) (s2 : Vec F S1024x1 .f32) : Vec F S1024x1 .f32 :=
  bif b3 then k2_pay8 xa xb else (bif b1 then k2_pay3 else s2)
/-- The output block: written from the three accumulators when j = 7, else untouched. -/
def nxtO (b4 : Bool) (o s0' s1' s2' : Vec F S1024x1 .f32) : Vec F S1024x1 .f32 :=
  bif b4 then k2_pay9 s0' s1' s2' else o

theorem hz2 : (![0, 0] : Fin 2 → Nat) = fun _ => 0 := by funext a; fin_cases a <;> rfl

/-- A load through the whole rectangle after stores the last of which went through the whole rectangle reads that
    store's payload. -/
theorem readCov_cons_whole {Val : EltTy → Type} [∀ e, Nonempty (Val e)] {S : Shape} {e : EltTy} {sig' : RefSig} {κ : Kind} {sp : Space}
    (v : View sig' κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

/-- What a buffer reads after stores the last of which went through the whole rectangle: that store's payload. -/
theorem read_writes_cons_whole {Val : EltTy → Type} [∀ e, Nonempty (Val e)] {S : Shape} {e : EltTy} {sig' : RefSig} {κ : Kind} {sp : Space}
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩), View.canon_cons_unit_zero h]

set_option maxHeartbeats 8000000 in
/-- The body on whole memrefs — the two input blocks at `xa`, `xb`, the output block at `o`, the accumulators at
    `s0`, `s1`, `s2` — in the case `b1 … b4` of its four conditions, runs to the continuation holding the inputs as
    they were and the other four at the next state. -/
theorem sound_kernel2 (c : Dev nD) (E : Set ℕ) (i : grid2.Coords)
    (arg2 : Memref sig .tc .vmem S1024x1024 .bf16) (harg2 : arg2.IsWhole) (arg3 : Memref sig .tc .vmem S1024x1024 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (b1 b2 b3 b4 : Bool) (h1 : bif b1 then cond2_1 i else ¬ cond2_1 i) (h2 : bif b2 then cond2_2 i else ¬ cond2_2 i)
    (h3 : bif b3 then cond2_3 i else ¬ cond2_3 i) (h4 : bif b4 then cond2_4 i else ¬ cond2_4 i)
    (xa xb : Vec F S1024x1024 .bf16) (o s0 s1 s2 : Vec F S1024x1 .f32) (K : PUnit → sProp 𝕄) :
    iprop(owns (c : Thread nD τ) arg2 fullShare xa ∗ owns (c : Thread nD τ) arg3 fullShare xb
        ∗ owns (c : Thread nD τ) arg4 fullShare o ∗ owns (c : Thread nD τ) arg5 fullShare s0
        ∗ owns (c : Thread nD τ) arg6 fullShare s1 ∗ owns (c : Thread nD τ) arg7 fullShare s2
        ∗ (iprop(owns (c : Thread nD τ) arg2 fullShare xa ∗ owns (c : Thread nD τ) arg3 fullShare xb
            ∗ owns (c : Thread nD τ) arg4 fullShare (nxtO b4 o (nxt0 b1 xa xb s0) (nxt1 b1 b2 xa xb s1) (nxt2 b1 b3 xa xb s2))
            ∗ owns (c : Thread nD τ) arg5 fullShare (nxt0 b1 xa xb s0)
            ∗ owns (c : Thread nD τ) arg6 fullShare (nxt1 b1 b2 xa xb s1)
            ∗ owns (c : Thread nD τ) arg7 fullShare (nxt2 b1 b3 xa xb s2)) -∗ K ⟨⟩))
      ⊢ wp frame (wpE (defs₀ (F := F)) Variants.none c none) E (cc2__sim_loss_kernel i arg2 harg2 arg3 harg3 arg4 harg4 arg5 harg5 arg6 harg6 arg7 harg7) K := by
  simp only [cc2__sim_loss_kernel_eq_skeleton]; unfold cc2__sim_loss_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf2; subst hf3; subst hf4; subst hf5; subst hf6; subst hf7
  cases b1 <;> cases b2 <;> cases b3 <;> cases b4 <;>
  · simp only [cond_true, cond_false] at h1 h2 h3 h4
    sl_exec (disch := first | sl_exact h1 | sl_exact h2 | sl_exact h3 | sl_exact h4)
    sl_step
    iapply Hk
    isplitl [H2]
    · iexists f2; isplitr; · ipureintro; rfl
      iexact H2
    isplitl [H3]
    · iexists f3; isplitr; · ipureintro; rfl
      iexact H3
    isplitl [H4]
    · iexists _; isplitr
      swap; · iexact H4
      ipureintro
      sl_unfold_run_names
      simp only [nxtO, nxt0, nxt1, nxt2, cond_true, cond_false, read_writes_cons_whole (S := S1024x1) _ _ hz2, readCov_cons_whole (S := S1024x1) _ hz2,
        View.readAt_eq_ld, View.ld_unit_zero (S := S1024x1) hz2, View.ld_unit_zero (S := S1024x1024) hz2, View.writes_nil]
    isplitl [H5]
    · iexists _; isplitr
      swap; · iexact H5
      ipureintro
      sl_unfold_run_names
      simp only [nxtO, nxt0, nxt1, nxt2, cond_true, cond_false, read_writes_cons_whole (S := S1024x1) _ _ hz2, readCov_cons_whole (S := S1024x1) _ hz2,
        View.readAt_eq_ld, View.ld_unit_zero (S := S1024x1) hz2, View.ld_unit_zero (S := S1024x1024) hz2, View.writes_nil]
    isplitl [H6]
    · iexists _; isplitr
      swap; · iexact H6
      ipureintro
      sl_unfold_run_names
      simp only [nxtO, nxt0, nxt1, nxt2, cond_true, cond_false, read_writes_cons_whole (S := S1024x1) _ _ hz2, readCov_cons_whole (S := S1024x1) _ hz2,
        View.readAt_eq_ld, View.ld_unit_zero (S := S1024x1) hz2, View.ld_unit_zero (S := S1024x1024) hz2, View.writes_nil]
    · iexists _; isplitr
      swap; · iexact H7
      ipureintro
      sl_unfold_run_names
      simp only [nxtO, nxt0, nxt1, nxt2, cond_true, cond_false, read_writes_cons_whole (S := S1024x1) _ _ hz2, readCov_cons_whole (S := S1024x1) _ hz2,
        View.readAt_eq_ld, View.ld_unit_zero (S := S1024x1) hz2, View.ld_unit_zero (S := S1024x1024) hz2, View.writes_nil]

end Cert.Kernel.Fr
end
-- ==== Proof.KFrameSim.lean ====
import proofs.«115958_j13091060319093_1_alg».proof.Proof.Gen.Kernel.Launch
import proofs.«115958_j13091060319093_1_alg».proof.Proof.Gen.Kernel.Skeleton
import proofs.«115958_j13091060319093_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«115958_j13091060319093_1_alg».proof.Proof.KFrameSimBody

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2, point by point: the accumulators' contents and the proof data

Point `t` of the 64 is (i, j) = (t / 8, t % 8).  The accumulators after point `t` are a recursion on `t` (cleared at
every j = 0, so the recursion's start value is never read); the output block written at j = 7 is a function of them.
The two input windows read ONE array (the stacked unit rows), each at half the share. -/

variable (V : (c : Dev nD) → (b : Ref sig .tc) → Buf (Elt F) ((c : Thread nD τ).loc b))

theorem hcond2_1 : ∀ t : Fin cfg2.N, cond2_1 (grid2.coords t) ↔ t.val % 8 = 0 :=
  (by decide +kernel : ∀ t : Fin grid2.N, cond2_1 (grid2.coords t) ↔ t.val % 8 = 0)
theorem hcond2_2 : ∀ t : Fin cfg2.N, cond2_2 (grid2.coords t) ↔ t.val % 8 = t.val / 8 :=
  (by decide +kernel : ∀ t : Fin grid2.N, cond2_2 (grid2.coords t) ↔ t.val % 8 = t.val / 8)
theorem hcond2_3 : ∀ t : Fin cfg2.N, cond2_3 (grid2.coords t) ↔ t.val % 8 = (t.val / 8 + 4) % 8 :=
  (by decide +kernel : ∀ t : Fin grid2.N, cond2_3 (grid2.coords t) ↔ t.val % 8 = (t.val / 8 + 4) % 8)
theorem hcond2_4 : ∀ t : Fin cfg2.N, cond2_4 (grid2.coords t) ↔ t.val % 8 = 7 :=
  (by decide +kernel : ∀ t : Fin grid2.N, cond2_4 (grid2.coords t) ↔ t.val % 8 = 7)

/-- The four conditions at point `n`, as Booleans of `n`. -/
def bc1 (n : ℕ) : Bool := decide (n % 8 = 0)
def bc2 (n : ℕ) : Bool := decide (n % 8 = n / 8)
def bc3 (n : ℕ) : Bool := decide (n % 8 = (n / 8 + 4) % 8)
def bc4 (n : ℕ) : Bool := decide (n % 8 = 7)

theorem hb1 (t : Fin cfg2.N) : bif bc1 t.val then cond2_1 (grid2.coords t) else ¬ cond2_1 (grid2.coords t) := by
  unfold bc1; by_cases h : t.val % 8 = 0
  · rw [decide_eq_true h]; exact (hcond2_1 t).mpr h
  · rw [decide_eq_false h]; exact fun hc => h ((hcond2_1 t).mp hc)
theorem hb2 (t : Fin cfg2.N) : bif bc2 t.val then cond2_2 (grid2.coords t) else ¬ cond2_2 (grid2.coords t) := by
  unfold bc2; by_cases h : t.val % 8 = t.val / 8
  · rw [decide_eq_true h]; exact (hcond2_2 t).mpr h
  · rw [decide_eq_false h]; exact fun hc => h ((hcond2_2 t).mp hc)
theorem hb3 (t : Fin cfg2.N) : bif bc3 t.val then cond2_3 (grid2.coords t) else ¬ cond2_3 (grid2.coords t) := by
  unfold bc3; by_cases h : t.val % 8 = (t.val / 8 + 4) % 8
  · rw [decide_eq_true h]; exact (hcond2_3 t).mpr h
  · rw [decide_eq_false h]; exact fun hc => h ((hcond2_3 t).mp hc)
theorem hb4 (t : Fin cfg2.N) : bif bc4 t.val then cond2_4 (grid2.coords t) else ¬ cond2_4 (grid2.coords t) := by
  unfold bc4; by_cases h : t.val % 8 = 7
  · rw [decide_eq_true h]; exact (hcond2_4 t).mpr h
  · rw [decide_eq_false h]; exact fun hc => h ((hcond2_4 t).mp hc)

/-- The input windows are never idle; the output window is idle exactly off j = 7, and written back exactly at j = 7. -/
theorem idleAt2_2 : ∀ t : Fin cfg2.N, ¬ cond2_4 (grid2.coords t) → cfg2.idle 2 (grid2.coords t) = true := by decide +kernel
theorem noFlush2_2 : ∀ t : Fin cfg2.N, ¬ cond2_4 (grid2.coords t) → (cfg2.win 2).flush t = false := by decide +kernel
theorem liveAt2_2 : ∀ t : Fin cfg2.N, cond2_4 (grid2.coords t) → cfg2.idle 2 (grid2.coords t) = false := by decide +kernel

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The three accumulators after point `n` (a triple), by recursion on `n`; before point 0 a placeholder that is never
    read, point 0 being a j = 0 point. -/
def accAt (c : Dev nD) : (n : ℕ) → n < cfg2.N → Vec F S1024x1 .f32 × Vec F S1024x1 .f32 × Vec F S1024x1 .f32
  | 0, hn => (nxt0 (bc1 0) (iblk2 V c 0 ⟨0, hn⟩) (iblk2 V c 1 ⟨0, hn⟩) k2_pay1,
      nxt1 (bc1 0) (bc2 0) (iblk2 V c 0 ⟨0, hn⟩) (iblk2 V c 1 ⟨0, hn⟩) k2_pay2,
      nxt2 (bc1 0) (bc3 0) (iblk2 V c 0 ⟨0, hn⟩) (iblk2 V c 1 ⟨0, hn⟩) k2_pay3)
  | n + 1, hn => (nxt0 (bc1 (n + 1)) (iblk2 V c 0 ⟨n + 1, hn⟩) (iblk2 V c 1 ⟨n + 1, hn⟩) (accAt c n (Nat.lt_of_succ_lt hn)).1,
      nxt1 (bc1 (n + 1)) (bc2 (n + 1)) (iblk2 V c 0 ⟨n + 1, hn⟩) (iblk2 V c 1 ⟨n + 1, hn⟩) (accAt c n (Nat.lt_of_succ_lt hn)).2.1,
      nxt2 (bc1 (n + 1)) (bc3 (n + 1)) (iblk2 V c 0 ⟨n + 1, hn⟩) (iblk2 V c 1 ⟨n + 1, hn⟩) (accAt c n (Nat.lt_of_succ_lt hn)).2.2)

/-- The output block as written at a j = 7 point (stated at every point; consulted only there). -/
def outAt2 (c : Dev nD) (t : Fin cfg2.N) : Vec F S1024x1 .f32 :=
  k2_pay9 (accAt V c t.val t.isLt).1 (accAt V c t.val t.isLt).2.1 (accAt V c t.val t.isLt).2.2

/-- The scratch operands as memrefs. -/
abbrev scM0 : Memref sig .tc .vmem S1024x1 .f32 := Memref.whole cc2_scratch0
abbrev scM1 : Memref sig .tc .vmem S1024x1 .f32 := Memref.whole cc2_scratch1
abbrev scM2 : Memref sig .tc .vmem S1024x1 .f32 := Memref.whole cc2_scratch2

/-- The other regions' staging buffers, at anything: scoped buffers this region never touches. -/
def others2 (c : Dev nD) (R : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ R)

/-- The class invariant with the scratch operands as memrefs owned at some contents. -/
theorem PhiA2_eq (c : Dev nD) :
    (Pipeline.ΦA spec2 c : sProp 𝕄)
      = iprop(others2 c iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA others2; rw [scopedRest2_eq]; simp only [scM0, scM1, scM2, owns_whole]; try rfl

/-- The region invariant before position `n`: at first the class's; afterwards the accumulators at what the point
    before left, the untouched scoped buffers at anything, the generator register at some state. -/
def PhiS2 (c : Dev nD) : (n : ℕ) → n ≤ cfg2.N → sProp 𝕄
  | 0, _ => Pipeline.ΦA spec2 c
  | n + 1, hn => iprop(others2 c iprop(owns (c : Thread nD τ) scM0 fullShare (accAt V c n hn).1 ∗ owns (c : Thread nD τ) scM1 fullShare (accAt V c n hn).2.1 ∗ owns (c : Thread nD τ) scM2 fullShare (accAt V c n hn).2.2) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(others2 c iprop(owns (c : Thread nD τ) scM0 fullShare (accAt V c n hn).1 ∗ owns (c : Thread nD τ) scM1 fullShare (accAt V c n hn).2.1 ∗ owns (c : Thread nD τ) scM2 fullShare (accAt V c n hn).2.2) ∗ (∃ r, prngReg c r)) := rfl
theorem PhiS2_pos (c : Dev nD) (n : ℕ) (h : n ≤ cfg2.N) (hz : n ≠ 0) :
    PhiS2 V c n h = iprop(others2 c iprop(owns (c : Thread nD τ) scM0 fullShare (accAt V c (n - 1) (by omega)).1 ∗ owns (c : Thread nD τ) scM1 fullShare (accAt V c (n - 1) (by omega)).2.1 ∗ owns (c : Thread nD τ) scM2 fullShare (accAt V c (n - 1) (by omega)).2.2) ∗ (∃ r, prngReg c r)) := by
  cases n with
  | zero => exact absurd rfl hz
  | succ n => rfl

/-- The accumulators after point `t`, from those after the point before, when `t` is not the first point. -/
theorem accAt_pos (c : Dev nD) (t : Fin cfg2.N) (hz : t.val ≠ 0) :
    accAt V c t.val t.isLt = (nxt0 (bc1 t.val) (iblk2 V c 0 t) (iblk2 V c 1 t) (accAt V c (t.val - 1) (by omega)).1,
      nxt1 (bc1 t.val) (bc2 t.val) (iblk2 V c 0 t) (iblk2 V c 1 t) (accAt V c (t.val - 1) (by omega)).2.1,
      nxt2 (bc1 t.val) (bc3 t.val) (iblk2 V c 0 t) (iblk2 V c 1 t) (accAt V c (t.val - 1) (by omega)).2.2) := by
  obtain ⟨n, hn⟩ := t
  cases n with
  | zero => exact absurd rfl hz
  | succ n => rfl

/-- At the first point the accumulators were just cleared, whatever they held. -/
theorem accAt_zero (c : Dev nD) (t : Fin cfg2.N) (hz : t.val = 0) (d0 d1 d2 : Vec F S1024x1 .f32) :
    accAt V c t.val t.isLt = (nxt0 (bc1 t.val) (iblk2 V c 0 t) (iblk2 V c 1 t) d0,
      nxt1 (bc1 t.val) (bc2 t.val) (iblk2 V c 0 t) (iblk2 V c 1 t) d1,
      nxt2 (bc1 t.val) (bc3 t.val) (iblk2 V c 0 t) (iblk2 V c 1 t) d2) := by
  obtain ⟨n, hn⟩ := t
  obtain rfl : n = 0 := hz
  rfl

/-- The proof data of pipeline 2 on core `c`: the arrays as the region finds them, the stacked rows' array held in two
    halves by the two windows that read it; after the body at point `t` each input's buffer at its block and the
    output's at `outAt2`; the invariant `PhiS2`; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => outAt2 V c t
  Φ t := PhiS2 V c t.val (Nat.le_of_lt_succ t.isLt)
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = outAt2 V c t := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

theorem nxt0_true (xa xb : Vec F S1024x1024 .bf16) (d : Vec F S1024x1 .f32) : nxt0 true xa xb d = nxt0 true xa xb k2_pay1 := rfl
theorem nxt1_true (b2 : Bool) (xa xb : Vec F S1024x1024 .bf16) (d : Vec F S1024x1 .f32) : nxt1 true b2 xa xb d = nxt1 true b2 xa xb k2_pay2 := by
  cases b2 <;> rfl
theorem nxt2_true (b3 : Bool) (xa xb : Vec F S1024x1024 .bf16) (d : Vec F S1024x1 .f32) : nxt2 true b3 xa xb d = nxt2 true b3 xa xb k2_pay3 := by
  cases b3 <;> rfl

/-- At the first point: the accumulators as a j = 0 point leaves them. -/
theorem accAt_first (c : Dev nD) (t : Fin cfg2.N) (hz : t.val = 0) :
    accAt V c t.val t.isLt = (nxt0 true (iblk2 V c 0 t) (iblk2 V c 1 t) k2_pay1,
      nxt1 true (bc2 t.val) (iblk2 V c 0 t) (iblk2 V c 1 t) k2_pay2,
      nxt2 true (bc3 t.val) (iblk2 V c 0 t) (iblk2 V c 1 t) k2_pay3) := by
  obtain ⟨n, hn⟩ := t
  obtain rfl : n = 0 := hz
  rfl

theorem leaves2_0 (c : Dev nD) (t : Fin cfg2.N) : (dat2 V c).leavesExact 0 t = owns (c : Thread nD τ) (st2_0 t) fullShare (iblk2 V c 0 t) := by
  rw [← after2_0 V c t]
theorem leaves2_1 (c : Dev nD) (t : Fin cfg2.N) : (dat2 V c).leavesExact 1 t = owns (c : Thread nD τ) (st2_1 t) fullShare (iblk2 V c 1 t) := by
  rw [← after2_1 V c t]
theorem leaves2_2_live (c : Dev nD) (t : Fin cfg2.N) (h4 : cond2_4 (grid2.coords t)) :
    (dat2 V c).leavesExact 2 t = owns (c : Thread nD τ) (st2_2 t) fullShare (outAt2 V c t) := by
  rw [← after2_2 V c t]; unfold Dat.leavesExact; rw [liveAt2_2 t h4]
theorem leaves2_2_idle (c : Dev nD) (t : Fin cfg2.N) (h4 : ¬ cond2_4 (grid2.coords t)) :
    (dat2 V c).leavesExact 2 t = iprop(∃ d, owns (c : Thread nD τ) (st2_2 t) fullShare ((dat2 V c).before 2 t d)) :=
  Dat.leavesExact_idle (dat2 V c) 2 t (idleAt2_2 t h4) (noFlush2_2 t h4)

set_option maxHeartbeats 4000000 in
/-- The body at any point: the inputs' memrefs hold their blocks; the accumulators are handed over at what the point
    before left (at anything at the first point, which clears them) and taken back at this point's contents; the output
    block is written at a j = 7 point and handed back untouched elsewhere; nothing is owed. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ, leaves2_0, leaves2_1, PhiS2_castSucc V c t]
  by_cases hz : t.val = 0
  · have h1 : cond2_1 (grid2.coords t) := (hcond2_1 t).mpr (by rw [hz])
    rw [PhiS2_zero V c _ _ hz, PhiA2_eq, accAt_first V c t hz]
    unfold others2
    by_cases h4 : cond2_4 (grid2.coords t)
    · rw [leaves2_2_live V c t h4]; unfold outAt2; rw [accAt_first V c t hz]
      iintro ⟨⟨⟨A1, A2, A3, A4, A5, A6, A7, A8, ⟨%d0, HS0⟩, ⟨%d1, HS1⟩, ⟨%d2, HS2⟩⟩, Hg⟩, Ho, ⟨%e0, H0⟩, ⟨%e1, H1⟩, ⟨%e2, H2⟩⟩
      iapply (sound_kernel2 c Set.univ _ _ _ _ _ _ _ _ _ _ _ _ _ true (bc2 t.val) (bc3 t.val) true h1 (hb2 t) (hb3 t) h4 (iblk2 V c 0 t) (iblk2 V c 1 t) _ d0 d1 d2 _)
      isplitl [H0]; · iexact H0
      isplitl [H1]; · iexact H1
      isplitl [H2]; · iexact H2
      isplitl [HS0]; · iexact HS0
      isplitl [HS1]; · iexact HS1
      isplitl [HS2]; · iexact HS2
      rw [nxt0_true, nxt1_true, nxt2_true]
      iintro ⟨H0, H1, H2, HS0, HS1, HS2⟩
      isplitl [A1 A2 A3 A4 A5 A6 A7 A8 HS0 HS1 HS2 Hg]
      · isplitl [A1 A2 A3 A4 A5 A6 A7 A8 HS0 HS1 HS2]
        · isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [HS0]; · iexact HS0
          isplitl [HS1]; · iexact HS1
          iexact HS2
        iexact Hg
      isplitl [Ho]; · iexact Ho
      isplitl [H0]; · iexact H0
      isplitl [H1]; · iexact H1
      iexact H2
    · rw [leaves2_2_idle V c t h4]
      iintro ⟨⟨⟨A1, A2, A3, A4, A5, A6, A7, A8, ⟨%d0, HS0⟩, ⟨%d1, HS1⟩, ⟨%d2, HS2⟩⟩, Hg⟩, Ho, ⟨%e0, H0⟩, ⟨%e1, H1⟩, ⟨%e2, H2⟩⟩
      iapply (sound_kernel2 c Set.univ _ _ _ _ _ _ _ _ _ _ _ _ _ true (bc2 t.val) (bc3 t.val) false h1 (hb2 t) (hb3 t) h4 (iblk2 V c 0 t) (iblk2 V c 1 t) _ d0 d1 d2 _)
      isplitl [H0]; · iexact H0
      isplitl [H1]; · iexact H1
      isplitl [H2]; · iexact H2
      isplitl [HS0]; · iexact HS0
      isplitl [HS1]; · iexact HS1
      isplitl [HS2]; · iexact HS2
      rw [nxt0_true, nxt1_true, nxt2_true]
      iintro ⟨H0, H1, H2, HS0, HS1, HS2⟩
      isplitl [A1 A2 A3 A4 A5 A6 A7 A8 HS0 HS1 HS2 Hg]
      · isplitl [A1 A2 A3 A4 A5 A6 A7 A8 HS0 HS1 HS2]
        · isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [HS0]; · iexact HS0
          isplitl [HS1]; · iexact HS1
          iexact HS2
        iexact Hg
      isplitl [Ho]; · iexact Ho
      isplitl [H0]; · iexact H0
      isplitl [H1]; · iexact H1
      iexists e2; iexact H2
  · rw [PhiS2_pos V c _ _ hz, accAt_pos V c t hz]
    unfold others2
    by_cases h4 : cond2_4 (grid2.coords t)
    · rw [leaves2_2_live V c t h4]; unfold outAt2; rw [accAt_pos V c t hz]
      iintro ⟨⟨⟨A1, A2, A3, A4, A5, A6, A7, A8, HS0, HS1, HS2⟩, Hg⟩, Ho, ⟨%e0, H0⟩, ⟨%e1, H1⟩, ⟨%e2, H2⟩⟩
      iapply (sound_kernel2 c Set.univ _ _ _ _ _ _ _ _ _ _ _ _ _ (bc1 t.val) (bc2 t.val) (bc3 t.val) true (hb1 t) (hb2 t) (hb3 t) h4 (iblk2 V c 0 t) (iblk2 V c 1 t) _ _ _ _ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [A1 A2 A3 A4 A5 A6 A7 A8 HS0 HS1 HS2 Hg]
      · isplitl [A1 A2 A3 A4 A5 A6 A7 A8 HS0 HS1 HS2]
        · isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [HS0]; · iexact HS0
          isplitl [HS1]; · iexact HS1
          iexact HS2
        iexact Hg
      isplitl [Ho]; · iexact Ho
      isplitl [H0]; · iexact H0
      isplitl [H1]; · iexact H1
      iexact H2
    · rw [leaves2_2_idle V c t h4]
      iintro ⟨⟨⟨A1, A2, A3, A4, A5, A6, A7, A8, HS0, HS1, HS2⟩, Hg⟩, Ho, ⟨%e0, H0⟩, ⟨%e1, H1⟩, ⟨%e2, H2⟩⟩
      iapply (sound_kernel2 c Set.univ _ _ _ _ _ _ _ _ _ _ _ _ _ (bc1 t.val) (bc2 t.val) (bc3 t.val) false (hb1 t) (hb2 t) (hb3 t) h4 (iblk2 V c 0 t) (iblk2 V c 1 t) _ _ _ _ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [A1 A2 A3 A4 A5 A6 A7 A8 HS0 HS1 HS2 Hg]
      · isplitl [A1 A2 A3 A4 A5 A6 A7 A8 HS0 HS1 HS2]
        · isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [HS0]; · iexact HS0
          isplitl [HS1]; · iexact HS1
          iexact HS2
        iexact Hg
      isplitl [Ho]; · iexact Ho
      isplitl [H0]; · iexact H0
      isplitl [H1]; · iexact H1
      iexists e2; iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the accumulators' named contents are forgotten. -/
theorem hout2 (c : Dev nD) : (dat2 V c).Φ (Fin.last cfg2.N) ⊢ Pipeline.ΦA spec2 c := by
  have hN : (Fin.last cfg2.N).val ≠ 0 := by rw [Fin.val_last]; have : cfg2.N = 64 := N_2; omega
  rw [show (dat2 V c).Φ (Fin.last cfg2.N) = PhiS2 V c (Fin.last cfg2.N).val (Nat.le_of_lt_succ (Fin.last cfg2.N).isLt) from rfl, PhiS2_pos V c _ _ hN, PhiA2_eq]
  unfold others2
  iintro ⟨⟨A1, A2, A3, A4, A5, A6, A7, A8, HS0, HS1, HS2⟩, Hg⟩
  isplitl [A1 A2 A3 A4 A5 A6 A7 A8 HS0 HS1 HS2]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [HS0]; · iexists _; iexact HS0
    isplitl [HS1]; · iexists _; iexact HS1
    iexists _; iexact HS2
  iexact Hg

end Cert.Kernel.Fr
end
-- ==== Proof.KFrameRun01.lean ====
import proofs.«115958_j13091060319093_1_alg».proof.Proof.Gen.Kernel.Launch
import proofs.«115958_j13091060319093_1_alg».proof.Proof.Gen.Kernel.Skeleton
import proofs.«115958_j13091060319093_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«115958_j13091060319093_1_alg».proof.Proof.KFrameNorm0
import proofs.«115958_j13091060319093_1_alg».proof.Proof.KFrameNorm1
import proofs.«115958_j13091060319093_1_alg».proof.Proof.KFrameSim

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run: @main's five items from the launch to the return

Two normalising regions, the host concatenation, the loss region, the host mean.  The contents of the core's unscoped
buffers at each boundary are a fold from the launch memory: a region leaves its arrays at what its write-backs fold
to and every other buffer as entered; a host stretch leaves what its operations compute.  Every weakly fair
execution terminates with every unscoped buffer at the last boundary's contents. -/

variable (m : (ℓ : Loc nD τ sig) → Buf (Elt F) ℓ) (ρ : Dev nD → PrngReg)

/-- Core `c`'s buffers at launch. -/
abbrev W0 : Dev nD → Valuation τ sig (Elt F) := fun c b => m (c, b)
abbrev U0 : (c : Dev nD) → (b : Ref sig .tc) → Buf (Elt F) ((c : Thread nD τ).loc b) := fun c b => W0 m c b
/-- After region 0: its arrays at what the pipeline leaves. -/
def W1 (c : Dev nD) : Valuation τ sig (Elt F) :=
  Pipeline.withArrays spec0 c (W0 m c) fun w => (dat0 (U0 m) c).arrAt w cfg0.N
theorem W1_arr (c : Dev nD) (w : Fin cfg0.W) :
    W1 m c (Proc.devRef .tc (Pipeline.arrRef spec0 w)) = (dat0 (U0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev U1 : (c : Dev nD) → (b : Ref sig .tc) → Buf (Elt F) ((c : Thread nD τ).loc b) := fun c b => W1 m c b
theorem hF0 (c : Dev nD) (w : Fin cfg0.W) : (dat0 (U0 m) c).arrAt w cfg0.N = U1 m c (Pipeline.arrRef spec0 w) :=
  (W1_arr m c w).symm
theorem hrest0 (c : Dev nD) : ∀ b, b ∉ Finset.univ.image (Pipeline.arrRef spec0) → U1 m c b = U0 m c b :=
  fun b hb => W1_of_ne m c b fun w e => hb (Finset.mem_image.mpr ⟨w, Finset.mem_univ _, e⟩)

/-- After region 1. -/
def W2 (c : Dev nD) : Valuation τ sig (Elt F) :=
  Pipeline.withArrays spec1 c (W1 m c) fun w => (dat1 (U1 m) c).arrAt w cfg1.N
theorem W2_arr (c : Dev nD) (w : Fin cfg1.W) :
    W2 m c (Proc.devRef .tc (Pipeline.arrRef spec1 w)) = (dat1 (U1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev U2 : (c : Dev nD) → (b : Ref sig .tc) → Buf (Elt F) ((c : Thread nD τ).loc b) := fun c b => W2 m c b
theorem hF1 (c : Dev nD) (w : Fin cfg1.W) : (dat1 (U1 m) c).arrAt w cfg1.N = U2 m c (Pipeline.arrRef spec1 w) :=
  (W2_arr m c w).symm
theorem hrest1 (c : Dev nD) : ∀ b, b ∉ Finset.univ.image (Pipeline.arrRef spec1) → U2 m c b = U1 m c b :=
  fun b hb => W2_of_ne m c b fun w e => hb (Finset.mem_image.mpr ⟨w, Finset.mem_univ _, e⟩)

/-- After the concatenation. -/
abbrev W3 : Dev nD → Valuation τ sig (Elt F) := fun c => StableHlo.after hostOps2 (W2 m c)
abbrev U3 : (c : Dev nD) → (b : Ref sig .tc) → Buf (Elt F) ((c : Thread nD τ).loc b) := fun c b => W3 m c b
/-- After region 2: the loss column at what the write-backs fold to, every other buffer as entered. -/
def W4 (c : Dev nD) : Valuation τ sig (Elt F) :=
  Function.update (W3 m c) (Proc.devRef .tc main_v3) ((dat2 (U3 m) c).arrAt 2 cfg2.N)
abbrev U4 : (c : Dev nD) → (b : Ref sig .tc) → Buf (Elt F) ((c : Thread nD τ).loc b) := fun c b => W4 m c b
theorem W4_v3 (c : Dev nD) : W4 m c (Proc.devRef .tc main_v3) = (dat2 (U3 m) c).arrAt 2 cfg2.N := by
  unfold W4; exact Function.update_self ..
theorem W4_of_ne (c : Dev nD) (b : Ref sig .tc) (hb : b ≠ main_v3) : W4 m c (Proc.devRef .tc b) = W3 m c (Proc.devRef .tc b) := by
  unfold W4; exact Function.update_of_ne (StableHlo.devRef_ne_of_ne hb) ..
/-- After the mean. -/
abbrev W5 : Dev nD → Valuation τ sig (Elt F) := fun c => StableHlo.after hostOps3 (W4 m c)

/-- No pipeline has a prefetched table. -/
abbrev adm' : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm' p) c
  | ⟨0, _⟩ => fun c => dat0 (U0 m) c
  | ⟨1, _⟩ => fun c => dat1 (U1 m) c
  | ⟨2, _⟩ => fun c => dat2 (U3 m) c
abbrev 𝒱₀ : Variants := Variants.none
abbrev L : GSem nD τ sig → Finset Unit := fun _ => ∅
abbrev lv : GSem nD τ sig → Unit → ℕ := fun _ _ => 0
/-- What rides beside the buffers through every item: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

set_option backward.isDefEq.respectTransparency.types false in
/-- Region 0 over the thread state: entered from every unscoped buffer at `W0`, left at `W1`. -/
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (U0 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (U0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (U0 m c) (U1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from `W1`, left at `W2`. -/
def reg1 : Pipeline.RegionSeg (pcfgs (F := F)) adm' (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (U1 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (U1 m c) (U2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr
end
-- ==== Proof.KFrameRun.lean ====
import proofs.«115958_j13091060319093_1_alg».proof.Proof.Gen.Kernel.Launch
import proofs.«115958_j13091060319093_1_alg».proof.Proof.Gen.Kernel.Skeleton
import proofs.«115958_j13091060319093_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«115958_j13091060319093_1_alg».proof.Proof.KFrameRun01

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The loss region as an item of the run, and the run -/

variable (m : (ℓ : Loc nD τ sig) → Buf (Elt F) ℓ) (ρ : Dev nD → PrngReg)

/-- The loss region's windows read two buffers: the stacked rows (twice) and the loss column. -/
theorem img2 : Finset.univ.image (Pipeline.arrRef spec2) = ({main_v2, main_v3} : Finset (Ref sig .tc)) := by decide

/-- The pipeline's arrays, window by window: the stacked rows' buffer in two halves, the loss column whole. -/
theorem arrays2_eq (c : Dev nD) (G : (w : Fin cfg2.W) → Buf (Elt F) ((cfg2.win w).arr.view.loc (c : Thread nD τ))) :
    ((dat2 (U3 m) c).arrays G : sProp 𝕄)
      = iprop((((c : Thread nD τ).loc (Pipeline.arrRef spec2 0)) ↦{fullShare.left} G 0)
        ∗ (((c : Thread nD τ).loc (Pipeline.arrRef spec2 1)) ↦{fullShare.right} G 1)
        ∗ (((c : Thread nD τ).loc (Pipeline.arrRef spec2 2)) ↦{fullShare} G 2)) := by
  unfold Dat.arrays
  rw [bigSep_W2, (arr_whole2 0).set_eq_univ, (arr_whole2 2).set_eq_univ]
  rfl

/-- The two buffers behind the loss region's arrays, one by one. -/
theorem arrBufs2_eq (c : Dev nD) (V : (b : Ref sig .tc) → Buf (Elt F) ((c : Thread nD τ).loc b)) :
    (Pipeline.arrBufs (Ix := Unit) (Name := ℕ) (U := UR sig nD τ) (Lvl := ℕ) spec2 c V : sProp 𝕄)
      = iprop((((c : Thread nD τ).loc main_v2) ↦{fullShare} V main_v2) ∗ (((c : Thread nD τ).loc main_v3) ↦{fullShare} V main_v3)) := by
  unfold Pipeline.arrBufs
  rw [img2, bigSep_insert (by decide), bigSep_singleton]
  rfl

/-- ENTRY: the two buffers behind the arrays, whole, are the pipeline's arrays at their entry contents. -/
theorem arrays2_of_bufs (c : Dev nD) :
    (Pipeline.arrBufs (Ix := Unit) (Name := ℕ) (U := UR sig nD τ) (Lvl := ℕ) spec2 c (U3 m c) : sProp 𝕄)
      ⊢ (dat2 (U3 m) c).arrays ((dat2 (U3 m) c).arrAt · 0) := by
  rw [arrays2_eq, arrBufs2_eq]
  iintro ⟨H2, H3⟩
  ihave H2' := (pointsTo_share (PosShare.mem_left_op_right fullShare)).1 $$ H2
  icases H2' with ⟨Hl, Hr⟩
  isplitl [Hl]; · iexact Hl
  isplitl [Hr]; · iexact Hr
  iexact H3

/-- EXIT: the arrays at their final contents are the two buffers whole, at the exit valuation. -/
theorem bufs_of_arrays2 (c : Dev nD) :
    ((dat2 (U3 m) c).arrays ((dat2 (U3 m) c).arrAt · cfg2.N) : sProp 𝕄)
      ⊢ Pipeline.arrBufs (Ix := Unit) (Name := ℕ) (U := UR sig nD τ) (Lvl := ℕ) spec2 c (U4 m c) := by
  rw [arrays2_eq, arrBufs2_eq]
  rw [(dat2 (U3 m) c).arrAt_in 0 rfl, (dat2 (U3 m) c).arrAt_in 1 rfl,
    show U4 m c main_v2 = U3 m c main_v2 from W4_of_ne m c main_v2 (by decide),
    show U4 m c main_v3 = (dat2 (U3 m) c).arrAt 2 cfg2.N from W4_v3 m c]
  iintro ⟨Hl, Hr, H3⟩
  isplitl [Hl Hr]
  · iapply (pointsTo_share (PosShare.mem_left_op_right fullShare)).2
    isplitl [Hl]; · iexact Hl
    iexact Hr
  iexact H3

/-- The buffers no window of the loss region reads are as entered. -/
theorem rest2_eq (c : Dev nD) :
    (Pipeline.unscopedRest (Ix := Unit) (Name := ℕ) (U := UR sig nD τ) (Lvl := ℕ) spec2 c (U4 m c) : sProp 𝕄)
      = Pipeline.unscopedRest spec2 c (U3 m c) := by
  unfold Pipeline.unscopedRest
  exact bigSep_congr fun b hb => by
    rw [show U4 m c b = U3 m c b from W4_of_ne m c b (fun e => (Finset.mem_sdiff.mp hb).2 (by rw [e, img2]; decide))]

set_option backward.isDefEq.respectTransparency.types false in
/-- The loss region over the thread state: entered from `W3`, left at `W4`. -/
def reg2 : Pipeline.RegionSeg (pcfgs (F := F)) adm' (pdats m) () defs₀ 𝒱₀ L lv 2 where
  win := winFacts₀2
  block_pos := block_pos2
  stage_whole := stage_whole2
  K := PEmpty
  osem k := k.elim
  ho := Pipeline.OwnSemFacts.none _
  hbody c := (body_obligation2 (U3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (U3 m c)
  hentry c := by
    rw [Pipeline.ownSems0_none]
    have hsp := Pipeline.unscopedBufs_split₀ (Ix := Unit) (Name := ℕ) (U := UR sig nD τ) (Lvl := ℕ) (Pipeline.pin (pcfgs (F := F)) adm') 2 winFacts₀2.arr_unscoped c (U3 m c)
    rw [Pipeline.unscopedBufs_held] at hsp
    iintro ⟨⟨Hub, Hp, HO⟩, -, -⟩
    ihave H := (Entails.of_eq hsp) $$ Hub
    icases H with ⟨Ha, Hrest⟩
    imodintro
    isplitl [Ha]; · iapply (arrays2_of_bufs m c); iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (hout2 (U3 m) c).trans ?_
    unfold Pipeline.ΦA
    iintro ⟨Hr, Hp⟩
    isplitl [Hp]; · iexact Hp
    isplitr; · iempintro
    iexact Hr
  hexit c := by
    have hsp := Pipeline.unscopedBufs_split₀ (Ix := Unit) (Name := ℕ) (U := UR sig nD τ) (Lvl := ℕ) (Pipeline.pin (pcfgs (F := F)) adm') 2 winFacts₀2.arr_unscoped c (U4 m c)
    rw [Pipeline.unscopedBufs_held] at hsp
    have hj : iprop((Pipeline.arrBufs (Ix := Unit) (Name := ℕ) (U := UR sig nD τ) (Lvl := ℕ) spec2 c (U4 m c) : sProp 𝕄) ∗ Pipeline.unscopedRest spec2 c (U3 m c))
        ⊢ StableHlo.held (c : Thread nD τ) (Pipeline.ucRefs τ sig) (W4 m c) := by
      rw [← rest2_eq m c]; exact Entails.of_eq hsp.symm
    iintro ⟨Ha, HO, HY, Hrest⟩
    imodintro
    isplitl [Ha Hrest]
    · iapply hj
      isplitl [Ha]; · iapply (bufs_of_arrays2 m c); iexact Ha
      iexact Hrest
    isplitl [HY]; · iexact HY
    unfold Pipeline.Dat.owesAt Pipeline.owesWithin
    icases HO with ⟨%W, -, HO⟩; iexists W; iexact HO

theorem hostOps2_fresh' : (hostOps2 : List (HloOp τ sig (Elt F))).Forall fun op => op.fresh = ∅ := by
  simp only [List.Forall]; repeat' constructor
theorem hostOps3_fresh' : (hostOps3 : List (HloOp τ sig (Elt F))).Forall fun op => op.fresh = ∅ := by
  simp only [List.Forall]; repeat' constructor

/-- @main's five items in order. -/
abbrev segs : List (Pipeline.Seg (pcfgs (F := F)) adm' (pdats m) () defs₀ 𝒱₀ L lv) :=
  [ .region (reg0 m),
    .region (reg1 m),
    .host (hseg hostOps2 hostOps2_sub hostOps2_fresh' (W2 m)),
    .region (reg2 m),
    .host (hseg hostOps3 hostOps3_sub hostOps3_fresh' (W4 m)) ]

theorem main_run (c : Dev nD) : main (F := F) c = Pipeline.Seg.run (segs m) := (main_chain c).trans (by chain_rfl)

set_option backward.isDefEq.respectTransparency.types false in
/-- THE RUN, at any float instance: from any memory with zero counters, every weakly fair execution of @main on the
    TensorCores terminates, nothing faulting, with every unscoped buffer at the last boundary's contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm' (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ (∃ r, prngReg c r) ∗ ∃ W, owes (c : Thread nD τ) (0 : CellTallies nD τ sig Unit) W) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

end Cert.Kernel.Fr
end
-- ==== Proof.KFrameClaims.lean ====
import proofs.«115958_j13091060319093_1_alg».proof.Proof.Gen.Kernel.Launch
import proofs.«115958_j13091060319093_1_alg».proof.Proof.Gen.Kernel.Skeleton
import proofs.«115958_j13091060319093_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«115958_j13091060319093_1_alg».proof.Proof.KFrameRun
import proofs.«115958_j13091060319093_1_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What the run says of the arguments and of the result

No item writes an argument array: a region reads it through an input window, the host stretches write only their own
results.  So the last boundary's contents at an argument walk back to the launch memory. -/

variable (m : (ℓ : Loc nD τ sig) → Buf (Elt F) ℓ) (ρ : Dev nD → PrngReg)

theorem W5_of (c : Dev nD) (r : Ref sig .tc) (h : r ∉ hostOps3_W) : W5 m c r = W4 m c r :=
  StableHlo.after_of_writes_sub hostOps3 _ hostOps3_writes h
theorem W3_of (c : Dev nD) (r : Ref sig .tc) (h : r ∉ hostOps2_W) : W3 m c r = W2 m c r :=
  StableHlo.after_of_writes_sub hostOps2 _ hostOps2_writes h

theorem W5_main_arg0 (c : Dev nD) : W5 m c main_arg0 = m ((c : Thread nD τ).loc main_arg0) :=
  (W5_of m c main_arg0 (by decide)).trans <| (W4_of_ne m c main_arg0 (by decide)).trans <| (W3_of m c main_arg0 (by decide)).trans <|
    (W2_of_ne m c main_arg0 (by decide)).trans <| (W1_arr m c 0).trans <| ((dat0 (U0 m) c).arrAt_in 0 rfl _).trans (A_eq0 (U0 m) c 0)

theorem W5_main_arg1 (c : Dev nD) : W5 m c main_arg1 = m ((c : Thread nD τ).loc main_arg1) :=
  (W5_of m c main_arg1 (by decide)).trans <| (W4_of_ne m c main_arg1 (by decide)).trans <| (W3_of m c main_arg1 (by decide)).trans <|
    (W2_arr m c 0).trans <| ((dat1 (U1 m) c).arrAt_in 0 rfl _).trans <| (A_eq1 (U1 m) c 0).trans (W1_of_ne m c main_arg1 (by decide))

/-- THE FRAME at any float instance: the program runs to the end, faults nowhere, and leaves its arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W5_main_arg0 m c),
     (h c _ (mem_uc main_arg1 (by decide))).trans (W5_main_arg1 m c)⟩) (run_all m ρ)

/-- The run with the result named: the result buffer ends at the last boundary's contents. -/
theorem run_value : θ_run defs (onTc (τ := τ) (main (F := F))) ⟨m, fun _ => 0, ρ⟩ (fun r => ∀ c : Dev nD,
      r.2.mem ((c.tc : Thread nD τ).loc main_v5) = W5 m c main_v5
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨h c _ (mem_uc main_v5 (by decide)),
     (h c _ (mem_uc main_arg0 (by decide))).trans (W5_main_arg0 m c),
     (h c _ (mem_uc main_arg1 (by decide))).trans (W5_main_arg1 m c)⟩) (run_all m ρ)

end Cert.Kernel.Fr
end
-- ==== Proof.Spec.lean ====
/-
  The contrastive loss both programs compute, as plain functions on the extended reals.

  Two arrays of 4096 rows of 1024 numbers are normalised row by row (each row divided by its Euclidean length,
  the length clamped from below by a small positive constant), stacked into 8192 unit rows `z`, and compared
  pairwise: `sim n m = ⟨z n, z m⟩`.  Row `n`'s positive is row `n ± 4096`.  Its loss is
  `-log (exp (sim n n⁺ / T) / Σ_{m ≠ n} exp (sim n m / T))` with temperature `T = 1/2`; the result is the mean of
  the 8192 losses.  `lossK` is that loss with the logarithm of the quotient taken apart and the division by
  `T` written as a product with `2` (how the tiled program accumulates it); `lossR` is the quotient form, the
  diagonal term removed by a 0/1 mask (how the whole-matrix program writes it).
-/
import Idealize.ShloMosaic.PureOps.Ideal
import Idealize.ShloMosaic.Lib.ValueIdx

noncomputable section

open scoped BigOperators

namespace Cert.Spec

open Idealize.ShloMosaic Idealize.ShloMosaic.ValueIdx

/-- The lower clamp of a row's length (the word of `1e-12` in single precision). -/
def eps : EReal := Ideal.ofBits .f32 0x2B8CBCCC#32
/-- The words of 0, 1/2, 1, 2 and 8192 in single precision. -/
def zero : EReal := Ideal.ofBits .f32 0x00000000#32
def half : EReal := Ideal.ofBits .f32 0x3F000000#32
def one : EReal := Ideal.ofBits .f32 0x3F800000#32
def two : EReal := Ideal.ofBits .f32 0x40000000#32
def cnt : EReal := Ideal.ofBits .f32 0x46000000#32

/-- A row's Euclidean length, clamped below by `eps`. -/
def rowLen (x : Fin 1024 → EReal) : EReal := max (Ideal.sqrt (∑ k : Fin 1024, x k * x k)) eps
/-- A row divided by its clamped length. -/
def unitRow (x : Fin 1024 → EReal) (k : Fin 1024) : EReal := Ideal.div (x k) (rowLen x)

/-- Row `r` of an array with 1024 columns, as a function of the column. -/
def rowOf {R : Nat} (x : (⟨2, ![R, 1024]⟩ : Shape).Idx → EReal) (r : Fin R) : Fin 1024 → EReal := fun k => x (ix2 r k)

/-- The stacked unit rows: rows 0–4095 are `x0`'s rows normalised, rows 4096–8191 are `x1`'s. -/
def z (x0 x1 : (⟨2, ![4096, 1024]⟩ : Shape).Idx → EReal) (n : Fin 8192) : Fin 1024 → EReal :=
  if h : n.val < 4096 then unitRow (rowOf x0 ⟨n.val, h⟩) else unitRow (rowOf x1 ⟨n.val - 4096, by omega⟩)

/-- The inner product of rows `n` and `m`. -/
def sim (z : Fin 8192 → Fin 1024 → EReal) (n m : Fin 8192) : EReal := ∑ k : Fin 1024, z n k * z m k

/-- Row `n`'s positive: the row 4096 further on, cyclically. -/
def partner (n : Fin 8192) : Fin 8192 := ⟨(n.val + 4096) % 8192, Nat.mod_lt _ (by decide)⟩

/-- The loss of row `n`, logarithm taken apart: `(0 - 2·sim n n⁺) + log (Σ_m exp (2·sim n m) - exp (2·sim n n))`. -/
def lossK (z : Fin 8192 → Fin 1024 → EReal) (n : Fin 8192) : EReal :=
  (zero - sim z n (partner n) * two)
    + Ideal.log ((∑ m : Fin 8192, Ideal.exp (sim z n m * two)) - Ideal.exp (sim z n n * two))

/-- The loss of row `n`, quotient form: `-log (exp (sim n n⁺ / ½) / Σ_m (1 - [n = m]) · exp (sim n m / ½))`. -/
def lossR (z : Fin 8192 → Fin 1024 → EReal) (n : Fin 8192) : EReal :=
  - Ideal.log (Ideal.div (Ideal.exp (Ideal.div (sim z n (partner n)) half))
      (∑ m : Fin 8192, (one - (if n = m then one else zero)) * Ideal.exp (Ideal.div (sim z n m) half)))

/-- The mean of the 8192 losses. -/
def total (L : Fin 8192 → EReal) : EReal := Ideal.div (∑ n : Fin 8192, L n) cnt

end Cert.Spec

end
-- ==== Proof.Algebra.lean ====
/-
  The two forms of a row's loss agree when every input entry is a real number.

  With real inputs every row's clamped length is a real number, at least the positive clamp, so every entry of
  the stacked unit rows is a real, every inner product `sim n m` is a real `s m`, and `exp (2 · s m)` is a positive
  real `e m`.  Dividing by `1/2` is multiplying by `2`; the masked sum `Σ_m (1 - [n = m]) · e m` is
  `(Σ_m e m) - e n`, a sum of positive reals over the rows other than `n` (there is one: the partner of `n`), hence
  positive; and for `d > 0`, `-log (exp a / d) = (0 - a) + log d`.
-/
import proofs.«115958_j13091060319093_1_alg».proof.Proof.Spec

noncomputable section

open scoped BigOperators

namespace Cert.Spec

open Idealize.ShloMosaic Idealize.ShloMosaic.ValueIdx

/-! ### The words as real numbers -/

theorem two_eq : two = ((2 : ℝ) : EReal) := by
  simp [two, Ideal.ofBits, Ideal.ieee, -EReal.coe_mul]; norm_num

theorem half_eq : half = (((1 : ℝ) / 2 : ℝ) : EReal) := by
  simp [half, Ideal.ofBits, Ideal.ieee, -EReal.coe_mul]; norm_num

theorem one_eq : one = ((1 : ℝ) : EReal) := by
  simp [one, Ideal.ofBits, Ideal.ieee, -EReal.coe_mul]; norm_num

theorem zero_eq : zero = ((0 : ℝ) : EReal) := by
  simp [zero, Ideal.ofBits, Ideal.ieee]

/-- The clamp is a positive real: `9223372 · 2⁻⁶³`. -/
theorem eps_pos : ∃ e : ℝ, 0 < e ∧ eps = (e : EReal) := by
  refine ⟨(9223372 : ℝ) * (2 : ℝ) ^ (-63 : ℤ), by positivity, ?_⟩
  simp [eps, Ideal.ofBits, Ideal.ieee, -EReal.coe_mul]

/-- Dividing by `1/2` is multiplying by `2`, at every extended real. -/
theorem div_half (x : EReal) : Ideal.div x half = x * two := by
  rw [half_eq, two_eq, Ideal.div_coe (by norm_num : ((1 : ℝ) / 2) ≠ 0)]
  norm_num

/-! ### The arithmetic, in the reals, over any finite index type -/

section Real

variable {ι : Type*} [Fintype ι] [DecidableEq ι]

/-- Masking the diagonal term out of a sum removes that term. -/
theorem masked_sum (e : ι → ℝ) (n : ι) :
    (∑ m, ((1 : ℝ) - (if n = m then (1 : ℝ) else 0)) * e m) = (∑ m, e m) - e n := by
  simp [sub_mul, Finset.sum_sub_distrib]

/-- A sum of positive terms less one of them is positive when another index exists. -/
theorem masked_pos (e : ι → ℝ) (he : ∀ m, 0 < e m) (n p : ι) (hp : p ≠ n) :
    0 < (∑ m, e m) - e n := by
  rw [← Finset.sum_erase_eq_sub (Finset.mem_univ n)]
  exact Finset.sum_pos (fun m _ => he m) ⟨p, Finset.mem_erase.mpr ⟨hp, Finset.mem_univ p⟩⟩

/-- The logarithm of a quotient taken apart. -/
theorem neg_log_quot (a d : ℝ) (hd : 0 < d) :
    -(Real.log (Real.exp a * (1 / d))) = 0 - a + Real.log d := by
  rw [one_div, Real.log_mul (Real.exp_pos a).ne' (inv_ne_zero hd.ne'), Real.log_exp, Real.log_inv]
  ring

end Real

/-- The coercion of a finite sum of reals is the sum of the coercions. -/
theorem coe_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-! ### The two forms over real inner products -/

/-- Both forms of the loss, over real inner products `s`, when some index `p` other than `n` exists. -/
theorem loss_forms {ι : Type*} [Fintype ι] [DecidableEq ι] (s : ι → ℝ) (n p : ι) (hp : p ≠ n) :
    (zero - (s p : EReal) * two)
        + Ideal.log ((∑ m, Ideal.exp ((s m : EReal) * two)) - Ideal.exp ((s n : EReal) * two))
      = - Ideal.log (Ideal.div (Ideal.exp (Ideal.div (s p : EReal) half))
          (∑ m, (one - (if n = m then one else zero)) * Ideal.exp (Ideal.div (s m : EReal) half))) := by
  obtain ⟨e, he⟩ : ∃ e : ι → ℝ, ∀ m, e m = Real.exp (s m * 2) := ⟨_, fun _ => rfl⟩
  have hE : ∀ m, Ideal.exp ((s m : EReal) * two) = ((e m : ℝ) : EReal) := fun m => by
    rw [two_eq, ← EReal.coe_mul, Ideal.exp_coe, he]
  have hpos : ∀ m, 0 < e m := fun m => by rw [he]; exact Real.exp_pos _
  have hD : 0 < (∑ m, e m) - e n := masked_pos e hpos n p hp
  have hmask : ∀ m, (one - (if n = m then one else zero)) * ((e m : ℝ) : EReal)
      = ((((1 : ℝ) - (if n = m then (1 : ℝ) else 0)) * e m : ℝ) : EReal) := fun m => by
    by_cases h : n = m
    · rw [if_pos h, if_pos h, one_eq, ← EReal.coe_sub, ← EReal.coe_mul]
    · rw [if_neg h, if_neg h, one_eq, zero_eq, ← EReal.coe_sub, ← EReal.coe_mul]
  have hL : (zero - (s p : EReal) * two)
        + Ideal.log ((∑ m, Ideal.exp ((s m : EReal) * two)) - Ideal.exp ((s n : EReal) * two))
      = ((0 - s p * 2 + Real.log ((∑ m, e m) - e n) : ℝ) : EReal) := by
    simp only [hE]
    rw [← coe_sum, ← EReal.coe_sub, Ideal.log_coe, if_neg (not_le.mpr hD), zero_eq, two_eq,
      ← EReal.coe_mul, ← EReal.coe_sub, ← EReal.coe_add]
  have hR : - Ideal.log (Ideal.div (Ideal.exp (Ideal.div (s p : EReal) half))
          (∑ m, (one - (if n = m then one else zero)) * Ideal.exp (Ideal.div (s m : EReal) half)))
      = ((-(Real.log (e p * (1 / ((∑ m, e m) - e n)))) : ℝ) : EReal) := by
    simp only [div_half, hE, hmask]
    rw [← coe_sum, masked_sum, Ideal.div_coe hD.ne', ← EReal.coe_mul, Ideal.log_coe,
      if_neg (not_le.mpr (mul_pos (hpos p) (one_div_pos.mpr hD))), ← EReal.coe_neg]
  rw [hL, hR, he p, neg_log_quot _ _ hD]

/-! ### Every entry of the stacked unit rows is a real -/

/-- A row of reals divided by its clamped length is a row of reals. -/
theorem unitRow_real (x : Fin 1024 → EReal) (hx : ∀ k, ∃ r : ℝ, x k = (r : EReal)) (k : Fin 1024) :
    ∃ r : ℝ, unitRow x k = (r : EReal) := by
  choose f hf using hx
  obtain ⟨e, he, heps⟩ := eps_pos
  have hsum : (∑ k, x k * x k) = ((∑ k, f k * f k : ℝ) : EReal) := by
    rw [coe_sum]; exact Finset.sum_congr rfl fun k _ => by rw [hf k, EReal.coe_mul]
  have hnn : ¬ (∑ k, f k * f k) < 0 := not_lt.mpr (Finset.sum_nonneg fun k _ => mul_self_nonneg _)
  have hlen : rowLen x = ((max (Real.sqrt (∑ k, f k * f k)) e : ℝ) : EReal) := by
    rw [rowLen, hsum, Ideal.sqrt_coe, if_neg hnn, heps]
    exact (EReal.coe_strictMono.monotone.map_max).symm
  have hne : max (Real.sqrt (∑ k, f k * f k)) e ≠ 0 := (lt_of_lt_of_le he (le_max_right _ _)).ne'
  exact ⟨f k * (1 / max (Real.sqrt (∑ k, f k * f k)) e), by
    rw [unitRow, hlen, Ideal.div_coe hne, hf k, ← EReal.coe_mul]⟩

/-- Every entry of the stacked unit rows is a real when every input entry is. -/
theorem z_real (x0 x1 : (⟨2, ![4096, 1024]⟩ : Shape).Idx → EReal)
    (h0 : ∀ i, ∃ r : ℝ, x0 i = (r : EReal)) (h1 : ∀ i, ∃ r : ℝ, x1 i = (r : EReal))
    (n : Fin 8192) (k : Fin 1024) : ∃ r : ℝ, z x0 x1 n k = (r : EReal) := by
  unfold z
  split
  · exact unitRow_real _ (fun k => h0 _) k
  · exact unitRow_real _ (fun k => h1 _) k

/-! ### The two forms of the loss agree -/

/-- The inner product of two rows of reals is the real inner product. -/
theorem sim_coe (zr : Fin 8192 → Fin 1024 → ℝ) (n m : Fin 8192) :
    sim (fun a k => ((zr a k : ℝ) : EReal)) n m = ((∑ k, zr n k * zr m k : ℝ) : EReal) := by
  rw [coe_sum]
  exact Finset.sum_congr rfl fun k _ => (EReal.coe_mul _ _).symm

/-- A row is not its own positive. -/
theorem partner_ne (n : Fin 8192) : partner n ≠ n := by
  intro h
  have h' : (n.val + 4096) % 8192 = n.val := congrArg Fin.val h
  have hn := n.isLt
  omega

theorem lossK_eq_lossR_of_real (zr : Fin 8192 → Fin 1024 → ℝ) (n : Fin 8192) :
    lossK (fun a k => ((zr a k : ℝ) : EReal)) n = lossR (fun a k => ((zr a k : ℝ) : EReal)) n := by
  simp only [lossK, lossR, sim_coe]
  exact loss_forms (fun m => ∑ k, zr n k * zr m k) n (partner n) (partner_ne n)

/-- With every input entry a real number, the two forms of row `n`'s loss are equal. -/
theorem lossK_eq_lossR (x0 x1 : (⟨2, ![4096, 1024]⟩ : Shape).Idx → EReal)
    (h0 : ∀ i, ∃ r : ℝ, x0 i = (r : EReal)) (h1 : ∀ i, ∃ r : ℝ, x1 i = (r : EReal)) (n : Fin 8192) :
    lossK (z x0 x1) n = lossR (z x0 x1) n := by
  choose zr hzr using z_real x0 x1 h0 h1
  have hz : z x0 x1 = fun a k => ((zr a k : ℝ) : EReal) := funext fun a => funext fun k => hzr a k
  rw [hz]
  exact lossK_eq_lossR_of_real zr n

end Cert.Spec

end
-- ==== Proof.Finite.lean ====
/-
  From the precondition to "every input entry is a real number".

  The precondition says of each of the two arrays that `|x| < +∞` holds at every entry: the comparison array,
  reduced by `and` over both axes from the constant 1, is 1, and the two results and-ed are 1.  An extended real
  whose absolute value `max x (-x)` lies strictly below `+∞` is neither infinity, hence a real.
-/
import proofs.«115958_j13091060319093_1_alg».proof.Defs
import proofs.«115958_j13091060319093_1_alg».proof.Proof.Gen.Pre_finite_inputs
import Idealize.ShloMosaic.Lib.ReduceAll
import Idealize.ShloMosaic.Lib.ValueIdx

noncomputable section

namespace Cert.Proof

open Idealize.ShloMosaic

/-- The shape with no axes has one index. -/
instance : Subsingleton Cert.Pre_finite_inputs.S_.Idx := ⟨fun a b => funext fun d => d.elim0⟩

/-- An extended real whose absolute value is strictly below `+∞` (the word `0x7F800000`) is a real. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- Under the precondition every entry of both arrays is a real. -/
theorem finite_of_pre [Cert.Pre_finite_inputs.Facts]
    (a b : FVec Ideal Cert.Pre_finite_inputs.S4096x1024 .f32)
    (h : Cert.Pre_finite_inputs.fn (F := Ideal) a b = (fun _ => 1#1)) :
    (∀ i, ∃ r : ℝ, a i = (r : EReal)) ∧ (∀ i, ∃ r : ℝ, b i = (r : EReal)) := by
  have h0 := congrFun h ValueIdx.ix0
  dsimp only [Cert.Pre_finite_inputs.fn] at h0
  obtain ⟨ha, hb⟩ := IntOp.andi_eq_one.1 h0
  refine ⟨fun i => real_of_abs_lt_top _ ?_, fun i => real_of_abs_lt_top _ ?_⟩
  · exact Host.reduce_andi_all _ _ _ _ _ ha i
  · exact Host.reduce_andi_all _ _ _ _ _ hb i

end Cert.Proof

end
-- ==== Proof.RefValue1.lean ====
import proofs.«115958_j13091060319093_1_alg».proof.Proof.Gen.ReferenceIdeal
import proofs.«115958_j13091060319093_1_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-! ## The words of one and zero -/

/-- The single-precision word of `1.0` denotes `1`. -/
theorem one_eq : Cert.Spec.one = 1 := by
  unfold Cert.Spec.one
  simp [Ideal.ofBits, Ideal.ieee, -EReal.coe_mul]; norm_num

/-- The single-precision word of `+0.0` denotes `0`. -/
theorem zero_eq : Cert.Spec.zero = 0 := Ideal.ofBits_zero_f32

/-! ## Small numbers as 32-bit words -/

/-- A number below 8192, written as a 32-bit word and read back signed, is itself. -/
theorem toNat_small (r : Nat) (hr : r < 8192) : (BitVec.ofNat 32 r).toInt.toNat = r := by
  have h1 : (BitVec.ofNat 32 r).toNat = r := by
    rw [BitVec.toNat_ofNat]; exact Nat.mod_eq_of_lt (by omega)
  rw [BitVec.toInt_eq_toNat_of_lt (by rw [h1]; omega), h1]
  rfl

/-- Such a word is not negative. -/
theorem slt_small (r : Nat) (hr : r < 8192) : IntOp.cmpi .slt (BitVec.ofNat 32 r) 0#32 = 0#1 := by
  have h1 : (BitVec.ofNat 32 r).toNat = r := by
    rw [BitVec.toNat_ofNat]; exact Nat.mod_eq_of_lt (by omega)
  have h2 : (BitVec.ofNat 32 r).toInt = (r : Int) := by
    rw [BitVec.toInt_eq_toNat_of_lt (by rw [h1]; omega), h1]
  show BitVec.ofBool ((BitVec.ofNat 32 r).slt 0#32) = 0#1
  rw [BitVec.slt, h2]
  have h3 : ¬ ((r : Int) < (0#32 : BitVec 32).toInt) := by
    rw [show (0#32 : BitVec 32).toInt = 0 from rfl]; omega
  rw [decide_eq_false h3]
  rfl

/-- The wrapped index `if r < 0 then r + 8192 else r` of a row number below 4096 is the row number. -/
theorem word_lo (r : Nat) (hr : r < 4096) :
    (Scalar.select (IntOp.cmpi .slt (BitVec.ofNat 32 r) 0#32) (IntOp.addi (BitVec.ofNat 32 r) 8192#32)
      (BitVec.ofNat 32 r)).toInt.toNat = r := by
  rw [slt_small r (by omega), select_zero, toNat_small r (by omega)]

/-- `4096 + r` as a sum of words is the word of the sum. -/
theorem add_hi (r : Nat) : IntOp.addi 4096#32 (BitVec.ofNat 32 r) = BitVec.ofNat 32 (4096 + r) := by
  show (4096#32 + BitVec.ofNat 32 r) = _
  rw [BitVec.ofNat_add]

/-- The wrapped index of `4096 + r`, `r` below 4096, is `4096 + r`. -/
theorem word_hi (r : Nat) (hr : r < 4096) :
    (Scalar.select (IntOp.cmpi .slt (IntOp.addi 4096#32 (BitVec.ofNat 32 r)) 0#32)
      (IntOp.addi (IntOp.addi 4096#32 (BitVec.ofNat 32 r)) 8192#32) (IntOp.addi 4096#32 (BitVec.ofNat 32 r))).toInt.toNat
      = 4096 + r := by
  rw [add_hi, slt_small _ (by omega), select_zero, toNat_small _ (by omega)]

/-- The one-bit word of "row number equals column number", both below 8192, read as a natural number. -/
theorem eq_bit (n m : Nat) (hn : n < 8192) (hm : m < 8192) :
    (IntOp.cmpi .eq (IntOp.addi (BitVec.ofNat 32 n) 0#32) (BitVec.ofNat 32 m)).toNat = if n = m then 1 else 0 := by
  show (BitVec.ofBool ((BitVec.ofNat 32 n + 0#32) == BitVec.ofNat 32 m)).toNat = _
  rw [BitVec.add_zero]
  by_cases h : n = m
  · subst h; simp
  · rw [if_neg h]
    have : (BitVec.ofNat 32 n == BitVec.ofNat 32 m) = false := by
      rw [beq_eq_false_iff_ne]
      intro hh
      have := congrArg BitVec.toNat hh
      rw [BitVec.toNat_ofNat, BitVec.toNat_ofNat, Nat.mod_eq_of_lt (by omega), Nat.mod_eq_of_lt (by omega)] at this
      exact h this
    rw [this]; rfl

/-- The 0/1 indicator of the diagonal, converted to an extended real, is the word of one on the diagonal and the word of zero off it. -/
theorem diag_indicator (n m : Fin 8192) :
    (FloatOps.uitofp (F := Ideal) .f32 (IntOp.cmpi .eq (IntOp.addi (BitVec.ofNat 32 n.val) 0#32) (BitVec.ofNat 32 m.val)) : EReal)
      = if n = m then Cert.Spec.one else Cert.Spec.zero := by
  show (((IntOp.cmpi .eq (IntOp.addi (BitVec.ofNat 32 n.val) 0#32) (BitVec.ofNat 32 m.val)).toNat : ℝ) : EReal) = _
  rw [eq_bit n.val m.val n.isLt m.isLt, one_eq, zero_eq]
  by_cases h : n = m
  · rw [if_pos h, if_pos (congrArg Fin.val h)]; simp
  · rw [if_neg h, if_neg (fun hh => h (Fin.ext hh))]; simp

/-! ## Rank-1 indices and their sums -/

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The gather of single matrix entries, read at an index -/

/-- Where the gather of single matrix entries starts on operand axis `a` for result index `r`: start index `a` of row `r`,
    read signed and clamped into the matrix. -/
theorem gather_start (idx : IVec S4096x2 32) (r : Fin 4096) (a : Fin 2) :
    gather_S8192x8192_S4096x2_S4096_n_01_n_n_01_1_11.start (ix1 r) idx a = min (idx (ix2 r a)).toInt.toNat 8191 := by
  have hm : ∀ b : Fin S8192x8192.rank, b ∈ gather_S8192x8192_S4096x2_S4096_n_01_n_n_01_1_11.startIndexMap := by decide
  unfold GatherDims.start
  rw [dif_pos (hm a)]
  have hsi : gather_S8192x8192_S4096x2_S4096_n_01_n_n_01_1_11.siIdx (ix1 r) ⟨List.idxOf a gather_S8192x8192_S4096x2_S4096_n_01_n_n_01_1_11.startIndexMap, List.idxOf_lt_length_iff.2 (hm a)⟩ = ix2 r a := by
    funext b; refine Fin.ext ?_
    match a, b with
    | ⟨0, _⟩, ⟨0, _⟩ => rfl
    | ⟨0, _⟩, ⟨1, _⟩ => rfl
    | ⟨1, _⟩, ⟨0, _⟩ => rfl
    | ⟨1, _⟩, ⟨1, _⟩ => rfl
  rw [hsi]
  match a with
  | ⟨0, _⟩ => rfl
  | ⟨1, _⟩ => rfl

/-- The gather of single entries of a square matrix at a two-column array of start indices, read at `r`: the entry
    whose row and column are the two start indices of row `r`, each read signed and clamped into the matrix. -/
theorem gather_entry_apply {α : Type} (x : S8192x8192.Idx → α) (idx : IVec S4096x2 32) (r : Fin 4096) :
    Host.gather gather_S8192x8192_S4096x2_S4096_n_01_n_n_01_1_11 x idx (ix1 r)
      = x (ix2 (⟨min (idx (ix2 r (0 : Fin 2))).toInt.toNat 8191, by omega⟩ : Fin 8192)
              (⟨min (idx (ix2 r (1 : Fin 2))).toInt.toNat 8191, by omega⟩ : Fin 8192)) := by
  have hc : ∀ b : Fin S8192x8192.rank, b ∈ gather_S8192x8192_S4096x2_S4096_n_01_n_n_01_1_11.collapsedSliceDims := by decide
  unfold Host.gather
  congr 1
  funext a
  refine Fin.ext ?_
  show gather_S8192x8192_S4096x2_S4096_n_01_n_n_01_1_11.start (ix1 r) idx a + gather_S8192x8192_S4096x2_S4096_n_01_n_n_01_1_11.batchCoord (ix1 r) a + gather_S8192x8192_S4096x2_S4096_n_01_n_n_01_1_11.offCoord (ix1 r) a = _
  rw [GatherDims.batchCoord_eq_zero _ _ _ List.not_mem_nil,
    GatherDims.offCoord_eq_zero _ _ _ (fun h => ((GatherDims.mem_sKept _ _).mp h).1 (hc a)), gather_start]
  match a with
  | ⟨0, _⟩ => rfl
  | ⟨1, _⟩ => rfl

end Cert.ReferenceIdeal.RefValue

end
-- ==== Proof.RefValue2.lean ====
import proofs.«115958_j13091060319093_1_alg».proof.Proof.Gen.ReferenceIdeal.Read
import proofs.«115958_j13091060319093_1_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx

/-! The two normalisations, their stack, and the matrix of inner products, each read at an index. -/

/-- Row `r` of the first argument divided by its clamped Euclidean length, entry `k`. -/
theorem norm0_eq (x0 : (⟨S4096x1024, .f32⟩ : BufTy).Contents (Elt Ideal)) (r : Fin 4096) (k : Fin 1024) :
    val_main_v7 (F := Ideal) x0 (ix2 r k) = Cert.Spec.unitRow (Cert.Spec.rowOf x0 r) k := by
  have e : ∀ k' : Fin 1024, idx_main_v1 (idx_main_v2 (idx_main_v6 (ix2 r k))) k' = ix2 r k' := fun k' =>
    funext fun a => Fin.ext (by match a with | ⟨0, _⟩ => rfl | ⟨1, _⟩ => rfl)
  rw [val_main_v7_apply, val_main_v6_apply, val_main_v5_apply, val_main_v3_apply, val_main_v2_apply, val_main_v1_apply,
    val_main_v4_apply, val_main_cst_0_apply, val_main_cst_apply]
  simp only [val_main_v0_apply, e, Ideal.hostDivf_def, Ideal.maximumf_def, Ideal.hostUnary_sqrt_def, Ideal.mulf_def,
    Ideal.ofBits_def, Ideal.ofBits_zero_f32, zero_add]
  rfl

/-- Row `r` of the second argument divided by its clamped Euclidean length, entry `k`. -/
theorem norm1_eq (x1 : (⟨S4096x1024, .f32⟩ : BufTy).Contents (Elt Ideal)) (r : Fin 4096) (k : Fin 1024) :
    val_main_v15 (F := Ideal) x1 (ix2 r k) = Cert.Spec.unitRow (Cert.Spec.rowOf x1 r) k := by
  have e : ∀ k' : Fin 1024, idx_main_v9 (idx_main_v10 (idx_main_v14 (ix2 r k))) k' = ix2 r k' := fun k' =>
    funext fun a => Fin.ext (by match a with | ⟨0, _⟩ => rfl | ⟨1, _⟩ => rfl)
  rw [val_main_v15_apply, val_main_v14_apply, val_main_v13_apply, val_main_v11_apply, val_main_v10_apply, val_main_v9_apply,
    val_main_v12_apply, val_main_cst_2_apply, val_main_cst_1_apply]
  simp only [val_main_v8_apply, e, Ideal.hostDivf_def, Ideal.maximumf_def, Ideal.hostUnary_sqrt_def, Ideal.mulf_def,
    Ideal.ofBits_def, Ideal.ofBits_zero_f32, zero_add]
  rfl

/-- The stack of the two normalised arrays is the specification's `z`: rows below 4096 come from the first array,
    the others from the second, 4096 rows down. -/
theorem z_eq (x0 x1 : (⟨S4096x1024, .f32⟩ : BufTy).Contents (Elt Ideal)) (n : Fin 8192) (k : Fin 1024) :
    val_main_v16 (F := Ideal) x0 x1 (ix2 n k) = Cert.Spec.z x0 x1 n k := by
  unfold val_main_v16 Cert.Spec.z
  by_cases h : n.val < 4096
  · rw [dif_pos h]
    refine (concatenate_pair_apply_left (t := S8192x1024) (s₁ := S4096x1024) (s₂ := S4096x1024) (0 : Fin 2) _ _ _ (ix2 n k) rfl (ix2 (⟨n.val, h⟩ : Fin 4096) k) (fun b => by
      match b with
      | ⟨0, _⟩ => rfl
      | ⟨1, _⟩ => rfl)).trans ?_
    exact norm0_eq x0 ⟨n.val, h⟩ k
  · rw [dif_neg h]
    have h2 : n.val - 4096 < 4096 := by have := n.isLt; omega
    refine (concatenate_pair_apply_right (t := S8192x1024) (s₁ := S4096x1024) (s₂ := S4096x1024) (0 : Fin 2) _ _ _ (ix2 n k) rfl rfl (ix2 (⟨n.val - 4096, h2⟩ : Fin 4096) k)
      (fun b hb => by
        obtain ⟨bv, hbv⟩ := b
        have hlt : bv < 2 := hbv
        have h0 : bv ≠ 0 := fun h0 => hb (Fin.ext h0)
        obtain rfl : bv = 1 := by omega
        rfl)
      (by show n.val - 4096 + 4096 = n.val; omega)).trans ?_
    exact norm1_eq x1 ⟨n.val - 4096, h2⟩ k

/-- The matrix of inner products: entry `(n, m)` is the inner product of rows `n` and `m` of `z`. -/
theorem sim_eq (x0 x1 : (⟨S4096x1024, .f32⟩ : BufTy).Contents (Elt Ideal)) (n m : Fin 8192) :
    val_main_v17 (F := Ideal) x0 x1 (ix2 n m) = Cert.Spec.sim (Cert.Spec.z x0 x1) n m := by
  rw [val_main_v17_apply]
  unfold Cert.Spec.sim
  refine Finset.sum_congr rfl fun k _ => ?_
  have el : lidx_main_v17 (ix2 n m) k = ix2 n k :=
    funext fun a => Fin.ext (by match a with | ⟨0, _⟩ => rfl | ⟨1, _⟩ => rfl)
  have er : ridx_main_v17 (ix2 n m) k = ix2 m k :=
    funext fun a => Fin.ext (by match a with | ⟨0, _⟩ => rfl | ⟨1, _⟩ => rfl)
  rw [el, er, z_eq, z_eq]

end Cert.ReferenceIdeal.RefValue

end
-- ==== Proof.RefValue.lean ====
import proofs.«115958_j13091060319093_1_alg».proof.Proof.Gen.ReferenceIdeal.Read
import proofs.«115958_j13091060319093_1_alg».proof.Proof.Spec
import Idealize.ShloMosaic.Lib.Pipeline.Value
import Idealize.ShloMosaic.Lib.ValueIdx
import Idealize.ShloMosaic.PureOps.Ideal.Laws
import proofs.«115958_j13091060319093_1_alg».proof.Proof.RefValue1
import proofs.«115958_j13091060319093_1_alg».proof.Proof.RefValue2

noncomputable section

open scoped BigOperators

namespace Cert.ReferenceIdeal.RefValue

open Cert.ReferenceIdeal Cert.ReferenceIdeal.Gen Cert.ReferenceIdeal.Read Idealize.ShloMosaic Idealize.ShloMosaic.ValueIdx

/-! ## The start indices of the two diagonals -/

/-- Column 0 of the first diagonal's start indices is its first column array. -/
theorem up_idx_row (r : Fin 4096) :
    val_main_call0_v16 (F := Ideal) (ix2 r (0 : Fin 2)) = val_main_call0_v14 (F := Ideal) (ix2 r (0 : Fin 1)) := by
  unfold val_main_call0_v16
  exact concatenate_pair_apply_left (t := S4096x2) (s₁ := S4096x1) (s₂ := S4096x1) (1 : Fin 2) _ _ _ (ix2 r (0 : Fin 2)) rfl
    (ix2 r (0 : Fin 1)) (fun b => by
      match b with
      | ⟨0, _⟩ => rfl
      | ⟨1, _⟩ => rfl)

/-- Column 1 of the first diagonal's start indices is its second column array. -/
theorem up_idx_col (r : Fin 4096) :
    val_main_call0_v16 (F := Ideal) (ix2 r (1 : Fin 2)) = val_main_call0_v15 (F := Ideal) (ix2 r (0 : Fin 1)) := by
  unfold val_main_call0_v16
  exact concatenate_pair_apply_right (t := S4096x2) (s₁ := S4096x1) (s₂ := S4096x1) (1 : Fin 2) _ _ _ (ix2 r (1 : Fin 2)) rfl rfl
    (ix2 r (0 : Fin 1)) (fun b hb => by
      obtain ⟨bv, hbv⟩ := b
      have hlt : bv < 2 := hbv
      have h1 : bv ≠ 1 := fun h1 => hb (Fin.ext h1)
      obtain rfl : bv = 0 := by omega
      rfl) rfl

/-- Column 0 of the second diagonal's start indices is its first column array. -/
theorem down_idx_row (r : Fin 4096) :
    val_main_call1_v16 (F := Ideal) (ix2 r (0 : Fin 2)) = val_main_call1_v14 (F := Ideal) (ix2 r (0 : Fin 1)) := by
  unfold val_main_call1_v16
  exact concatenate_pair_apply_left (t := S4096x2) (s₁ := S4096x1) (s₂ := S4096x1) (1 : Fin 2) _ _ _ (ix2 r (0 : Fin 2)) rfl
    (ix2 r (0 : Fin 1)) (fun b => by
      match b with
      | ⟨0, _⟩ => rfl
      | ⟨1, _⟩ => rfl)

/-- Column 1 of the second diagonal's start indices is its second column array. -/
theorem down_idx_col (r : Fin 4096) :
    val_main_call1_v16 (F := Ideal) (ix2 r (1 : Fin 2)) = val_main_call1_v15 (F := Ideal) (ix2 r (0 : Fin 1)) := by
  unfold val_main_call1_v16
  exact concatenate_pair_apply_right (t := S4096x2) (s₁ := S4096x1) (s₂ := S4096x1) (1 : Fin 2) _ _ _ (ix2 r (1 : Fin 2)) rfl rfl
    (ix2 r (0 : Fin 1)) (fun b hb => by
      obtain ⟨bv, hbv⟩ := b
      have hlt : bv < 2 := hbv
      have h1 : bv ≠ 1 := fun h1 => hb (Fin.ext h1)
      obtain rfl : bv = 0 := by omega
      rfl) rfl

/-- The first diagonal starts, in row `r`, at matrix row `r` … -/
theorem up_row (r : Fin 4096) : (val_main_call0_v16 (F := Ideal) (ix2 r (0 : Fin 2))).toInt.toNat = r.val := by
  rw [up_idx_row, val_main_call0_v14_apply, val_main_call0_v8_apply, val_main_call0_v5_apply, val_main_call0_v7_apply, val_main_call0_v0_apply, val_main_call0_v4_apply, val_main_call0_c_0_apply, val_main_call0_v6_apply, val_main_call0_c_1_apply]
  exact word_lo r.val r.isLt

/-- … and at matrix column `4096 + r`. -/
theorem up_col (r : Fin 4096) : (val_main_call0_v16 (F := Ideal) (ix2 r (1 : Fin 2))).toInt.toNat = 4096 + r.val := by
  rw [up_idx_col, val_main_call0_v15_apply, val_main_call0_v13_apply, val_main_call0_v10_apply, val_main_call0_v12_apply, val_main_call0_v3_apply, val_main_call0_v2_apply, val_main_call0_c_apply, val_main_call0_v1_apply, val_main_call0_v9_apply, val_main_call0_c_2_apply, val_main_call0_v11_apply, val_main_call0_c_3_apply]
  exact word_hi r.val r.isLt

/-- The second diagonal starts, in row `r`, at matrix row `4096 + r` … -/
theorem down_row (r : Fin 4096) : (val_main_call1_v16 (F := Ideal) (ix2 r (0 : Fin 2))).toInt.toNat = 4096 + r.val := by
  rw [down_idx_row, val_main_call1_v14_apply, val_main_call1_v8_apply, val_main_call1_v5_apply, val_main_call1_v7_apply, val_main_call1_v3_apply, val_main_call1_v2_apply, val_main_call1_c_apply, val_main_call1_v1_apply, val_main_call1_v4_apply, val_main_call1_c_0_apply, val_main_call1_v6_apply, val_main_call1_c_1_apply]
  exact word_hi r.val r.isLt

/-- … and at matrix column `r`. -/
theorem down_col (r : Fin 4096) : (val_main_call1_v16 (F := Ideal) (ix2 r (1 : Fin 2))).toInt.toNat = r.val := by
  rw [down_idx_col, val_main_call1_v15_apply, val_main_call1_v13_apply, val_main_call1_v10_apply, val_main_call1_v12_apply, val_main_call1_v0_apply, val_main_call1_v9_apply, val_main_call1_c_2_apply, val_main_call1_v11_apply, val_main_call1_c_3_apply]
  exact word_lo r.val r.isLt

/-! ## The positives: the two diagonals and their stack -/

/-- The gather at `r` with its two start indices known: the matrix entry there. -/
theorem gather_entry_of_eq {α : Type} (x : S8192x8192.Idx → α) (idx : IVec S4096x2 32) (r : Fin 4096) (p q : Fin 8192)
    (hp : (idx (ix2 r (0 : Fin 2))).toInt.toNat = p.val) (hq : (idx (ix2 r (1 : Fin 2))).toInt.toNat = q.val) :
    Host.gather gather_S8192x8192_S4096x2_S4096_n_01_n_n_01_1_11 x idx (ix1 r) = x (ix2 p q) := by
  rw [gather_entry_apply]
  refine congrArg x (funext fun a => ?_)
  match a with
  | ⟨0, _⟩ => exact Fin.ext (by show min _ 8191 = p.val; rw [hp]; have := p.isLt; omega)
  | ⟨1, _⟩ => exact Fin.ext (by show min _ 8191 = q.val; rw [hq]; have := q.isLt; omega)

/-- The diagonal 4096 above the main one: entry `r` is the inner product of rows `r` and `4096 + r`. -/
theorem diag_up (x0 x1 : (⟨S4096x1024, .f32⟩ : BufTy).Contents (Elt Ideal)) (r : Fin 4096) :
    val_main_v18 (F := Ideal) x0 x1 (ix1 r)
      = Cert.Spec.sim (Cert.Spec.z x0 x1) ⟨r.val, by have := r.isLt; omega⟩ ⟨4096 + r.val, by have := r.isLt; omega⟩ := by
  unfold val_main_v18
  rw [gather_entry_of_eq _ _ r ⟨r.val, by have := r.isLt; omega⟩ ⟨4096 + r.val, by have := r.isLt; omega⟩ (up_row r) (up_col r)]
  exact sim_eq x0 x1 _ _

/-- The diagonal 4096 below the main one: entry `r` is the inner product of rows `4096 + r` and `r`. -/
theorem diag_down (x0 x1 : (⟨S4096x1024, .f32⟩ : BufTy).Contents (Elt Ideal)) (r : Fin 4096) :
    val_main_v19 (F := Ideal) x0 x1 (ix1 r)
      = Cert.Spec.sim (Cert.Spec.z x0 x1) ⟨4096 + r.val, by have := r.isLt; omega⟩ ⟨r.val, by have := r.isLt; omega⟩ := by
  unfold val_main_v19
  rw [gather_entry_of_eq _ _ r ⟨4096 + r.val, by have := r.isLt; omega⟩ ⟨r.val, by have := r.isLt; omega⟩ (down_row r) (down_col r)]
  exact sim_eq x0 x1 _ _

/-- The stacked diagonals: entry `n` is row `n`'s inner product with its partner row. -/
theorem pos_eq (x0 x1 : (⟨S4096x1024, .f32⟩ : BufTy).Contents (Elt Ideal)) (n : Fin 8192) :
    val_main_v20 (F := Ideal) x0 x1 (ix1 n) = Cert.Spec.sim (Cert.Spec.z x0 x1) n (Cert.Spec.partner n) := by
  unfold val_main_v20
  by_cases h : n.val < 4096
  · refine (concatenate_pair_apply_left (t := S8192) (s₁ := S4096) (s₂ := S4096) (0 : Fin 1) _ _ _ (ix1 n) rfl
      (ix1 (⟨n.val, h⟩ : Fin 4096)) (fun b => by
        match b with
        | ⟨0, _⟩ => rfl)).trans ?_
    rw [diag_up]
    exact congrArg₂ (Cert.Spec.sim (Cert.Spec.z x0 x1)) (Fin.ext rfl)
      (Fin.ext (by show 4096 + n.val = (n.val + 4096) % 8192; omega))
  · have h2 : n.val - 4096 < 4096 := by have := n.isLt; omega
    refine (concatenate_pair_apply_right (t := S8192) (s₁ := S4096) (s₂ := S4096) (0 : Fin 1) _ _ _ (ix1 n) rfl rfl
      (ix1 (⟨n.val - 4096, h2⟩ : Fin 4096)) (fun b hb => by
        obtain ⟨bv, hbv⟩ := b
        have hlt : bv < 1 := hbv
        exact absurd (Fin.ext (by show bv = 0; omega)) hb)
      (by show n.val - 4096 + 4096 = n.val; omega)).trans ?_
    rw [diag_down]
    exact congrArg₂ (Cert.Spec.sim (Cert.Spec.z x0 x1))
      (Fin.ext (by show 4096 + (n.val - 4096) = n.val; omega))
      (Fin.ext (by show n.val - 4096 = (n.val + 4096) % 8192; omega))

/-! ## The masked exponential row sums -/

/-- The mask `1 - [n = m]` at `(n, m)`. -/
theorem mask_eq (n m : Fin 8192) :
    val_main_v31 (F := Ideal) (ix2 n m) = Cert.Spec.one - (if n = m then Cert.Spec.one else Cert.Spec.zero) := by
  rw [val_main_v31_apply, val_main_v30_apply, val_main_cst_4_apply, val_main_v29_apply, val_main_v28_apply, val_main_v27_apply, val_main_v24_apply, val_main_v26_apply, val_main_c_apply, val_main_v25_apply]
  show Cert.Spec.one - FloatOps.uitofp (F := Ideal) .f32
    (IntOp.cmpi .eq (IntOp.addi (BitVec.ofNat 32 n.val) 0#32) (BitVec.ofNat 32 m.val)) = _
  rw [diag_indicator]

/-- Row `n`'s denominator: the sum over the other rows `m` of `exp (sim n m / ½)`, the diagonal term masked out. -/
theorem den_eq (x0 x1 : (⟨S4096x1024, .f32⟩ : BufTy).Contents (Elt Ideal)) (n : Fin 8192) :
    val_main_v36 (F := Ideal) x0 x1 (ix1 n)
      = ∑ m : Fin 8192, (Cert.Spec.one - (if n = m then Cert.Spec.one else Cert.Spec.zero))
          * Ideal.exp (Ideal.div (Cert.Spec.sim (Cert.Spec.z x0 x1) n m) Cert.Spec.half) := by
  rw [val_main_v36_apply, val_main_cst_6_apply]
  show Ideal.ofBits .f32 0x00000000#32 + _ = _
  rw [Ideal.ofBits_zero_f32, zero_add]
  refine Finset.sum_congr rfl fun m _ => ?_
  have e : idx_main_v36 (ix1 n) m = ix2 n m :=
    funext fun a => Fin.ext (by match a with | ⟨0, _⟩ => rfl | ⟨1, _⟩ => rfl)
  rw [e, val_main_v35_apply, mask_eq, val_main_v34_apply, val_main_v33_apply, val_main_v32_apply, val_main_cst_5_apply, sim_eq]
  rfl

/-! ## The losses and their mean -/

/-- Row `n`'s loss. -/
theorem loss_eq (x0 x1 : (⟨S4096x1024, .f32⟩ : BufTy).Contents (Elt Ideal)) (n : Fin 8192) :
    val_main_v39 (F := Ideal) x0 x1 (ix1 n) = Cert.Spec.lossR (Cert.Spec.z x0 x1) n := by
  rw [val_main_v39_apply, val_main_v38_apply, val_main_v37_apply, val_main_v23_apply, val_main_v22_apply, val_main_v21_apply, val_main_cst_3_apply, pos_eq, den_eq]
  rfl

/-- THE REFERENCE'S RESULT is the mean of the 8192 losses of the stacked unit rows. -/
theorem ref_eq (x0 x1 : (⟨S4096x1024, .f32⟩ : BufTy).Contents (Elt Ideal)) :
    val_main_v41 (F := Ideal) x0 x1 = fun _ => Cert.Spec.total (Cert.Spec.lossR (Cert.Spec.z x0 x1)) := by
  funext i
  rw [val_main_v41_apply, val_main_v40_apply, val_main_cst_7_apply, val_main_cst_8_apply, sum_idx1]
  show Ideal.div (Ideal.ofBits .f32 0x00000000#32 + ∑ a : Fin 8192, val_main_v39 (F := Ideal) x0 x1 (ix1 a))
    (Ideal.ofBits .f32 0x46000000#32) = _
  rw [Ideal.ofBits_zero_f32, zero_add, Finset.sum_congr rfl (fun a _ => loss_eq x0 x1 a)]
  rfl

/-! ## The reference's run, its result read as the specification -/

open Idealize.ShloMosaic.TcCoe Idealize.SL.Sem Idealize.ShloMosaic.StableHlo in
/-- On every device, from any memory with zero counters, every weakly fair execution of the reference terminates with
    its result buffer holding the mean of the 8192 losses of the stacked unit rows of its two arguments, the arguments
    unchanged. -/
theorem run_total (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v41)
        = (fun _ => Cert.Spec.total (Cert.Spec.lossR (Cert.Spec.z (m ((c.tc : Thread nD τ).loc main_arg0))
            (m ((c.tc : Thread nD τ).loc main_arg1)))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨(h c).1.trans ((val_main_v41_eq m c).trans (ref_eq _ _)), (h c).2⟩)
    (Cert.ReferenceIdeal.Value.run (F := Ideal) m ρ)

end Cert.ReferenceIdeal.RefValue

end
-- ==== Proof.LibLayout.lean ====
/-
  Two column layouts of small arrays read at an index: a vector viewed as a one-column matrix, and a one-column
  matrix repeated along its rows' second axis. (The library has the row forms; these are the column forms a
  keep-dimensions row reduction produces.)
-/
import Idealize.ShloMosaic.Lib.Pipeline.Value
import Idealize.ShloMosaic.Lib.ValueIdx

namespace Cert.Attn.Layout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Attn.Layout
-- ==== Proof.PayNorm.lean ====
/-
  The normalising kernel's arithmetic read entry by entry, on the extended reals.

  The body squares its 512 × 1024 block entry by entry, sums each row, takes the square root, clamps it below by a
  small positive constant, and divides every entry of the row by the result; the final change of format is the
  identity on extended reals.  So entry `(p, q)` of what it stores is row `p` of the block divided by its clamped
  Euclidean length, at column `q`.
-/
import proofs.«115958_j13091060319093_1_alg».proof.Proof.Gen.KernelIdeal.Skeleton
import proofs.«115958_j13091060319093_1_alg».proof.Proof.Spec
import proofs.«115958_j13091060319093_1_alg».proof.Proof.LibLayout
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Idealize.ShloMosaic Idealize.ShloMosaic.ValueIdx Cert.KernelIdeal Cert.KernelIdeal.Gen

/-- A sum over the columns of a 512 × 1024 block, read at row `p`: the sum of the row's 1024 entries. -/
theorem laneSum512 (v : FVec Ideal S512x1024 .f32) (hφ : FKind.Formats .f32)
    (hacc : (0x00000000#32 : BitVec 32) = 0x00000000#32) (p : Fin 512) :
    multiReduction .add [1] S512 v 0x00000000#32 reduces_S512x1024_S512 hφ hacc (ix1 p) = ∑ k : Fin 1024, v (ix2 p k) := by
  refine (Ideal.multiReduction_add_single v 0x00000000#32 reduces_S512x1024_S512 hφ hacc (ix1 p)).trans ?_
  refine Finset.sum_congr rfl fun k _ => congrArg v (funext fun c => Fin.ext ?_)
  match c with
  | ⟨0, _⟩ => rfl
  | ⟨1, _⟩ => rfl

/-- Entry `(p, q)` of the stored block: row `p` of the input block divided by its clamped length, at column `q`. -/
theorem pay_norm0 (x : Vec Ideal S512x1024 .f32) (p : Fin 512) (q : Fin 1024) :
    Gen.k0_pay1 (F := Ideal) x (ix2 p q) = Cert.Spec.unitRow (Cert.Spec.rowOf x p) q := by
  unfold Gen.k0_pay1 Cert.Spec.unitRow Cert.Spec.rowLen
  refine (truncf_apply (φ := .f32) (ψ := .bf16) _ bitsLt_bf16_f32 (ix2 p q)).trans ?_
  refine (divf_apply (φ := .f32) _ _ (ix2 p q)).trans ?_
  refine congrArg (Ideal.div (x (ix2 p q))) ?_
  refine (Cert.Attn.Layout.broadcastTo_a1_ab_apply _ broadcasts_S512x1_S512x1024 p q).trans ?_
  refine (maximumf_apply (φ := .f32) _ _ (ix2 p 0)).trans ?_
  refine congrArg₂ max ?_ rfl
  show Ideal.sqrt (shapeCast S512x1 _ shapeCasts_S512_S512x1 (ix2 p 0)) = _
  refine congrArg Ideal.sqrt ?_
  refine (Cert.Attn.Layout.shapeCast_a_a1_apply _ shapeCasts_S512_S512x1 p 0).trans ?_
  refine (laneSum512 _ _ _ p).trans ?_
  rfl

/-- The second normalising kernel's body is the first's. -/
theorem k1_pay1_eq : Gen.k1_pay1 (F := Ideal) = Gen.k0_pay1 (F := Ideal) := rfl

theorem pay_norm1 (x : Vec Ideal S512x1024 .f32) (p : Fin 512) (q : Fin 1024) :
    Gen.k1_pay1 (F := Ideal) x (ix2 p q) = Cert.Spec.unitRow (Cert.Spec.rowOf x p) q := by
  rw [k1_pay1_eq]
  exact pay_norm0 x p q

end Cert.KernelIdeal.Pay

end
-- ==== Proof.ValueNorm0.lean ====
/-
  Region 0 of the program, read as a value: the array its output window ends holding.

  The grid has 8 points; point `t` reads rows `512 t … 512 t + 511` of the input array whole, normalises each of
  them (each row divided by its clamped Euclidean length), and writes the 512 normalised rows back to the same rows
  of the output array.  A row's normalisation reads that row only, so the 8 write-backs together leave the output
  array holding, at row `r` and column `k`, row `r` of the input normalised, at column `k`; row `r` is written by
  point `r / 512`.  Stated at an arbitrary valuation `V` of the core's buffers at the region's entry.
-/
import proofs.«115958_j13091060319093_1_alg».proof.Proof.FrameNorm0
import proofs.«115958_j13091060319093_1_alg».proof.Proof.PayNorm
import Idealize.ShloMosaic.Lib.Pipeline.Value
import Idealize.ShloMosaic.Lib.ValueIdx

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- The array of normalised rows of `X`. -/
def rows0 (X : S4096x1024.Idx → EReal) : S4096x1024.Idx → EReal :=
  fun i => Cert.Spec.unitRow (Cert.Spec.rowOf X (i 0)) (i 1)

theorem rows0_apply (X : S4096x1024.Idx → EReal) (r : Fin 4096) (k : Fin 1024) :
    rows0 X (ix2 r k) = Cert.Spec.unitRow (Cert.Spec.rowOf X r) k := rfl

/-- The printed index maps, decided over the 8 points: both windows' block at point `t` is block `(t, 0)`. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0 ∧ t.val < 8 :=
  (by decide +kernel : ∀ t : Fin grid0.N, _)

/-- A block of 512 rows normalised is the same 512 rows of the whole array normalised: the payload at entry `j` of
    a block that holds rows `512 T …` of `X` is `rows0 X` at the entry `i` with `i 0 = 512 T + j 0`, `i 1 = j 1`. -/
theorem point0 (X : S4096x1024.Idx → EReal) (x : Vec Ideal S512x1024 .f32) (T : Nat)
    (hx : ∀ (p : Fin 512) (q : Fin 1024) (r : Fin 4096), r.val = T * 512 + p.val → x (ix2 p q) = X (ix2 r q))
    (j : S512x1024.Idx) (i : S4096x1024.Idx) (hi0 : (i 0).val = T * 512 + (j 0).val) (hi1 : (i 1).val = (j 1).val) :
    k0_pay1 (F := Ideal) x j = rows0 X i := by
  obtain ⟨p, q, rfl⟩ : ∃ (p : Fin 512) (q : Fin 1024), j = ix2 p q := ⟨j 0, j 1, eq_ix2 j⟩
  obtain ⟨r, k, rfl⟩ : ∃ (r : Fin 4096) (k : Fin 1024), i = ix2 r k := ⟨i 0, i 1, eq_ix2 i⟩
  have hr : r.val = T * 512 + p.val := hi0
  obtain rfl : k = q := Fin.ext hi1
  rw [Cert.KernelIdeal.Pay.pay_norm0, rows0_apply]
  refine congrArg (fun f => Cert.Spec.unitRow f k) (funext fun q' => ?_)
  exact hx p q' r hr

/-- The input window's block at point `t` is rows `512 t …` of the input array. -/
theorem iblk0_apply (c : Dev nD) (t : Fin cfg0.N) (p : Fin 512) (q : Fin 1024) (r : Fin 4096)
    (hr : r.val = t.val * 512 + p.val) :
    (iblk0 (F := Ideal) V c 0 t : Vec Ideal S512x1024 .f32) (ix2 p q)
      = (V c main_arg0 : S4096x1024.Idx → EReal) (ix2 r q) := by
  obtain ⟨e0, e1, -, -, -⟩ := idx_facts0 t
  unfold iblk0
  rw [View.read_apply]
  show (V c main_arg0 : S4096x1024.Idx → EReal) _ = (V c main_arg0 : S4096x1024.Idx → EReal) _
  refine congrArg _ (funext fun a => Fin.ext ?_)
  match a with
  | ⟨0, _⟩ => show win0_0.index t (0 : Fin 2) * 512 + 1 * p.val = r.val; omega
  | ⟨1, _⟩ => show win0_0.index t (1 : Fin 2) * 1024 + 1 * q.val = q.val; omega

/-- What point `t` writes back is block `t` of the array of normalised rows of the input array. -/
theorem flushed0_eq (c : Dev nD) (t : Fin cfg0.N) :
    (dat0 (F := Ideal) V c).flushed 1 t
      = ((cfg0.win 1).blk t).view.read (Elt Ideal) (rows0 (V c main_arg0)) := by
  show (cfg0.win 1).cut (grid0.coords t) ((dat0 V c).after 1 t) = _
  rw [after0_1]
  unfold out0_1
  rw [View.canon_unit_zero hz0]
  simp only [View.ld_unit_zero (S := S512x1024) hz0]
  obtain ⟨-, -, e2, e3, -⟩ := idx_facts0 t
  funext j
  show k0_pay1 (F := Ideal) (iblk0 V c 0 t) j = rows0 (V c main_arg0) (((cfg0.win 1).blk t).view.emb j)
  refine point0 (V c main_arg0) (iblk0 V c 0 t) t.val (fun p q r hr => iblk0_apply V c t p q r hr) j _ ?_ ?_
  · show win0_1.index t (0 : Fin 2) * 512 + 1 * (j 0).val = t.val * 512 + (j 0).val; omega
  · show win0_1.index t (1 : Fin 2) * 1024 + 1 * (j 1).val = (j 1).val; omega

/-- An index of the output array is in point `t`'s block iff each coordinate is in the block's range on its axis. -/
theorem mem_blk0 (t : Fin cfg0.N) (i : S4096x1024.Idx) :
    i ∈ ((cfg0.win 1).blk t).view.set ↔ ∀ a : Fin 2, win0_1.index t a * S512x1024.size a ≤ (i a).val
      ∧ (i a).val < win0_1.index t a * S512x1024.size a + S512x1024.size a := by
  show i ∈ ((View.whole main_v0).slice (win0_1.rect t)).set ↔ _
  rw [View.set_slice_whole, Rect.mem_set_unit]
  exact Iff.rfl

/-- Every row is some point's: row `r` is written by point `r / 512`. -/
theorem cover0 (i : S4096x1024.Idx) :
    ∃ t : Fin cfg0.N, (cfg0.win 1).flush t = true ∧ i ∈ ((cfg0.win 1).blk t).view.set := by
  have hi0 : (i 0).val < 4096 := (i 0).isLt
  have hi1 : (i 1).val < 1024 := (i 1).isLt
  have hN : cfg0.N = 8 := N_0
  refine ⟨⟨(i 0).val / 512, by rw [hN]; omega⟩, flush0_1 _, ?_⟩
  rw [mem_blk0]
  obtain ⟨-, -, e2, e3, -⟩ := idx_facts0 ⟨(i 0).val / 512, by rw [hN]; omega⟩
  intro a
  match a with
  | ⟨0, _⟩ =>
    show win0_1.index _ (0 : Fin 2) * 512 ≤ (i 0).val ∧ (i 0).val < win0_1.index _ (0 : Fin 2) * 512 + 512
    rw [e2]; show (i 0).val / 512 * 512 ≤ (i 0).val ∧ (i 0).val < (i 0).val / 512 * 512 + 512; omega
  | ⟨1, _⟩ =>
    show win0_1.index _ (1 : Fin 2) * 1024 ≤ (i 1).val ∧ (i 1).val < win0_1.index _ (1 : Fin 2) * 1024 + 1024
    rw [e3]; omega

/-- The output array after the region: the normalised rows of the input array as the region finds it. -/
theorem norm0_of (c : Dev nD) : (dat0 (F := Ideal) V c).arrAt 1 cfg0.N = rows0 (V c main_arg0) :=
  (dat0 (F := Ideal) V c).arrAt_eq_of_cover 1 (rows0 (V c main_arg0)) (fun t _ => flushed0_eq V c t) cover0

end Cert.KernelIdeal.Val

end
-- ==== Proof.ValueNorm1.lean ====
/-
  Region 1 of the program, read as a value: the array its output window ends holding.

  The grid has 8 points; point `t` reads rows `512 t … 512 t + 511` of the input array whole, normalises each of
  them (each row divided by its clamped Euclidean length), and writes the 512 normalised rows back to the same rows
  of the output array.  A row's normalisation reads that row only, so the 8 write-backs together leave the output
  array holding, at row `r` and column `k`, row `r` of the input normalised, at column `k`; row `r` is written by
  point `r / 512`.  Stated at an arbitrary valuation `V` of the core's buffers at the region's entry.
-/
import proofs.«115958_j13091060319093_1_alg».proof.Proof.FrameNorm1
import proofs.«115958_j13091060319093_1_alg».proof.Proof.PayNorm
import Idealize.ShloMosaic.Lib.Pipeline.Value
import Idealize.ShloMosaic.Lib.ValueIdx

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- The array of normalised rows of `X`. -/
def rows1 (X : S4096x1024.Idx → EReal) : S4096x1024.Idx → EReal :=
  fun i => Cert.Spec.unitRow (Cert.Spec.rowOf X (i 0)) (i 1)

theorem rows1_apply (X : S4096x1024.Idx → EReal) (r : Fin 4096) (k : Fin 1024) :
    rows1 X (ix2 r k) = Cert.Spec.unitRow (Cert.Spec.rowOf X r) k := rfl

/-- The printed index maps, decided over the 8 points: both windows' block at point `t` is block `(t, 0)`. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0 ∧ t.val < 8 :=
  (by decide +kernel : ∀ t : Fin grid1.N, _)

/-- A block of 512 rows normalised is the same 512 rows of the whole array normalised: the payload at entry `j` of
    a block that holds rows `512 T …` of `X` is `rows1 X` at the entry `i` with `i 0 = 512 T + j 0`, `i 1 = j 1`. -/
theorem point1 (X : S4096x1024.Idx → EReal) (x : Vec Ideal S512x1024 .f32) (T : Nat)
    (hx : ∀ (p : Fin 512) (q : Fin 1024) (r : Fin 4096), r.val = T * 512 + p.val → x (ix2 p q) = X (ix2 r q))
    (j : S512x1024.Idx) (i : S4096x1024.Idx) (hi0 : (i 0).val = T * 512 + (j 0).val) (hi1 : (i 1).val = (j 1).val) :
    k1_pay1 (F := Ideal) x j = rows1 X i := by
  obtain ⟨p, q, rfl⟩ : ∃ (p : Fin 512) (q : Fin 1024), j = ix2 p q := ⟨j 0, j 1, eq_ix2 j⟩
  obtain ⟨r, k, rfl⟩ : ∃ (r : Fin 4096) (k : Fin 1024), i = ix2 r k := ⟨i 0, i 1, eq_ix2 i⟩
  have hr : r.val = T * 512 + p.val := hi0
  obtain rfl : k = q := Fin.ext hi1
  rw [Cert.KernelIdeal.Pay.pay_norm1, rows1_apply]
  refine congrArg (fun f => Cert.Spec.unitRow f k) (funext fun q' => ?_)
  exact hx p q' r hr

/-- The input window's block at point `t` is rows `512 t …` of the input array. -/
theorem iblk1_apply (c : Dev nD) (t : Fin cfg1.N) (p : Fin 512) (q : Fin 1024) (r : Fin 4096)
    (hr : r.val = t.val * 512 + p.val) :
    (iblk1 (F := Ideal) V c 0 t : Vec Ideal S512x1024 .f32) (ix2 p q)
      = (V c main_arg1 : S4096x1024.Idx → EReal) (ix2 r q) := by
  obtain ⟨e0, e1, -, -, -⟩ := idx_facts1 t
  unfold iblk1
  rw [View.read_apply]
  show (V c main_arg1 : S4096x1024.Idx → EReal) _ = (V c main_arg1 : S4096x1024.Idx → EReal) _
  refine congrArg _ (funext fun a => Fin.ext ?_)
  match a with
  | ⟨0, _⟩ => show win1_0.index t (0 : Fin 2) * 512 + 1 * p.val = r.val; omega
  | ⟨1, _⟩ => show win1_0.index t (1 : Fin 2) * 1024 + 1 * q.val = q.val; omega

/-- What point `t` writes back is block `t` of the array of normalised rows of the input array. -/
theorem flushed1_eq (c : Dev nD) (t : Fin cfg1.N) :
    (dat1 (F := Ideal) V c).flushed 1 t
      = ((cfg1.win 1).blk t).view.read (Elt Ideal) (rows1 (V c main_arg1)) := by
  show (cfg1.win 1).cut (grid1.coords t) ((dat1 V c).after 1 t) = _
  rw [after1_1]
  unfold out1_1
  rw [View.canon_unit_zero hz1]
  simp only [View.ld_unit_zero (S := S512x1024) hz1]
  obtain ⟨-, -, e2, e3, -⟩ := idx_facts1 t
  funext j
  show k1_pay1 (F := Ideal) (iblk1 V c 0 t) j = rows1 (V c main_arg1) (((cfg1.win 1).blk t).view.emb j)
  refine point1 (V c main_arg1) (iblk1 V c 0 t) t.val (fun p q r hr => iblk1_apply V c t p q r hr) j _ ?_ ?_
  · show win1_1.index t (0 : Fin 2) * 512 + 1 * (j 0).val = t.val * 512 + (j 0).val; omega
  · show win1_1.index t (1 : Fin 2) * 1024 + 1 * (j 1).val = (j 1).val; omega

/-- An index of the output array is in point `t`'s block iff each coordinate is in the block's range on its axis. -/
theorem mem_blk1 (t : Fin cfg1.N) (i : S4096x1024.Idx) :
    i ∈ ((cfg1.win 1).blk t).view.set ↔ ∀ a : Fin 2, win1_1.index t a * S512x1024.size a ≤ (i a).val
      ∧ (i a).val < win1_1.index t a * S512x1024.size a + S512x1024.size a := by
  show i ∈ ((View.whole main_v1).slice (win1_1.rect t)).set ↔ _
  rw [View.set_slice_whole, Rect.mem_set_unit]
  exact Iff.rfl

/-- Every row is some point's: row `r` is written by point `r / 512`. -/
theorem cover1 (i : S4096x1024.Idx) :
    ∃ t : Fin cfg1.N, (cfg1.win 1).flush t = true ∧ i ∈ ((cfg1.win 1).blk t).view.set := by
  have hi0 : (i 0).val < 4096 := (i 0).isLt
  have hi1 : (i 1).val < 1024 := (i 1).isLt
  have hN : cfg1.N = 8 := N_1
  refine ⟨⟨(i 0).val / 512, by rw [hN]; omega⟩, flush1_1 _, ?_⟩
  rw [mem_blk1]
  obtain ⟨-, -, e2, e3, -⟩ := idx_facts1 ⟨(i 0).val / 512, by rw [hN]; omega⟩
  intro a
  match a with
  | ⟨0, _⟩ =>
    show win1_1.index _ (0 : Fin 2) * 512 ≤ (i 0).val ∧ (i 0).val < win1_1.index _ (0 : Fin 2) * 512 + 512
    rw [e2]; show (i 0).val / 512 * 512 ≤ (i 0).val ∧ (i 0).val < (i 0).val / 512 * 512 + 512; omega
  | ⟨1, _⟩ =>
    show win1_1.index _ (1 : Fin 2) * 1024 ≤ (i 1).val ∧ (i 1).val < win1_1.index _ (1 : Fin 2) * 1024 + 1024
    rw [e3]; omega

/-- The output array after the region: the normalised rows of the input array as the region finds it. -/
theorem norm1_of (c : Dev nD) : (dat1 (F := Ideal) V c).arrAt 1 cfg1.N = rows1 (V c main_arg1) :=
  (dat1 (F := Ideal) V c).arrAt_eq_of_cover 1 (rows1 (V c main_arg1)) (fun t _ => flushed1_eq V c t) cover1

end Cert.KernelIdeal.Val

end
-- ==== Proof.ValueCat.lean ====
/-
  The two normalising regions and the concatenation, read as values of the launch memory.

  Region 0 leaves its output array at the normalised rows of the first argument; region 1 touches neither that array
  nor the first argument, reads the second argument as launched, and leaves its own output array at the normalised
  rows of the second argument.  The host then stacks the two arrays along the rows: row `n` of the result is row `n`
  of the first when `n < 4096` and row `n - 4096` of the second otherwise — the stacked unit rows of the
  specification.
-/
import proofs.«115958_j13091060319093_1_alg».proof.Proof.FrameRun01
import proofs.«115958_j13091060319093_1_alg».proof.Proof.ValueNorm0
import proofs.«115958_j13091060319093_1_alg».proof.Proof.ValueNorm1
import Idealize.ShloMosaic.Lib.StableHlo.Run
import Idealize.ShloMosaic.Lib.Pipeline.Value

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (c : Dev nD)

/-- Region 0's output array after the region: the normalised rows of the first argument. -/
theorem norm0_final : (dat0 (F := Ideal) (U0 m) c).arrAt 1 cfg0.N
    = fun i : S4096x1024.Idx => Cert.Spec.unitRow (Cert.Spec.rowOf (m ((c : Thread nD τ).loc main_arg0)) (i 0)) (i 1) :=
  norm0_of (U0 m) c

/-- Region 1 finds the second argument as launched: region 0 writes its own output array only. -/
theorem U1_arg1 : U1 (F := Ideal) m c main_arg1 = m ((c : Thread nD τ).loc main_arg1) :=
  W1_of_ne m c main_arg1 (by decide)

/-- Region 1's output array after the region: the normalised rows of the second argument. -/
theorem norm1_final : (dat1 (F := Ideal) (U1 m) c).arrAt 1 cfg1.N
    = fun i : S4096x1024.Idx => Cert.Spec.unitRow (Cert.Spec.rowOf (m ((c : Thread nD τ).loc main_arg1)) (i 0)) (i 1) := by
  rw [norm1_of (U1 m) c, U1_arg1]
  rfl

/-- The first stacked array as the concatenation finds it: region 1 leaves it as region 0 left it. -/
theorem W2_v0 : (W2 (F := Ideal) m c (Proc.devRef .tc main_v0) : S4096x1024.Idx → EReal)
    = fun i : S4096x1024.Idx => Cert.Spec.unitRow (Cert.Spec.rowOf (m ((c : Thread nD τ).loc main_arg0)) (i 0)) (i 1) :=
  (W2_of_ne m c main_v0 (by decide)).trans ((W1_arr m c 1).trans (norm0_final m c))

/-- The second stacked array as the concatenation finds it. -/
theorem W2_v1 : (W2 (F := Ideal) m c (Proc.devRef .tc main_v1) : S4096x1024.Idx → EReal)
    = fun i : S4096x1024.Idx => Cert.Spec.unitRow (Cert.Spec.rowOf (m ((c : Thread nD τ).loc main_arg1)) (i 0)) (i 1) :=
  (W2_arr m c 1).trans (norm1_final m c)

/-- The stacked array is the concatenation of the two along the rows. -/
theorem W3_v2 : (W3 (F := Ideal) m c (Proc.devRef .tc main_v2) : S8192x1024.Idx → EReal)
    = concatenate S8192x1024 0
        [⟨S4096x1024, (W2 (F := Ideal) m c (Proc.devRef .tc main_v0) : S4096x1024.Idx → EReal)⟩,
         ⟨S4096x1024, (W2 (F := Ideal) m c (Proc.devRef .tc main_v1) : S4096x1024.Idx → EReal)⟩]
        concatenates_S4096x1024_S4096x1024_S8192x1024_d0 := by
  show StableHlo.after hostOps2 (W2 m c) (Proc.devRef .tc main_v2) = _
  after_results

/-- The stacked array, entry by entry, is the specification's stacked unit rows of the two arguments. -/
theorem cat_value (n : Fin 8192) (k : Fin 1024) :
    (W3 (F := Ideal) m c (Proc.devRef .tc main_v2) : S8192x1024.Idx → EReal) (ix2 n k)
      = Cert.Spec.z (m ((c : Thread nD τ).loc main_arg0)) (m ((c : Thread nD τ).loc main_arg1)) n k := by
  rw [W3_v2, W2_v0, W2_v1]
  unfold Cert.Spec.z
  by_cases h : n.val < 4096
  · rw [dif_pos h]
    refine (concatenate_pair_apply_left (t := S8192x1024) (s₁ := S4096x1024) (s₂ := S4096x1024) 0 _ _ _ (ix2 n k) rfl (ix2 ⟨n.val, h⟩ k) ?_).trans rfl
    intro b
    match b with
    | ⟨0, _⟩ => rfl
    | ⟨1, _⟩ => rfl
  · rw [dif_neg h]
    have hn : n.val < 8192 := n.isLt
    refine (concatenate_pair_apply_right (t := S8192x1024) (s₁ := S4096x1024) (s₂ := S4096x1024) 0 _ _ _ (ix2 n k) rfl rfl (ix2 ⟨n.val - 4096, by omega⟩ k) ?_ ?_).trans rfl
    · intro b hb
      match b, hb with
      | ⟨0, _⟩, hb => exact absurd rfl hb
      | ⟨1, _⟩, _ => rfl
    · show n.val - 4096 + 4096 = n.val
      omega

end Cert.KernelIdeal.Val

end
-- ==== Proof.PaySim.lean ====
/-
  The similarity kernel's arithmetic read entry by entry, on the extended reals.

  A row block `a` and a column block `b` of 1024 unit rows each give the 1024 × 1024 block of inner products
  `dotRow a b p q = Σ_k a[p,k] · b[q,k]` (the row block times the transpose of the column block, added to a zero
  accumulator).  From it the body forms `exp (2 · dotRow)`, adds each row's sum over the block's columns to a running
  column of row sums, and, on the two blocks where they are wanted, keeps the block's diagonal (a row sum of the block
  masked to `p = q`).  The last step combines the three columns into `(0 - 2·s₂) + log (s₀ - s₁)`.
-/
import proofs.«115958_j13091060319093_1_alg».proof.Proof.Gen.KernelIdeal.Skeleton
import proofs.«115958_j13091060319093_1_alg».proof.Proof.Spec
import proofs.«115958_j13091060319093_1_alg».proof.Proof.LibLayout
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Idealize.ShloMosaic Idealize.ShloMosaic.ValueIdx Cert.KernelIdeal Cert.KernelIdeal.Gen

/-- The inner product of row `p` of `a` with row `q` of `b`. -/
def dotRow (a b : Vec Ideal S1024x1024 .bf16) (p q : Fin 1024) : EReal := ∑ k : Fin 1024, a (ix2 p k) * b (ix2 q k)

/-- The contraction record of the block product: the left operand's columns against the right operand's rows. -/
abbrev blockDims := dot_S1024x1024_S1024x1024_S1024x1024_1_0_0_1_n_n

/-- The operand indices of the block product at output `(i₀, i₁)` and contraction coordinate `k`: the left operand is read at
    `(i₀, k)`, the right one at `(k, i₁)`. -/
theorem blockDims_lhs0 (i : S1024x1024.Idx) (k : blockDims.contr.Idx) : (blockDims.lhsIdx i k 0).val = (i 0).val := by
  unfold DotDims.lhsIdx
  rw [dif_neg (show ¬(0 : Fin S1024x1024.rank) ∈ blockDims.lhsBatch by decide), dif_pos (show (0 : Fin S1024x1024.rank) ∈ blockDims.lhsNonContracting by decide)]
  rfl
theorem blockDims_lhs1 (i : S1024x1024.Idx) (k : blockDims.contr.Idx) : (blockDims.lhsIdx i k 1).val = (k ⟨0, by decide⟩).val :=
  blockDims.lhsIdx_val_of_single rfl i k
theorem blockDims_rhs0 (i : S1024x1024.Idx) (k : blockDims.contr.Idx) : (blockDims.rhsIdx i k 0).val = (k ⟨0, by decide⟩).val :=
  blockDims.rhsIdx_val_of_single rfl i k
theorem blockDims_rhs1 (i : S1024x1024.Idx) (k : blockDims.contr.Idx) : (blockDims.rhsIdx i k 1).val = (i 1).val := by
  unfold DotDims.rhsIdx
  rw [dif_neg (show ¬(1 : Fin S1024x1024.rank) ∈ blockDims.rhsBatch by decide), dif_pos (show (1 : Fin S1024x1024.rank) ∈ blockDims.rhsNonContracting by decide)]
  rfl

/-- The block product at `(p, q)`: the right operand is the column block transposed, so the entry is the inner product of
    row `p` of `a` with row `q` of `b`. -/
theorem pay_dot (a b : Vec Ideal S1024x1024 .bf16) (p q : Fin 1024) :
    Gen.k2_pay4 (F := Ideal) a b (ix2 p q) = dotRow a b p q := by
  unfold Gen.k2_pay4 dotRow
  rw [shapeCast_self, shapeCast_self]
  refine (Ideal.matmul_constant_zero_apply blockDims none a _ (ix2 p q)).trans ?_
  rw [← Equiv.sum_comp (contrEquiv1 blockDims 1024 rfl rfl).symm]
  refine Finset.sum_congr rfl fun k _ => ?_
  have hk := contrEquiv1_symm_val blockDims 1024 rfl rfl k
  have el : blockDims.lhsIdx (ix2 p q) ((contrEquiv1 blockDims 1024 rfl rfl).symm k) = ix2 p k := funext fun c => Fin.ext (by
    match c with
    | ⟨0, _⟩ => exact blockDims_lhs0 _ _
    | ⟨1, _⟩ => exact (blockDims_lhs1 _ _).trans hk)
  have er : blockDims.rhsIdx (ix2 p q) ((contrEquiv1 blockDims 1024 rfl rfl).symm k) = ix2 k q := funext fun c => Fin.ext (by
    match c with
    | ⟨0, _⟩ => exact (blockDims_rhs0 _ _).trans hk
    | ⟨1, _⟩ => exact blockDims_rhs1 _ _)
  rw [el, er, transpose_ix2_apply]

/-- The exponentials: `exp (2 · ⟨a p, b q⟩)` at `(p, q)`. -/
theorem pay_exp (a b : Vec Ideal S1024x1024 .bf16) (p q : Fin 1024) :
    Gen.k2_pay5 (F := Ideal) a b (ix2 p q) = Ideal.exp (dotRow a b p q * Cert.Spec.two) := by
  unfold Gen.k2_pay5
  show Ideal.exp (Gen.k2_pay4 (F := Ideal) a b (ix2 p q) * Ideal.ofBits .f32 0x40000000#32) = _
  rw [pay_dot]
  rfl

/-- A sum over the columns of a 1024 × 1024 block, read at row `p`: the sum of the row's 1024 entries. -/
theorem laneSum (v : FVec Ideal S1024x1024 .f32) (hφ : FKind.Formats .f32)
    (hacc : (0x00000000#32 : BitVec 32) = 0x00000000#32) (p : Fin 1024) :
    multiReduction .add [1] S1024 v 0x00000000#32 reduces_S1024x1024_S1024 hφ hacc (ix1 p) = ∑ k : Fin 1024, v (ix2 p k) := by
  refine (Ideal.multiReduction_add_single v 0x00000000#32 reduces_S1024x1024_S1024 hφ hacc (ix1 p)).trans ?_
  refine Finset.sum_congr rfl fun k _ => congrArg v (funext fun c => Fin.ext ?_)
  match c with
  | ⟨0, _⟩ => rfl
  | ⟨1, _⟩ => rfl

/-- The running column of row sums after the block: what it held plus the row's 1024 exponentials. -/
theorem pay_acc (a b : Vec Ideal S1024x1024 .bf16) (s : Vec Ideal S1024x1 .f32) (p : Fin 1024) :
    Gen.k2_pay6 (F := Ideal) a b s (ix2 p 0)
      = s (ix2 p 0) + ∑ q : Fin 1024, Ideal.exp (dotRow a b p q * Cert.Spec.two) := by
  unfold Gen.k2_pay6
  rw [shapeCast_self]
  refine (addf_apply _ _ _).trans ?_
  refine congrArg (s (ix2 p 0) + ·) ?_
  refine (Cert.Attn.Layout.shapeCast_a_a1_apply _ shapeCasts_S1024_S1024x1 p 0).trans ?_
  refine (laneSum _ _ _ p).trans ?_
  exact Finset.sum_congr rfl fun q _ => pay_exp a b p q

/-- The three running columns start from the zero column. -/
theorem pay_zero1 (p : Fin 1024) : Gen.k2_pay1 (F := Ideal) (ix2 p 0) = Cert.Spec.zero := by
  unfold Gen.k2_pay1
  rw [shapeCast_self]
  rfl
theorem pay_zero2 (p : Fin 1024) : Gen.k2_pay2 (F := Ideal) (ix2 p 0) = Cert.Spec.zero := by
  unfold Gen.k2_pay2
  rw [shapeCast_self]
  rfl
theorem pay_zero3 (p : Fin 1024) : Gen.k2_pay3 (F := Ideal) (ix2 p 0) = Cert.Spec.zero := by
  unfold Gen.k2_pay3
  rw [shapeCast_self]
  rfl

/-- Row `p`'s coordinate equals column `k`'s exactly when `k = p`, so the select keeps the diagonal entry. -/
theorem diag_select (p k : Fin 1024) (A B : EReal) :
    Scalar.select (IntOp.cmpi .eq (BitVec.ofNat 32 p.val) (BitVec.ofNat 32 k.val)) A B = if k = p then A else B := by
  have h : IntOp.cmpi .eq (BitVec.ofNat 32 p.val) (BitVec.ofNat 32 k.val) = 1#1 ↔ k = p := by
    rw [IntOp.cmpi_eq]
    constructor
    · intro h
      have h' := congrArg BitVec.toNat h
      simp only [BitVec.toNat_ofNat] at h'
      have hp := p.isLt
      have hk := k.isLt
      exact Fin.ext (by omega)
    · rintro rfl; rfl
  by_cases hkp : k = p
  · rw [h.mpr hkp, select_one, if_pos hkp]
  · rw [eq_zero_of_ne_one (fun hh => hkp (h.mp hh)), select_zero, if_neg hkp]

/-- The row sum of a block masked to its diagonal is the diagonal entry. -/
theorem diagSum (X : FVec Ideal S1024x1024 .f32) (p : Fin 1024) :
    ∑ k : Fin 1024, select (cmpi .eq (iota .tc S1024x1024 32 [0] iota_S1024x1024_d0_w32) (iota .tc S1024x1024 32 [1] iota_S1024x1024_d1_w32))
        X (broadcast S1024x1024 (Scalar.ofBits (F := Ideal) .f32 0x00000000#32)) (ix2 p k) = X (ix2 p p) := by
  have hterm : ∀ k : Fin 1024, select (cmpi .eq (iota .tc S1024x1024 32 [0] iota_S1024x1024_d0_w32) (iota .tc S1024x1024 32 [1] iota_S1024x1024_d1_w32))
        X (broadcast S1024x1024 (Scalar.ofBits (F := Ideal) .f32 0x00000000#32)) (ix2 p k) = if k = p then X (ix2 p k) else 0 := fun k => by
    show Scalar.select (IntOp.cmpi .eq (iota .tc S1024x1024 32 [0] iota_S1024x1024_d0_w32 (ix2 p k)) (iota .tc S1024x1024 32 [1] iota_S1024x1024_d1_w32 (ix2 p k)))
        (X (ix2 p k)) (Ideal.ofBits .f32 0x00000000#32) = _
    rw [iota_single_apply, iota_single_apply, Ideal.ofBits_zero_f32]
    exact diag_select p k _ _
  rw [Finset.sum_congr rfl (fun k _ => hterm k), Finset.sum_ite_eq' Finset.univ p (fun k => X (ix2 p k)), if_pos (Finset.mem_univ p)]

/-- The block of exponentials masked to its diagonal and summed along each row: the diagonal exponential. -/
theorem pay_diagE (a b : Vec Ideal S1024x1024 .bf16) (p : Fin 1024) :
    Gen.k2_pay7 (F := Ideal) a b (ix2 p 0) = Ideal.exp (dotRow a b p p * Cert.Spec.two) := by
  unfold Gen.k2_pay7
  rw [shapeCast_self]
  refine (Cert.Attn.Layout.shapeCast_a_a1_apply _ shapeCasts_S1024_S1024x1 p 0).trans ?_
  refine (laneSum _ _ _ p).trans ?_
  exact (diagSum _ p).trans (pay_exp a b p p)

/-- The block of inner products masked to its diagonal and summed along each row: the diagonal inner product. -/
theorem pay_diagS (a b : Vec Ideal S1024x1024 .bf16) (p : Fin 1024) :
    Gen.k2_pay8 (F := Ideal) a b (ix2 p 0) = dotRow a b p p := by
  unfold Gen.k2_pay8
  rw [shapeCast_self]
  refine (Cert.Attn.Layout.shapeCast_a_a1_apply _ shapeCasts_S1024_S1024x1 p 0).trans ?_
  refine (laneSum _ _ _ p).trans ?_
  exact (diagSum _ p).trans (pay_dot a b p p)

/-- The last step, entry by entry: `(0 - 2·s₂) + log (s₀ - s₁)`. -/
theorem pay_final (s0 s1 s2 : Vec Ideal S1024x1 .f32) (p : Fin 1024) :
    Gen.k2_pay9 (F := Ideal) s0 s1 s2 (ix2 p 0)
      = (Cert.Spec.zero - s2 (ix2 p 0) * Cert.Spec.two) + Ideal.log (s0 (ix2 p 0) - s1 (ix2 p 0)) := rfl

end Cert.KernelIdeal.Pay

end
-- ==== Proof.ValueSimBlocks.lean ====
/-
  The loss region's two input blocks as rows of the stacked unit rows.

  Point `t` of the 8 × 8 grid is `(i, j) = (t / 8, t % 8)`.  Its row block is rows `1024·i … 1024·i + 1023` of the
  8192 × 1024 array of unit rows, its column block rows `1024·j … 1024·j + 1023` of the same array.  So the block of
  inner products at that point is the `(i, j)` block of the 8192 × 8192 matrix of inner products.
-/
import proofs.«115958_j13091060319093_1_alg».proof.Proof.FrameSim
import proofs.«115958_j13091060319093_1_alg».proof.Proof.PaySim
import proofs.«115958_j13091060319093_1_alg».proof.Proof.Spec
import Idealize.ShloMosaic.Lib.Pipeline.Value
import Idealize.ShloMosaic.Lib.ValueIdx

noncomputable section

open scoped BigOperators

namespace Cert.KernelIdeal.Val

open Cert.KernelIdeal Cert.KernelIdeal.Gen Cert.KernelIdeal.Fr Cert.KernelIdeal.Pay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The block coordinates of the three windows at point `t`: row block `t / 8`, column block `t % 8`, output block `t / 8`. -/
theorem blkIdx0 : ∀ t : Fin cfg2.N, win2_0.index t 0 = t.val / 8 ∧ win2_0.index t 1 = 0 :=
  (by decide +kernel : ∀ t : Fin grid2.N, win2_0.index t 0 = t.val / 8 ∧ win2_0.index t 1 = 0)
theorem blkIdx1 : ∀ t : Fin cfg2.N, win2_1.index t 0 = t.val % 8 ∧ win2_1.index t 1 = 0 :=
  (by decide +kernel : ∀ t : Fin grid2.N, win2_1.index t 0 = t.val % 8 ∧ win2_1.index t 1 = 0)
theorem blkIdx2 : ∀ t : Fin cfg2.N, win2_2.index t 0 = t.val / 8 ∧ win2_2.index t 1 = 0 :=
  (by decide +kernel : ∀ t : Fin grid2.N, win2_2.index t 0 = t.val / 8 ∧ win2_2.index t 1 = 0)

/-- The row block at point `t`, entry `(p, k)`: row `1024·(t / 8) + p` of the array, column `k`. -/
theorem rowBlk_apply (c : Dev nD) (t : Fin cfg2.N) (p k : Fin 1024) (n : Fin 8192) (hn : n.val = 1024 * (t.val / 8) + p.val) :
    (iblk2 V c 0 t : Vec Ideal S1024x1024 .bf16) (ix2 p k) = (V c main_v2 : S8192x1024.Idx → EReal) (ix2 n k) := by
  unfold iblk2
  rw [View.read_apply]
  show V c main_v2 _ = V c main_v2 _
  congr 1
  funext a
  apply Fin.ext
  match a with
  | ⟨0, _⟩ => show win2_0.index t 0 * 1024 + 1 * p.val = n.val; rw [(blkIdx0 t).1, hn]; omega
  | ⟨1, _⟩ => show win2_0.index t 1 * 1024 + 1 * k.val = k.val; rw [(blkIdx0 t).2]; omega

/-- The column block at point `t`, entry `(q, k)`: row `1024·(t % 8) + q` of the array, column `k`. -/
theorem colBlk_apply (c : Dev nD) (t : Fin cfg2.N) (q k : Fin 1024) (n : Fin 8192) (hn : n.val = 1024 * (t.val % 8) + q.val) :
    (iblk2 V c 1 t : Vec Ideal S1024x1024 .bf16) (ix2 q k) = (V c main_v2 : S8192x1024.Idx → EReal) (ix2 n k) := by
  unfold iblk2
  rw [View.read_apply]
  show V c main_v2 _ = V c main_v2 _
  congr 1
  funext a
  apply Fin.ext
  match a with
  | ⟨0, _⟩ => show win2_1.index t 0 * 1024 + 1 * q.val = n.val; rw [(blkIdx1 t).1, hn]; omega
  | ⟨1, _⟩ => show win2_1.index t 1 * 1024 + 1 * k.val = k.val; rw [(blkIdx1 t).2]; omega

variable (Z : Fin 8192 → Fin 1024 → EReal)

/-- Row `p` of block `i` of the 8192 rows, the blocks counted cyclically (so that the bound needs no hypothesis). -/
def rowIx (i : ℕ) (p : Fin 1024) : Fin 8192 :=
  ⟨1024 * (i % 8) + p.val, by have := p.isLt; have := Nat.mod_lt i (show 0 < 8 by decide); omega⟩

theorem rowIx_val (i : ℕ) (p : Fin 1024) : (rowIx i p).val = 1024 * (i % 8) + p.val := rfl

/-- `exp (2 · ⟨z n, z m⟩)`. -/
def expSim (n m : Fin 8192) : EReal := Ideal.exp (Cert.Spec.sim Z n m * Cert.Spec.two)

/-- The block of inner products at point `n` is block `(n / 8, n % 8)` of the matrix of inner products of the rows. -/
theorem dot_blk (c : Dev nD) (hZ : ∀ n k, (V c main_v2 : S8192x1024.Idx → EReal) (ix2 n k) = Z n k)
    (n : ℕ) (hn : n < cfg2.N) (p q : Fin 1024) :
    dotRow (iblk2 V c 0 ⟨n, hn⟩) (iblk2 V c 1 ⟨n, hn⟩) p q = Cert.Spec.sim Z (rowIx (n / 8) p) (rowIx (n % 8) q) := by
  have h64 : n < 64 := lt_of_lt_of_eq hn N_2
  unfold dotRow Cert.Spec.sim
  refine Finset.sum_congr rfl fun k _ => ?_
  rw [rowBlk_apply V c ⟨n, hn⟩ p k (rowIx (n / 8) p) (by show 1024 * (n / 8 % 8) + p.val = 1024 * (n / 8) + p.val; omega),
    colBlk_apply V c ⟨n, hn⟩ q k (rowIx (n % 8) q) (by show 1024 * (n % 8 % 8) + q.val = 1024 * (n % 8) + q.val; omega), hZ, hZ]

/-- A row's positive sits four blocks further on, cyclically, at the same place in its block. -/
theorem partner_rowIx (i : ℕ) (p : Fin 1024) : Cert.Spec.partner (rowIx i p) = rowIx ((i + 4) % 8) p := by
  apply Fin.ext
  show (1024 * (i % 8) + p.val + 4096) % 8192 = 1024 * ((i + 4) % 8 % 8) + p.val
  have := p.isLt
  omega

/-- The 8192 rows are the 8 blocks of 1024 rows. -/
def blkEquiv : Fin 8 × Fin 1024 ≃ Fin 8192 where
  toFun x := rowIx x.1.val x.2
  invFun m := (⟨m.val / 1024, by have := m.isLt; omega⟩, ⟨m.val % 1024, Nat.mod_lt _ (by decide)⟩)
  left_inv x := by
    obtain ⟨j, q⟩ := x
    have := j.isLt
    have := q.isLt
    refine Prod.ext (Fin.ext ?_) (Fin.ext ?_)
    · show (1024 * (j.val % 8) + q.val) / 1024 = j.val; omega
    · show (1024 * (j.val % 8) + q.val) % 1024 = q.val; omega
  right_inv m := by
    have := m.isLt
    apply Fin.ext
    show 1024 * (m.val / 1024 % 8) + m.val % 1024 = m.val
    omega

/-- A sum over the blocks of the sums over each block's rows is the sum over all rows. -/
theorem sum_blocks {M : Type} [AddCommMonoid M] (f : Fin 8192 → M) :
    ∑ j ∈ Finset.range 8, ∑ q : Fin 1024, f (rowIx j q) = ∑ m : Fin 8192, f m := by
  rw [Finset.sum_range (fun j => ∑ q : Fin 1024, f (rowIx j q)),
    ← Fintype.sum_prod_type' (fun (j : Fin 8) (q : Fin 1024) => f (rowIx j.val q))]
  exact Fintype.sum_equiv blkEquiv _ _ (fun x => rfl)

end Cert.KernelIdeal.Val

end
-- ==== Proof.ValueSimAcc.lean ====
/-
  The loss region's three running columns after each grid point, as sums and entries of the matrix of inner products.

  Point `n` of the 64 is `(i, j) = (n / 8, n % 8)`.  For row `p` of row block `i`, i.e. row `r = 1024·i + p` of the 8192:
  the first column holds `Σ_{j' ≤ j} Σ_q exp (2·sim r (1024·j' + q))`; the second holds `exp (2·sim r r)` once the diagonal
  block `j = i` has been passed, and zero before; the third holds `sim r r⁺` once the partner block `j = (i + 4) mod 8` has
  been passed, and zero before.  Each by induction on the point: a point with `j = 0` starts from the cleared columns, any
  other continues row block `i` from the point before.
-/
import proofs.«115958_j13091060319093_1_alg».proof.Proof.ValueSimBlocks

noncomputable section

open scoped BigOperators

namespace Cert.KernelIdeal.Val

open Cert.KernelIdeal Cert.KernelIdeal.Gen Cert.KernelIdeal.Fr Cert.KernelIdeal.Pay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))
variable (Z : Fin 8192 → Fin 1024 → EReal)

theorem specZero_eq : Cert.Spec.zero = 0 := Ideal.ofBits_zero_f32

/-! ## One step of each column, entry by entry -/

theorem nxt0_apply (b : Bool) (xa xb : Vec Ideal S1024x1024 .bf16) (s0 : Vec Ideal S1024x1 .f32) (p : Fin 1024) :
    nxt0 (F := Ideal) b xa xb s0 (ix2 p 0)
      = (bif b then (0 : EReal) else s0 (ix2 p 0)) + ∑ q : Fin 1024, Ideal.exp (dotRow xa xb p q * Cert.Spec.two) := by
  unfold nxt0
  rw [pay_acc]
  cases b
  · rfl
  · show Gen.k2_pay1 (F := Ideal) (ix2 p 0) + _ = _
    rw [pay_zero1, specZero_eq]
    rfl

theorem nxt1_apply (b1 b2 : Bool) (xa xb : Vec Ideal S1024x1024 .bf16) (s1 : Vec Ideal S1024x1 .f32) (p : Fin 1024) :
    nxt1 (F := Ideal) b1 b2 xa xb s1 (ix2 p 0)
      = bif b2 then Ideal.exp (dotRow xa xb p p * Cert.Spec.two) else (bif b1 then Cert.Spec.zero else s1 (ix2 p 0)) := by
  unfold nxt1
  cases b2
  · cases b1
    · rfl
    · exact pay_zero2 p
  · exact pay_diagE xa xb p

theorem nxt2_apply (b1 b3 : Bool) (xa xb : Vec Ideal S1024x1024 .bf16) (s2 : Vec Ideal S1024x1 .f32) (p : Fin 1024) :
    nxt2 (F := Ideal) b1 b3 xa xb s2 (ix2 p 0)
      = bif b3 then dotRow xa xb p p else (bif b1 then Cert.Spec.zero else s2 (ix2 p 0)) := by
  unfold nxt2
  cases b3
  · cases b1
    · rfl
    · exact pay_zero3 p
  · exact pay_diagS xa xb p

/-! ## The recursion, unfolded once -/

theorem accAt_zero' (c : Dev nD) (hn : 0 < cfg2.N) :
    accAt V c 0 hn = (nxt0 (bc1 0) (iblk2 V c 0 ⟨0, hn⟩) (iblk2 V c 1 ⟨0, hn⟩) (k2_pay1 (F := Ideal)),
      nxt1 (bc1 0) (bc2 0) (iblk2 V c 0 ⟨0, hn⟩) (iblk2 V c 1 ⟨0, hn⟩) (k2_pay2 (F := Ideal)),
      nxt2 (bc1 0) (bc3 0) (iblk2 V c 0 ⟨0, hn⟩) (iblk2 V c 1 ⟨0, hn⟩) (k2_pay3 (F := Ideal))) := rfl

theorem accAt_succ' (c : Dev nD) (n : ℕ) (hn : n + 1 < cfg2.N) :
    accAt V c (n + 1) hn
      = (nxt0 (bc1 (n + 1)) (iblk2 V c 0 ⟨n + 1, hn⟩) (iblk2 V c 1 ⟨n + 1, hn⟩) (accAt V c n (Nat.lt_of_succ_lt hn)).1,
        nxt1 (bc1 (n + 1)) (bc2 (n + 1)) (iblk2 V c 0 ⟨n + 1, hn⟩) (iblk2 V c 1 ⟨n + 1, hn⟩) (accAt V c n (Nat.lt_of_succ_lt hn)).2.1,
        nxt2 (bc1 (n + 1)) (bc3 (n + 1)) (iblk2 V c 0 ⟨n + 1, hn⟩) (iblk2 V c 1 ⟨n + 1, hn⟩) (accAt V c n (Nat.lt_of_succ_lt hn)).2.2) := rfl

/-- The row sums of the block of exponentials at point `n`. -/
theorem expRow_blk (c : Dev nD) (hZ : ∀ n k, (V c main_v2 : S8192x1024.Idx → EReal) (ix2 n k) = Z n k)
    (n : ℕ) (hn : n < cfg2.N) (p : Fin 1024) :
    ∑ q : Fin 1024, Ideal.exp (dotRow (iblk2 V c 0 ⟨n, hn⟩) (iblk2 V c 1 ⟨n, hn⟩) p q * Cert.Spec.two)
      = ∑ q : Fin 1024, expSim Z (rowIx (n / 8) p) (rowIx (n % 8) q) :=
  Finset.sum_congr rfl fun q _ => by rw [dot_blk V Z c hZ n hn p q]; rfl

/-! ## The three columns after point `n` -/

/-- The first column: the exponentials of row `r` summed over the column blocks passed so far. -/
theorem acc0_value (c : Dev nD) (hZ : ∀ n k, (V c main_v2 : S8192x1024.Idx → EReal) (ix2 n k) = Z n k) :
    ∀ (n : ℕ) (hn : n < cfg2.N) (p : Fin 1024),
      (accAt V c n hn).1 (ix2 p 0)
        = ∑ j ∈ Finset.range (n % 8 + 1), ∑ q : Fin 1024, expSim Z (rowIx (n / 8) p) (rowIx j q) := by
  intro n
  induction n with
  | zero =>
    intro hn p
    rw [accAt_zero']
    show nxt0 (F := Ideal) (bc1 0) _ _ (Gen.k2_pay1 (F := Ideal)) (ix2 p 0) = _
    rw [nxt0_apply, expRow_blk V Z c hZ 0 hn p]
    show (0 : EReal) + _ = _
    rw [zero_add]
    exact (Finset.sum_range_one (fun j => ∑ q : Fin 1024, expSim Z (rowIx (0 / 8) p) (rowIx j q))).symm
  | succ n ih =>
    intro hn p
    have h64 : n + 1 < 64 := lt_of_lt_of_eq hn N_2
    rw [accAt_succ']
    show nxt0 (F := Ideal) (bc1 (n + 1)) _ _ (accAt V c n _).1 (ix2 p 0) = _
    rw [nxt0_apply, expRow_blk V Z c hZ (n + 1) hn p, ih (Nat.lt_of_succ_lt hn) p]
    by_cases h1 : (n + 1) % 8 = 0
    · rw [show bc1 (n + 1) = true from decide_eq_true h1, cond_true, zero_add, h1]
      exact (Finset.sum_range_one (fun j => ∑ q : Fin 1024, expSim Z (rowIx ((n + 1) / 8) p) (rowIx j q))).symm
    · have e1 : (n + 1) / 8 = n / 8 := by omega
      have e2 : (n + 1) % 8 = n % 8 + 1 := by omega
      rw [show bc1 (n + 1) = false from decide_eq_false h1, cond_false, e1, e2, Finset.sum_range_succ _ (n % 8 + 1)]

/-- The second column: the diagonal exponential once the diagonal block has been passed. -/
theorem acc1_value (c : Dev nD) (hZ : ∀ n k, (V c main_v2 : S8192x1024.Idx → EReal) (ix2 n k) = Z n k) :
    ∀ (n : ℕ) (hn : n < cfg2.N) (p : Fin 1024),
      (accAt V c n hn).2.1 (ix2 p 0)
        = if n / 8 ≤ n % 8 then expSim Z (rowIx (n / 8) p) (rowIx (n / 8) p) else Cert.Spec.zero := by
  intro n
  induction n with
  | zero =>
    intro hn p
    rw [accAt_zero']
    show nxt1 (F := Ideal) (bc1 0) (bc2 0) _ _ (Gen.k2_pay2 (F := Ideal)) (ix2 p 0) = _
    rw [nxt1_apply, dot_blk V Z c hZ 0 hn p p]
    rfl
  | succ n ih =>
    intro hn p
    have h64 : n + 1 < 64 := lt_of_lt_of_eq hn N_2
    rw [accAt_succ']
    show nxt1 (F := Ideal) (bc1 (n + 1)) (bc2 (n + 1)) _ _ (accAt V c n _).2.1 (ix2 p 0) = _
    rw [nxt1_apply, dot_blk V Z c hZ (n + 1) hn p p, ih (Nat.lt_of_succ_lt hn) p]
    by_cases h2 : (n + 1) % 8 = (n + 1) / 8
    · rw [show bc2 (n + 1) = true from decide_eq_true h2, cond_true, h2, if_pos (le_refl _)]
      rfl
    · rw [show bc2 (n + 1) = false from decide_eq_false h2, cond_false]
      by_cases h1 : (n + 1) % 8 = 0
      · rw [show bc1 (n + 1) = true from decide_eq_true h1, cond_true, if_neg (by omega)]
      · have e1 : (n + 1) / 8 = n / 8 := by omega
        have e2 : (n + 1) % 8 = n % 8 + 1 := by omega
        rw [show bc1 (n + 1) = false from decide_eq_false h1, cond_false, e1, e2]
        by_cases hle : n / 8 ≤ n % 8
        · rw [if_pos hle, if_pos (by omega)]
        · rw [if_neg hle, if_neg (by omega)]

/-- The third column: the inner product with the positive once the positive's block has been passed. -/
theorem acc2_value (c : Dev nD) (hZ : ∀ n k, (V c main_v2 : S8192x1024.Idx → EReal) (ix2 n k) = Z n k) :
    ∀ (n : ℕ) (hn : n < cfg2.N) (p : Fin 1024),
      (accAt V c n hn).2.2 (ix2 p 0)
        = if (n / 8 + 4) % 8 ≤ n % 8 then Cert.Spec.sim Z (rowIx (n / 8) p) (Cert.Spec.partner (rowIx (n / 8) p))
          else Cert.Spec.zero := by
  intro n
  induction n with
  | zero =>
    intro hn p
    rw [accAt_zero']
    show nxt2 (F := Ideal) (bc1 0) (bc3 0) (iblk2 V c 0 ⟨0, hn⟩) (iblk2 V c 1 ⟨0, hn⟩) (Gen.k2_pay3 (F := Ideal)) (ix2 p 0) = _
    rw [nxt2_apply]
    rfl
  | succ n ih =>
    intro hn p
    have h64 : n + 1 < 64 := lt_of_lt_of_eq hn N_2
    rw [accAt_succ']
    show nxt2 (F := Ideal) (bc1 (n + 1)) (bc3 (n + 1)) _ _ (accAt V c n _).2.2 (ix2 p 0) = _
    rw [nxt2_apply, dot_blk V Z c hZ (n + 1) hn p p, ih (Nat.lt_of_succ_lt hn) p, partner_rowIx, partner_rowIx]
    by_cases h3 : (n + 1) % 8 = ((n + 1) / 8 + 4) % 8
    · rw [show bc3 (n + 1) = true from decide_eq_true h3, cond_true, h3, if_pos (le_refl _)]
    · rw [show bc3 (n + 1) = false from decide_eq_false h3, cond_false]
      by_cases h1 : (n + 1) % 8 = 0
      · rw [show bc1 (n + 1) = true from decide_eq_true h1, cond_true, if_neg (by omega)]
      · have e1 : (n + 1) / 8 = n / 8 := by omega
        have e2 : (n + 1) % 8 = n % 8 + 1 := by omega
        rw [show bc1 (n + 1) = false from decide_eq_false h1, cond_false, e1, e2]
        by_cases hle : (n / 8 + 4) % 8 ≤ n % 8
        · rw [if_pos hle, if_pos (by omega)]
        · rw [if_neg hle, if_neg (by omega)]

end Cert.KernelIdeal.Val

end
-- ==== Proof.ValueSim.lean ====
/-
  The loss written at the last column block of each row block.

  At a point `t` with `t % 8 = 7` every column block of row block `i = t / 8` has been passed: the first running column
  holds the row's exponentials summed over all 8192 columns (the eight blocks of 1024 re-indexed as one sum), the second
  the diagonal exponential, the third the inner product with the positive.  The body's last step combines them into
  `(0 - 2·sim r r⁺) + log (Σ_m exp (2·sim r m) - exp (2·sim r r))`, the loss of row `r = 1024·i + p`.
-/
import proofs.«115958_j13091060319093_1_alg».proof.Proof.ValueSimAcc

noncomputable section

open scoped BigOperators

namespace Cert.KernelIdeal.Val

open Cert.KernelIdeal Cert.KernelIdeal.Gen Cert.KernelIdeal.Fr Cert.KernelIdeal.Pay
open Idealize.ShloMosaic Idealize.ShloMosaic.TcCoe Idealize.ShloMosaic.ValueIdx Idealize.SL.Sem
open Idealize.ShloMosaic.Pipeline (Dat)

/-- The output block written at a point with `t % 8 = 7`, entry `p`: the loss of row `1024·(t / 8) + p` (the row named by
    its block and its place in the block). -/
theorem out_value_rowIx (V : (c : Dev nD) → (b : Ref sig .tc) → Buf (Elt Ideal) ((c : Thread nD τ).loc b)) (c : Dev nD)
    (Z : Fin 8192 → Fin 1024 → EReal) (hZ : ∀ n k, (V c main_v2 : S8192x1024.Idx → EReal) (ix2 n k) = Z n k)
    (t : Fin cfg2.N) (h7 : t.val % 8 = 7) (p : Fin 1024) :
    (outAt2 (F := Ideal) V c t) (ix2 p 0) = Cert.Spec.lossK Z (rowIx (t.val / 8) p) := by
  have h64 : t.val < 64 := lt_of_lt_of_eq t.isLt N_2
  unfold outAt2
  rw [pay_final, acc0_value V Z c hZ t.val t.isLt p, acc1_value V Z c hZ t.val t.isLt p, acc2_value V Z c hZ t.val t.isLt p,
    h7, if_pos (by omega), if_pos (by omega),
    show (∑ j ∈ Finset.range (7 + 1), ∑ q : Fin 1024, expSim Z (rowIx (t.val / 8) p) (rowIx j q))
      = ∑ m : Fin 8192, expSim Z (rowIx (t.val / 8) p) m from sum_blocks (fun m => expSim Z (rowIx (t.val / 8) p) m)]
  rfl

/-- The same with the row written out as a number below 8192. -/
theorem out_value (V : (c : Dev nD) → (b : Ref sig .tc) → Buf (Elt Ideal) ((c : Thread nD τ).loc b)) (c : Dev nD)
    (Z : Fin 8192 → Fin 1024 → EReal) (hZ : ∀ n k, (V c main_v2 : S8192x1024.Idx → EReal) (ix2 n k) = Z n k)
    (t : Fin cfg2.N) (h7 : t.val % 8 = 7) (p : Fin 1024) :
    (outAt2 (F := Ideal) V c t) (ix2 p 0)
      = Cert.Spec.lossK Z ⟨1024 * (t.val / 8) + p.val, by have := t.isLt; have : cfg2.N = 64 := N_2; omega⟩ :=
  (out_value_rowIx V c Z hZ t h7 p).trans (congrArg (Cert.Spec.lossK Z) (Fin.ext (by
    have h64 : t.val < 64 := lt_of_lt_of_eq t.isLt N_2
    show 1024 * (t.val / 8 % 8) + p.val = 1024 * (t.val / 8) + p.val
    omega)))

end Cert.KernelIdeal.Val

end
-- ==== Proof.ValueSimCover.lean ====
/-
  The loss column from its written-back blocks.

  The loss region's grid is 8 × 8, point `t = 8 i + j` at row block `i` and column block `j`.  The output window's
  block at `t` is rows `1024 i … 1024 i + 1023` of the one-column loss array, whatever `j`; it is written back only
  at the last column block, `j = 7`.  So the 8 write-backs, one per row block, tile the array: row `n` is written by
  point `8 (n / 1024) + 7`, and if at every such point the output block holds `L` at the block's rows, the array ends
  holding `L`.
-/
import proofs.«115958_j13091060319093_1_alg».proof.Proof.FrameSim
import Idealize.ShloMosaic.Lib.Pipeline.Value
import Idealize.ShloMosaic.Lib.ValueIdx

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The printed index map, decided over the 64 points: the output window's block at point `t` is block `(t / 8, 0)`. -/
theorem idx_facts2 : ∀ t : Fin cfg2.N, win2_2.index t (0 : Fin 2) = t.val / 8 ∧ win2_2.index t (1 : Fin 2) = 0 ∧ t.val < 64 :=
  (by decide +kernel : ∀ t : Fin grid2.N, _)

/-- A block of 1024 rows that holds `L` at rows `1024 T …` is, at its entry `j`, `L` at the array's row `i 0` when
    `i 0 = 1024 T + j 0`. -/
theorem point2 (L : Fin 8192 → EReal) (o : Vec Ideal S1024x1 .f32) (T : Nat)
    (ho : ∀ (p : Fin 1024) (n : Fin 8192), n.val = 1024 * T + p.val → o (ix2 p 0) = L n)
    (j : S1024x1.Idx) (i : S8192x1.Idx) (hi0 : (i 0).val = T * 1024 + (j 0).val) :
    o j = L (i 0) := by
  obtain ⟨p, q, rfl⟩ : ∃ (p : Fin 1024) (q : Fin 1), j = ix2 p q := ⟨j 0, j 1, eq_ix2 j⟩
  obtain rfl : q = 0 := Subsingleton.elim _ _
  have hp : (i 0).val = T * 1024 + p.val := hi0
  exact ho p (i 0) (by omega)

/-- What a flushing point `t` writes back is block `t` of the column `L`, when the output block there holds `L` at
    the block's rows. -/
theorem flushed2_eq (c : Dev nD) (L : Fin 8192 → EReal)
    (hout : ∀ (t : Fin cfg2.N), t.val % 8 = 7 → ∀ (p : Fin 1024) (n : Fin 8192), n.val = 1024 * (t.val / 8) + p.val →
      (outAt2 (F := Ideal) V c t) (ix2 p 0) = L n)
    (t : Fin cfg2.N) (hf : (cfg2.win 2).flush t = true) :
    (dat2 (F := Ideal) V c).flushed 2 t
      = ((cfg2.win 2).blk t).view.read (Elt Ideal) (fun i : S8192x1.Idx => L (i 0)) := by
  have h7 : t.val % 8 = 7 := (flush2_2 t).mp hf
  show (cfg2.win 2).cut (grid2.coords t) ((dat2 V c).after 2 t) = _
  rw [after2_2]
  obtain ⟨e0, e1, -⟩ := idx_facts2 t
  funext j
  show outAt2 (F := Ideal) V c t j = L ((((cfg2.win 2).blk t).view.emb j) 0)
  refine point2 L (outAt2 V c t) (t.val / 8) (fun p n hn => hout t h7 p n hn) j _ ?_
  show win2_2.index t (0 : Fin 2) * 1024 + 1 * (j 0).val = t.val / 8 * 1024 + (j 0).val
  omega

/-- An index of the loss array is in point `t`'s block iff each coordinate is in the block's range on its axis. -/
theorem mem_blk2 (t : Fin cfg2.N) (i : S8192x1.Idx) :
    i ∈ ((cfg2.win 2).blk t).view.set ↔ ∀ a : Fin 2, win2_2.index t a * S1024x1.size a ≤ (i a).val
      ∧ (i a).val < win2_2.index t a * S1024x1.size a + S1024x1.size a := by
  show i ∈ ((View.whole main_v3).slice (win2_2.rect t)).set ↔ _
  rw [View.set_slice_whole, Rect.mem_set_unit]
  exact Iff.rfl

/-- Every row is some flushing point's: row `n` is written by point `8 (n / 1024) + 7`. -/
theorem cover2 (i : S8192x1.Idx) :
    ∃ t : Fin cfg2.N, (cfg2.win 2).flush t = true ∧ i ∈ ((cfg2.win 2).blk t).view.set := by
  have hi0 : (i 0).val < 8192 := (i 0).isLt
  have hi1 : (i 1).val < 1 := (i 1).isLt
  have hN : cfg2.N = 64 := N_2
  have hlt : 8 * ((i 0).val / 1024) + 7 < cfg2.N := by rw [hN]; omega
  refine ⟨⟨8 * ((i 0).val / 1024) + 7, hlt⟩, (flush2_2 _).mpr ?_, ?_⟩
  · show (8 * ((i 0).val / 1024) + 7) % 8 = 7
    omega
  rw [mem_blk2]
  obtain ⟨e0, e1, -⟩ := idx_facts2 ⟨8 * ((i 0).val / 1024) + 7, hlt⟩
  intro a
  match a with
  | ⟨0, _⟩ =>
    show win2_2.index _ (0 : Fin 2) * 1024 ≤ (i 0).val ∧ (i 0).val < win2_2.index _ (0 : Fin 2) * 1024 + 1024
    rw [e0]
    show (8 * ((i 0).val / 1024) + 7) / 8 * 1024 ≤ (i 0).val ∧ (i 0).val < (8 * ((i 0).val / 1024) + 7) / 8 * 1024 + 1024
    omega
  | ⟨1, _⟩ =>
    show win2_2.index _ (1 : Fin 2) * 1 ≤ (i 1).val ∧ (i 1).val < win2_2.index _ (1 : Fin 2) * 1 + 1
    rw [e1]; omega

/-- The loss array after the region is `L`, when at every flushing point the output block holds `L` at the block's
    rows (the row named by a variable and an equation). -/
theorem sim_final_of_out' (c : Dev nD) (L : Fin 8192 → EReal)
    (hout : ∀ (t : Fin cfg2.N), t.val % 8 = 7 → ∀ (p : Fin 1024) (n : Fin 8192), n.val = 1024 * (t.val / 8) + p.val →
      (outAt2 (F := Ideal) V c t) (ix2 p 0) = L n)
    (n : Fin 8192) :
    ((dat2 (F := Ideal) V c).arrAt 2 cfg2.N : S8192x1.Idx → EReal) (ix2 n 0) = L n :=
  congrFun ((dat2 (F := Ideal) V c).arrAt_eq_of_cover 2 (fun i : S8192x1.Idx => L (i 0))
    (fun t hf => flushed2_eq V c L hout t hf) cover2) (ix2 n 0)

/-- The same, the row named by its value. -/
theorem sim_final_of_out (c : Dev nD) (L : Fin 8192 → EReal)
    (hout : ∀ (t : Fin cfg2.N), t.val % 8 = 7 → ∀ p : Fin 1024, (outAt2 (F := Ideal) V c t) (ix2 p 0)
      = L ⟨1024 * (t.val / 8) + p.val, by have := (idx_facts2 t).2.2; have := p.isLt; omega⟩)
    (n : Fin 8192) :
    ((dat2 (F := Ideal) V c).arrAt 2 cfg2.N : S8192x1.Idx → EReal) (ix2 n 0) = L n :=
  sim_final_of_out' V c L (fun t h7 p n hn => (hout t h7 p).trans (congrArg L (Fin.ext hn.symm))) n

end Cert.KernelIdeal.Val

end
-- ==== Proof.ValueTail.lean ====
import proofs.«115958_j13091060319093_1_alg».proof.Proof.FrameRun01
import proofs.«115958_j13091060319093_1_alg».proof.Proof.Spec
import Idealize.ShloMosaic.Lib.StableHlo.Run
import Idealize.ShloMosaic.Lib.ValueIdx
import Idealize.ShloMosaic.PureOps.Ideal.Laws

noncomputable section

open scoped BigOperators

namespace Cert.KernelIdeal.Val

open Cert.KernelIdeal Cert.KernelIdeal.Gen Cert.KernelIdeal.Fr Idealize.ShloMosaic Idealize.ShloMosaic.ValueIdx

/-! The mean of the loss column: the last four host operations of the tiled program, read as the specification's `total`. -/

/-- The host sum of a column of 8192 numbers over both of its axes, from the zero word: the sum of its 8192 entries. -/
theorem sum_col (v : (⟨S8192x1, .f32⟩ : BufTy).Contents (Elt Ideal)) (i : S_.Idx) :
    Host.reduceAdd (F := Ideal) v (constant (F := Ideal) S_ .f32 0x00000000#32) reducesTo_S8192x1_S_d0_1 h_S_ i
      = ∑ n : Fin 8192, v (ix2 n (0 : Fin 1)) := by
  simp only [Host.reduceAdd, Ideal.hostReduceAdd_def]
  rw [Ideal.hostReduceAdd_total reducesTo_S8192x1_S_d0_1 (fun b => b.elim0) v _ i]
  show Ideal.ofBits .f32 0x00000000#32 + _ = _
  rw [Ideal.ofBits_zero_f32, zero_add, sum_idx2]
  exact Finset.sum_congr rfl fun n _ => Fin.sum_univ_one _

/-- The mean of a column whose entries are `L`: the specification's `total L`. -/
theorem mean_col (v : (⟨S8192x1, .f32⟩ : BufTy).Contents (Elt Ideal)) (L : Fin 8192 → EReal)
    (hL : ∀ n : Fin 8192, v (ix2 n (0 : Fin 1)) = L n) :
    Host.divf (F := Ideal) (Host.reduceAdd (F := Ideal) v (constant (F := Ideal) S_ .f32 0x00000000#32) reducesTo_S8192x1_S_d0_1 h_S_)
      (constant (F := Ideal) S_ .f32 0x46000000#32) = fun _ => Cert.Spec.total L := by
  funext i
  show Ideal.div (Host.reduceAdd (F := Ideal) v (constant (F := Ideal) S_ .f32 0x00000000#32) reducesTo_S8192x1_S_d0_1 h_S_ i)
    (Ideal.ofBits .f32 0x46000000#32) = _
  rw [sum_col, Finset.sum_congr rfl (fun n _ => hL n)]
  rfl

/-- What the last host stretch leaves in the result buffer: the quotient, by the word of 8192, of the host sum of the loss
    column from the zero word. -/
theorem W5_v5 (m : (ℓ : Loc nD τ sig) → Buf (Elt Ideal) ℓ) (c : Dev nD) :
    W5 (F := Ideal) m c (Proc.devRef .tc main_v5)
      = Host.divf (F := Ideal) (Host.reduceAdd (F := Ideal) (W4 (F := Ideal) m c (Proc.devRef .tc main_v3))
          (constant (F := Ideal) S_ .f32 0x00000000#32) reducesTo_S8192x1_S_d0_1 h_S_)
        (constant (F := Ideal) S_ .f32 0x46000000#32) := by
  show StableHlo.after hostOps3 (W4 m c) (Proc.devRef .tc main_v5) = _
  after_results

/-- THE TILED PROGRAM'S RESULT, given the loss column's entries: their mean. -/
theorem tail_value (m : (ℓ : Loc nD τ sig) → Buf (Elt Ideal) ℓ) (c : Dev nD) (L : Fin 8192 → EReal)
    (hL : ∀ n : Fin 8192, (dat2 (F := Ideal) (U3 m) c).arrAt 2 cfg2.N (ix2 n (0 : Fin 1)) = L n) :
    W5 (F := Ideal) m c (Proc.devRef .tc main_v5) = fun _ => Cert.Spec.total L := by
  rw [W5_v5]
  exact mean_col _ L fun n => (congrFun (W4_v3 m c) (ix2 n (0 : Fin 1))).trans (hL n)

end Cert.KernelIdeal.Val

end
-- ==== Proof.lean ====
/-
  A tiled contrastive loss against its whole-matrix reference.

  The kernel program normalises the rows of its two 4096 × 1024 arguments block by block (two regions of 8 blocks of
  512 rows), stacks the unit rows, and runs one region over an 8 × 8 grid of 1024-row blocks that accumulates, per row
  n, the sum over all columns m of exp(2·⟨z n, z m⟩), the diagonal term exp(2·⟨z n, z n⟩) and the positive ⟨z n, z n⁺⟩,
  and writes -2·⟨z n, z n⁺⟩ + log (sum - diagonal) when a row block's last column block is done; the host takes the
  mean.  The reference forms the whole 8192 × 8192 matrix, masks its diagonal by 1 - [n = m], and takes
  -log (exp (⟨z n, z n⁺⟩ / ½) / Σ_m (1 - [n = m]) · exp (⟨z n, z m⟩ / ½)).

  The three frames: each region's body is run once for every float instance (the loss region in the sixteen cases of
  its four conditions at once), the loss region's three accumulators carried from point to point in its invariant,
  its two input windows holding one array at half the share each; the regions and the host stretches are composed
  from the launch to the return with every unscoped buffer's contents named at each boundary.  The value: at the
  ideal instance the last boundary's contents at the result is the mean of the per-row losses in the
  logarithm-taken-apart form, the reference's result the mean of the quotient form; on finite inputs every inner
  product is a real and the masked sum a positive real, and there the two forms agree by log (exp a / d) = a - log d.
-/
import proofs.«115958_j13091060319093_1_alg».proof.Defs
import proofs.«115958_j13091060319093_1_alg».proof.Proof.Gen.Kernel
import proofs.«115958_j13091060319093_1_alg».proof.Proof.Gen.KernelIdeal
import proofs.«115958_j13091060319093_1_alg».proof.Proof.Gen.ReferenceIdeal
import proofs.«115958_j13091060319093_1_alg».proof.Proof.Gen.ReferenceIdeal.Run
import proofs.«115958_j13091060319093_1_alg».proof.Proof.Gen.ReferenceIdeal.Read
import proofs.«115958_j13091060319093_1_alg».proof.Proof.Gen.Pre_finite_inputs
import proofs.«115958_j13091060319093_1_alg».proof.Proof.FrameClaims
import proofs.«115958_j13091060319093_1_alg».proof.Proof.KFrameClaims
import proofs.«115958_j13091060319093_1_alg».proof.Proof.Algebra
import proofs.«115958_j13091060319093_1_alg».proof.Proof.Finite
import proofs.«115958_j13091060319093_1_alg».proof.Proof.RefValue
import proofs.«115958_j13091060319093_1_alg».proof.Proof.ValueCat
import proofs.«115958_j13091060319093_1_alg».proof.Proof.ValueSim
import proofs.«115958_j13091060319093_1_alg».proof.Proof.ValueSimCover
import proofs.«115958_j13091060319093_1_alg».proof.Proof.ValueTail
import Idealize.ShloMosaic.Adequacy
import Idealize.ShloMosaic.Init

noncomputable section

namespace Cert.Proof

open Idealize.ShloMosaic Idealize.ShloMosaic.TcCoe Idealize.SL.Sem

/-- The word-level program runs to the end, faults nowhere and leaves its arguments unchanged. -/
theorem frame_k : Cert.frame_Kernel := fun m ρ _ => Cert.Kernel.Fr.frame (F := Bits) m ρ

/-- So does its reading on the extended reals. -/
theorem frame_ki : Cert.frame_KernelIdeal := fun m ρ _ => Cert.KernelIdeal.Fr.frame (F := Ideal) m ρ

/-- The reference is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing of the program was rewritten for the ideal reading. -/
theorem preserves : Cert.preserves_Kernel_KernelIdeal := trivial

/-- On finite inputs both programs end with the mean of the per-row losses: the two forms of a row's loss agree. -/
theorem algebraic : Cert.algebraic_KernelIdeal_ReferenceIdeal := by
  intro m ρ m' ρ' hpre hagree
  refine ⟨fun c => Cert.KernelIdeal.Fr.W5 (F := Ideal) m c (Proc.devRef .tc Cert.KernelIdeal.main_v5),
    Cert.KernelIdeal.Fr.run_value (F := Ideal) m ρ, ?_⟩
  refine (θ_run Cert.ReferenceIdeal.defs _ _).mono (fun _ h c => ⟨(h c).1.trans ?_, (h c).2⟩)
    (Cert.ReferenceIdeal.RefValue.run_total m' ρ')
  obtain ⟨h0, h1⟩ := Cert.Proof.finite_of_pre _ _ (hpre c)
  rw [(hagree c).1, (hagree c).2]
  show _ = Cert.KernelIdeal.Fr.W5 (F := Ideal) m c (Proc.devRef .tc Cert.KernelIdeal.main_v5)
  rw [Cert.KernelIdeal.Val.tail_value m c
    (Cert.Spec.lossK (Cert.Spec.z (m ((c : Thread Cert.KernelIdeal.nD Cert.KernelIdeal.τ).loc Cert.KernelIdeal.main_arg0))
      (m ((c : Thread Cert.KernelIdeal.nD Cert.KernelIdeal.τ).loc Cert.KernelIdeal.main_arg1))))
    (fun n => Cert.KernelIdeal.Val.sim_final_of_out (Cert.KernelIdeal.Fr.U3 m) c _
      (fun t h7 p => Cert.KernelIdeal.Val.out_value (Cert.KernelIdeal.Fr.U3 m) c _
        (fun n k => Cert.KernelIdeal.Val.cat_value m c n k) t h7 p) n)]
  funext _
  exact congrArg Cert.Spec.total (funext fun n => (Cert.Spec.lossK_eq_lossR _ _ h0 h1 n).symm)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
